-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x4096x4 : Shape := ⟨3, ![16, 4096, 4]⟩
abbrev S16x3x4096 : Shape := ⟨3, ![16, 3, 4096]⟩
abbrev S16x1x4096 : Shape := ⟨3, ![16, 1, 4096]⟩
abbrev S16x1x3 : Shape := ⟨3, ![16, 1, 3]⟩
abbrev S4096 : Shape := ⟨1, ![4096]⟩
abbrev S4096x1 : Shape := ⟨2, ![4096, 1]⟩
abbrev S128 : Shape := ⟨1, ![128]⟩
abbrev S1x128 : Shape := ⟨2, ![1, 128]⟩
abbrev S4096x128 : Shape := ⟨2, ![4096, 128]⟩
abbrev S128x4096 : Shape := ⟨2, ![128, 4096]⟩
abbrev S1x1 : Shape := ⟨2, ![1, 1]⟩
abbrev S1x512x4 : Shape := ⟨3, ![1, 512, 4]⟩
abbrev S1x3x4096 : Shape := ⟨3, ![1, 3, 4096]⟩
abbrev S1x1x4096 : Shape := ⟨3, ![1, 1, 4096]⟩
abbrev S1x1x3 : Shape := ⟨3, ![1, 1, 3]⟩
abbrev S1x4096x4 : Shape := ⟨3, ![1, 4096, 4]⟩
abbrev S512x4 : Shape := ⟨2, ![512, 4]⟩
abbrev S3x4096 : Shape := ⟨2, ![3, 4096]⟩
abbrev S1x4096 : Shape := ⟨2, ![1, 4096]⟩
abbrev S1x3 : Shape := ⟨2, ![1, 3]⟩
abbrev S4096x4 : Shape := ⟨2, ![4096, 4]⟩
abbrev S512x3 : Shape := ⟨2, ![512, 3]⟩
abbrev S512x1 : Shape := ⟨2, ![512, 1]⟩
abbrev S512x4096 : Shape := ⟨2, ![512, 4096]⟩
abbrev S512x128 : Shape := ⟨2, ![512, 128]⟩
abbrev S1024x4096 : Shape := ⟨2, ![1024, 4096]⟩
abbrev S1024x4 : Shape := ⟨2, ![1024, 4]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 55
  | .vmem => 13
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x4, .f32⟩
  | .hbm, ⟨7, _⟩ => ⟨S16x3x4096, .f32⟩
  | .hbm, ⟨8, _⟩ => ⟨S_, .f32⟩
  | .hbm, ⟨9, _⟩ => ⟨S16x3x4096, .f32⟩
  | .hbm, ⟨10, _⟩ => ⟨S16x3x4096, .f32⟩
  | .hbm, ⟨11, _⟩ => ⟨S16x3x4096, .f32⟩
  | .hbm, ⟨12, _⟩ => ⟨S_, .f32⟩
  | .hbm, ⟨13, _⟩ => ⟨S16x4096, .f32⟩
  | .hbm, ⟨14, _⟩ => ⟨S16x1x4096, .f32⟩
  | .hbm, ⟨15, _⟩ => ⟨S16x1x3, .f32⟩
  | .hbm, ⟨16, _⟩ => ⟨S_, .f32⟩
  | .hbm, ⟨17, _⟩ => ⟨S16x4096x1, .f32⟩
  | .hbm, ⟨18, _⟩ => ⟨S16x4096x4, .f32⟩
  | .hbm, ⟨19, _⟩ => ⟨S4096, .i32⟩
  | .hbm, ⟨20, _⟩ => ⟨S_, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S128, .i32⟩
  | .hbm, ⟨40, _⟩ => ⟨S1x128, .i32⟩
  | .hbm, ⟨41, _⟩ => ⟨S4096x128, .i32⟩
  | .hbm, ⟨42, _⟩ => ⟨S4096x128, .i32⟩
  | .hbm, ⟨43, _⟩ => ⟨S4096x128, .i1⟩
  | .hbm, ⟨44, _⟩ => ⟨S4096x128, .f32⟩
  | .hbm, ⟨45, _⟩ => ⟨S4096x128, .bf16⟩
  | .hbm, ⟨46, _⟩ => ⟨S128x4096, .f32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1x512x4, .f32⟩
  | .local _ .vmem, ⟨1, _⟩ => ⟨S1x512x4, .f32⟩
  | .local _ .vmem, ⟨2, _⟩ => ⟨S1x3x4096, .f32⟩
  | .local _ .vmem, ⟨3, _⟩ => ⟨S1x3x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x3, .f32⟩
  | .local _ .vmem, ⟨7, _⟩ => ⟨S1x1x3, .f32⟩
  | .local _ .vmem, ⟨8, _⟩ => ⟨S1x4096x4, .f32⟩
  | .local _ .vmem, ⟨9, _⟩ => ⟨S1x4096x4, .f32⟩
  | .local _ .vmem, ⟨10, _⟩ => ⟨S4096x128, .bf16⟩
  | .local _ .vmem, ⟨11, _⟩ => ⟨S128x4096, .f32⟩
  | .local _ .vmem, ⟨12, _⟩ => ⟨S1x1, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst_0 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_cst_1 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_cst_2 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_c : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_c : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_call0_c_0 : Ref sig .tc := ⟨.hbm, 34, rfl⟩
abbrev main_call0_call0_v12 : Ref sig .tc := ⟨.hbm, 35, rfl⟩
abbrev main_call0_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_v25 : Ref sig .tc := ⟨.hbm, 48, rfl⟩
abbrev main_call0_cst_3 : Ref sig .tc := ⟨.hbm, 49, rfl⟩
abbrev main_call0_v26 : Ref sig .tc := ⟨.hbm, 50, rfl⟩
abbrev main_call0_cst_4 : Ref sig .tc := ⟨.hbm, 51, rfl⟩
abbrev main_call0_v27 : Ref sig .tc := ⟨.hbm, 52, rfl⟩
abbrev main_call0_cst_5 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  concatenates_S16x4096x3_S16x4096x1_S16x4096x4_d2 : Shape.Concatenates [S16x4096x3, S16x4096x1] S16x4096x4 2
  transposes_S16x4096x3_S16x3x4096_0_2_1 : S16x4096x3.Transposes [0, 2, 1] S16x3x4096
  bcast_S_S16x3x4096 : S_.BroadcastsInDim S16x3x4096 (![] : Fin 0 → Fin S16x3x4096.rank)
  reducesTo_S16x3x4096_S16x4096_d1 : S16x3x4096.ReducesTo [1] S16x4096
  bcast_S16x4096_S16x1x4096_0_2 : S16x4096.BroadcastsInDim S16x1x4096 (![0, 2] : Fin 2 → Fin S16x1x4096.rank)
  slices_S16x4096x3_S16x1x3_0_4095_0 : S16x4096x3.Slices ![0, 4095, 0] S16x1x3
  bcast_S_S16x4096x1 : S_.BroadcastsInDim S16x4096x1 (![] : Fin 0 → Fin S16x4096x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S128_S1x128_1 : S128.BroadcastsInDim S1x128 (![1] : Fin 1 → Fin S1x128.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bitsLt_bf16_f32 : FTy.bits .bf16 < FTy.bits .f32
  transposes_S4096x128_S128x4096_1_0 : S4096x128.Transposes [1, 0] S128x4096
  shapeCasts_S1x1_S_ : S1x1.ShapeCasts S_
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  slices_S512x4_o0_0_S512x3 : S512x4.Slices ![0, 0] S512x3
  slices_S512x4_o0_3_S512x1 : S512x4.Slices ![0, 3] S512x1
  broadcasts_S512x1_S512x4096 : S512x1.Broadcasts S512x4096
  broadcasts_S1x4096_S512x4096 : S1x4096.Broadcasts S512x4096
  iota_S1x4096_d1_w32 : S1x4096.Iotas .tc 32 [1]
  rotates_S512x4096_d1 : S512x4096.Rotates 1 none
  iota_S1x128_d1_w32 : S1x128.Iotas .tc 32 [1]
  rotates_S512x128_d1 : S512x128.Rotates 1 none
  broadcasts_S1x128_S512x128 : S1x128.Broadcasts S512x128
  concatenates_S512x4096_S512x4096_S1024x4096_d0 : Shape.Concatenates [S512x4096, S512x4096] S1024x4096 0
  slices_S1024x4_o0_0_S512x3 : S1024x4.Slices ![0, 0] S512x3
  slices_S1024x4_o0_3_S512x1 : S1024x4.Slices ![0, 3] S512x1
  slices_S1024x4_o512_0_S512x3 : S1024x4.Slices ![512, 0] S512x3
  slices_S1024x4_o512_3_S512x1 : S1024x4.Slices ![512, 3] S512x1
  broadcasts_S512x1_S512x3 : S512x1.Broadcasts S512x3
  broadcasts_S1x3_S512x3 : S1x3.Broadcasts S512x3
  reduces_S512x3_S512 : S512x3.Reduces [1] S512
  shapeCasts_S512_S512x1 : S512.ShapeCasts S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  dot_S512x3_S3x4096_S512x4096_1_0_0_1_n_n_wf : DotDims.WF S512x3 S3x4096 S512x4096 [1] [0] [0] [1] [] []
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  dot_S1024x4096_S4096x4_S1024x4_1_0_0_1_n_n_wf : DotDims.WF S1024x4096 S4096x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4.size a ≤ S16x4096x4.size a
  hwx0_0 : ∀ i : grid0.Coords, EltTy.bits .f32 = 32 ∨ (Rect.block (s := S16x4096x4) S1x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S16x1x4096.size a
  hwx0_2 : ∀ i : grid0.Coords, EltTy.bits .f32 = 32 ∨ (Rect.block (s := S16x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x3.size a ≤ S16x1x3.size a
  hwx0_3 : ∀ i : grid0.Coords, EltTy.bits .f32 = 32 ∨ (Rect.block (s := S16x1x3) S1x1x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x4.size a ≤ S16x4096x4.size a
  hwx0_4 : ∀ i : grid0.Coords, EltTy.bits .f32 = 32 ∨ (Rect.block (s := S16x4096x4) S1x4096x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S128x4096.size a
  hwx0_6 : ∀ i : grid0.Coords, EltTy.bits .f32 = 32 ∨ (Rect.block (s := S128x4096) S128x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S1024x4096_S4096x4_S1024x4_1_0_0_1_n_n : DotDims S1024x4096 S4096x4 S1024x4 where
  lhsContracting := [1]
  rhsContracting := [0]
  lhsNonContracting := [0]
  rhsNonContracting := [1]
  lhsBatch := []
  rhsBatch := []
  wf := dot_S1024x4096_S4096x4_S1024x4_1_0_0_1_n_n_wf

abbrev win0_0 : Pipeline.Window sig grid0 :=
  Pipeline.Window.ofSpec (Memref.whole main_call0_v3) S1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S1x1x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v12) S1x4096x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v22) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v23) S128x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v24) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S4096 : Shape := ⟨1, ![4096]⟩
abbrev S1x1x4096 : Shape := ⟨3, ![1, 1, 4096]⟩
abbrev S16x4096x4096 : Shape := ⟨3, ![16, 4096, 4096]⟩
abbrev S16x3x4096 : Shape := ⟨3, ![16, 3, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S16x4096x16 : Shape := ⟨3, ![16, 4096, 16]⟩
abbrev S16 : Shape := ⟨1, ![16]⟩
abbrev S16x1x1 : Shape := ⟨3, ![16, 1, 1]⟩
abbrev S16x4096x16x1 : Shape := ⟨4, ![16, 4096, 16, 1]⟩
abbrev S16x4096x16x2 : Shape := ⟨4, ![16, 4096, 16, 2]⟩
abbrev S16x4096x16x3 : Shape := ⟨4, ![16, 4096, 16, 3]⟩
abbrev S16x4096x1x3 : Shape := ⟨4, ![16, 4096, 1, 3]⟩

abbrev nBuf : Space → Nat
  | .hbm => 74
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S4096, .i32⟩
  | .hbm, ⟨3, _⟩ => ⟨S1x1x4096, .i32⟩
  | .hbm, ⟨4, _⟩ => ⟨S16x4096x4096, .i32⟩
  | .hbm, ⟨5, _⟩ => ⟨S16x3x4096, .f32⟩
  | .hbm, ⟨6, _⟩ => ⟨S16x4096x4096, .f32⟩
  | .hbm, ⟨7, _⟩ => ⟨S_, .f32⟩
  | .hbm, ⟨8, _⟩ => ⟨S16x4096x4096, .f32⟩
  | .hbm, ⟨9, _⟩ => ⟨S16x4096x4096, .f32⟩
  | .hbm, ⟨10, _⟩ => ⟨S16x4096x3, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S16x4096x4096, .f32⟩
  | .hbm, ⟨15, _⟩ => ⟨S16x4096x4096, .f32⟩
  | .hbm, ⟨16, _⟩ => ⟨S16x4096x3, .f32⟩
  | .hbm, ⟨17, _⟩ => ⟨S_, .f32⟩
  | .hbm, ⟨18, _⟩ => ⟨S16x4096, .f32⟩
  | .hbm, ⟨19, _⟩ => ⟨S16x1x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096x4096, .f32⟩
  | .hbm, ⟨24, _⟩ => ⟨S16x4096x4096, .i1⟩
  | .hbm, ⟨25, _⟩ => ⟨S_, .i32⟩
  | .hbm, ⟨26, _⟩ => ⟨S16x4096x4096, .i32⟩
  | .hbm, ⟨27, _⟩ => ⟨S16x4096x4096, .i32⟩
  | .hbm, ⟨28, _⟩ => ⟨S16x4096x4096, .i32⟩
  | .hbm, ⟨29, _⟩ => ⟨S16x4096x16, .i32⟩
  | .hbm, ⟨30, _⟩ => ⟨S16x4096x1, .i32⟩
  | .hbm, ⟨31, _⟩ => ⟨S16x4096x16, .i32⟩
  | .hbm, ⟨32, _⟩ => ⟨S_, .i32⟩
  | .hbm, ⟨33, _⟩ => ⟨S16x4096x16, .i32⟩
  | .hbm, ⟨34, _⟩ => ⟨S16x4096x16, .i1⟩
  | .hbm, ⟨35, _⟩ => ⟨S16x4096x16, .i32⟩
  | .hbm, ⟨36, _⟩ => ⟨S16, .i32⟩
  | .hbm, ⟨37, _⟩ => ⟨S16x1x1, .i32⟩
  | .hbm, ⟨38, _⟩ => ⟨S_, .i32⟩
  | .hbm, ⟨39, _⟩ => ⟨S16x1x1, .i32⟩
  | .hbm, ⟨40, _⟩ => ⟨S16x1x1, .i1⟩
  | .hbm, ⟨41, _⟩ => ⟨S_, .i32⟩
  | .hbm, ⟨42, _⟩ => ⟨S16x1x1, .i32⟩
  | .hbm, ⟨43, _⟩ => ⟨S16x1x1, .i32⟩
  | .hbm, ⟨44, _⟩ => ⟨S16x1x1, .i32⟩
  | .hbm, ⟨45, _⟩ => ⟨S_, .i32⟩
  | .hbm, ⟨46, _⟩ => ⟨S16x4096x16, .i32⟩
  | .hbm, ⟨47, _⟩ => ⟨S16x4096x16, .i1⟩
  | .hbm, ⟨48, _⟩ => ⟨S_, .i32⟩
  | .hbm, ⟨49, _⟩ => ⟨S16x4096x16, .i32⟩
  | .hbm, ⟨50, _⟩ => ⟨S16x4096x16, .i32⟩
  | .hbm, ⟨51, _⟩ => ⟨S16x4096x16, .i32⟩
  | .hbm, ⟨52, _⟩ => ⟨S16x4096x16, .i32⟩
  | .hbm, ⟨53, _⟩ => ⟨S16x4096x16x1, .i32⟩
  | .hbm, ⟨54, _⟩ => ⟨S16x4096x16x1, .i32⟩
  | .hbm, ⟨55, _⟩ => ⟨S16x4096x16x2, .i32⟩
  | .hbm, ⟨56, _⟩ => ⟨S16x4096x16x3, .f32⟩
  | .hbm, ⟨57, _⟩ => ⟨S16x4096x1x3, .f32⟩
  | .hbm, ⟨58, _⟩ => ⟨S16x4096x16x3, .f32⟩
  | .hbm, ⟨59, _⟩ => ⟨S16x4096x16x3, .f32⟩
  | .hbm, ⟨60, _⟩ => ⟨S_, .f32⟩
  | .hbm, ⟨61, _⟩ => ⟨S16x4096x3, .f32⟩
  | .hbm, ⟨62, _⟩ => ⟨S16x4096x3, .f32⟩
  | .hbm, ⟨63, _⟩ => ⟨S_, .f32⟩
  | .hbm, ⟨64, _⟩ => ⟨S16x4096, .f32⟩
  | .hbm, ⟨65, _⟩ => ⟨S16x4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S16x4096x4096_0_1_2 : S1x1x4096.BroadcastsInDim S16x4096x4096 (![0, 1, 2] : Fin 3 → Fin S16x4096x4096.rank)
  transposes_S16x4096x3_S16x3x4096_0_2_1 : S16x4096x3.Transposes [0, 2, 1] S16x3x4096
  bcast_S_S16x4096x4096 : S_.BroadcastsInDim S16x4096x4096 (![] : Fin 0 → Fin S16x4096x4096.rank)
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  bcast_S16x4096_S16x1x4096_0_2 : S16x4096.BroadcastsInDim S16x1x4096 (![0, 2] : Fin 2 → Fin S16x1x4096.rank)
  bcast_S16x1x4096_S16x4096x4096_0_1_2 : S16x1x4096.BroadcastsInDim S16x4096x4096 (![0, 1, 2] : Fin 3 → Fin S16x4096x4096.rank)
  slices_S16x4096x4096_S16x4096x16_0_0_0 : S16x4096x4096.Slices ![0, 0, 0] S16x4096x16
  slices_S16x4096x16_S16x4096x1_0_0_0 : S16x4096x16.Slices ![0, 0, 0] S16x4096x1
  bcast_S16x4096x1_S16x4096x16_0_1_2 : S16x4096x1.BroadcastsInDim S16x4096x16 (![0, 1, 2] : Fin 3 → Fin S16x4096x16.rank)
  bcast_S_S16x4096x16 : S_.BroadcastsInDim S16x4096x16 (![] : Fin 0 → Fin S16x4096x16.rank)
  shapeCasts_S16_S16x1x1 : S16.ShapeCasts S16x1x1
  bcast_S_S16x1x1 : S_.BroadcastsInDim S16x1x1 (![] : Fin 0 → Fin S16x1x1.rank)
  bcast_S16x1x1_S16x4096x16_0_1_2 : S16x1x1.BroadcastsInDim S16x4096x16 (![0, 1, 2] : Fin 3 → Fin S16x4096x16.rank)
  bcast_S16x4096x16_S16x4096x16x1_0_1_2 : S16x4096x16.BroadcastsInDim S16x4096x16x1 (![0, 1, 2] : Fin 3 → Fin S16x4096x16x1.rank)
  concatenates_S16x4096x16x1_S16x4096x16x1_S16x4096x16x2_d3 : Shape.Concatenates [S16x4096x16x1, S16x4096x16x1] S16x4096x16x2 3
  shapeCasts_S16x4096x3_S16x4096x1x3 : S16x4096x3.ShapeCasts S16x4096x1x3
  bcast_S16x4096x1x3_S16x4096x16x3_0_1_2_3 : S16x4096x1x3.BroadcastsInDim S16x4096x16x3 (![0, 1, 2, 3] : Fin 4 → Fin S16x4096x16x3.rank)
  reducesTo_S16x4096x16x3_S16x4096x3_d2 : S16x4096x16x3.ReducesTo [2] S16x4096x3
  reducesTo_S16x4096_S_d0_1 : S16x4096.ReducesTo [0, 1] S_
  dot_S16x4096x3_S16x3x4096_S16x4096x4096_2_1_1_2_0_0_wf : DotDims.WF S16x4096x3 S16x3x4096 S16x4096x4096 [2] [1] [1] [2] [0] [0]
  gather_S16x4096x3_S16x4096x16x2_S16x4096x16x3_3_01_n_n_01_3_113_wf : GatherDims.WF S16x4096x3 S16x4096x16x2 S16x4096x16x3 [3] [0, 1] [] [0, 1] [] 3 ![1, 1, 3]

variable [Facts₀]

def dot_S16x4096x3_S16x3x4096_S16x4096x4096_2_1_1_2_0_0 : DotDims S16x4096x3 S16x3x4096 S16x4096x4096 where
  lhsContracting := [2]
  rhsContracting := [1]
  lhsNonContracting := [1]
  rhsNonContracting := [2]
  lhsBatch := [0]
  rhsBatch := [0]
  wf := dot_S16x4096x3_S16x3x4096_S16x4096x4096_2_1_1_2_0_0_wf
def comparator_i32_d2 : BitVec 32 → BitVec 32 → BitVec 1 :=
  fun l r =>
    let v1 := IntOp.cmpi .slt l r
    v1
def gather_S16x4096x3_S16x4096x16x2_S16x4096x16x3_3_01_n_n_01_3_113 : GatherDims S16x4096x3 S16x4096x16x2 S16x4096x16x3 where
  offsetDims := [3]
  collapsedSliceDims := [0, 1]
  operandBatchingDims := []
  startIndicesBatchingDims := []
  startIndexMap := [0, 1]
  indexVectorDim := 3
  sliceSizes := ![1, 1, 3]
  wf := gather_S16x4096x3_S16x4096x16x2_S16x4096x16x3_3_01_n_n_01_3_113_wf

class Facts : Prop extends Facts₀ where

variable [Facts]
-- ==== Proof.Shared.lean ====
import Mathlib
import Idealize.ShloMosaic.PureOps.Ideal
import Idealize.ShloMosaic.Lib.ValueIdx

/-!
# Shared definitions

The squared radius both programs compare against, and the selection the reference makes for one query
point: every candidate index `j` gets the key `j` when it is in the ball (`μ j`) and the key `4096` (one
past the last index) when it is not; the keys are sorted stably in increasing order; the first sixteen
sorted keys are taken, and a taken key equal to `4096` is replaced by the first sorted key.
-/

noncomputable section

namespace Cert.Shared

open Idealize.ShloMosaic

/-- The squared radius, as the extended real its single-precision pattern denotes. -/
def r2 : EReal := Ideal.ofBits .f32 0x3C23D70A#32

namespace Sel

variable (μ : Fin 4096 → Prop)

open Classical in
/-- The sort key of candidate `j`: its own index inside the ball, `4096` outside. -/
def key (j : Fin 4096) : BitVec 32 := if μ j then BitVec.ofNat 32 j.val else 4096#32

/-- Position `i`'s key sorts strictly before position `i'`'s (signed comparison). -/
def before (i i' : Fin 4096) : Bool := IntOp.cmpi .slt (key μ i) (key μ i') == 1#1

/-- The `k`-th key in stable increasing order. -/
def srt (k : Fin 4096) : BitVec 32 := key μ (sortedFrom (before μ) k)

open Classical in
/-- How many candidates up to and including `j` are in the ball. -/
def cnt (j : Fin 4096) : ℕ := (Finset.univ.filter fun i : Fin 4096 => i.val ≤ j.val ∧ μ i).card

/-- The `k`-th selected index, `k < 16`: the `k`-th sorted key, or the first sorted key where that is `4096`. -/
def pick (k : Fin 16) : ℕ :=
  (if srt μ ⟨k.val, by omega⟩ = 4096#32 then srt μ ⟨0, by omega⟩ else srt μ ⟨k.val, by omega⟩).toNat

end Sel

end Cert.Shared

end
-- ==== Proof.RefValue.lean ====
import proofs.«123924_g12506944766668_retrytranche2_29_15_alg».proof.Proof.RefRead
import proofs.«123924_g12506944766668_retrytranche2_29_15_alg».proof.Proof.Shared

/-!
# The reference program's value

The reference computes, for two point clouds `x0` (queries) and `x1` (candidates), per query point the
sixteen smallest candidate indices inside a ball (padding with the first one), gathers those candidates,
sums their offsets from the query, takes the Euclidean norm, and averages. This module reads the printed
reference operation by operation and states its scalar result as a closed expression.
-/

noncomputable section

namespace Cert.ReferenceIdeal.RefValue

open Cert.ReferenceIdeal Cert.ReferenceIdeal.Read Cert.Shared Idealize.ShloMosaic Idealize.ShloMosaic.ValueIdx

abbrev Arr := S16x4096x3.Idx → EReal

/-- The squared distance the reference computes between query `s` and candidate `j` of batch `b`. -/
def dR (x0 x1 : Arr) (b : Fin 16) (s j : Fin 4096) : EReal :=
  ((Ideal.ofBits .f32 0xC0000000#32 * ∑ k : Fin 3, x0 (ix3 b s k) * x1 (ix3 b j k))
    + (0 + ∑ k : Fin 3, x0 (ix3 b s k) * x0 (ix3 b s k))) + (0 + ∑ k : Fin 3, x1 (ix3 b j k) * x1 (ix3 b j k))

/-- Candidate `j` is inside the ball of query `s`: its squared distance does not exceed the squared radius. -/
def inBall (x0 x1 : Arr) (b : Fin 16) (s j : Fin 4096) : Prop := ¬ (r2 < dR x0 x1 b s j)

/-- The row of `x1` the gather reads for the `k`-th selected index: the index clamped into range. -/
def gidx (x0 x1 : Arr) (b : Fin 16) (s : Fin 4096) (k : Fin 16) : Fin 4096 :=
  ⟨min (Sel.pick (inBall x0 x1 b s) k) 4095, by omega⟩

/-- Coordinate `c` of the summed offsets of the sixteen gathered candidates from the query. -/
def svR (x0 x1 : Arr) (b : Fin 16) (s : Fin 4096) (c : Fin 3) : EReal :=
  0 + ∑ k : Fin 16, (x1 (ix3 b (gidx x0 x1 b s k) c) - x0 (ix3 b s c))

/-- The Euclidean norm of the summed offsets. -/
def rowR (x0 x1 : Arr) (b : Fin 16) (s : Fin 4096) : EReal :=
  Ideal.sqrt (0 + ∑ c : Fin 3, svR x0 x1 b s c * svR x0 x1 b s c)

/-- The last three scalar operations: two divisions and a product by constants. -/
def tailR (t : EReal) : EReal :=
  Ideal.div (Ideal.div t (Ideal.ofBits .f32 0x47800000#32)) (Ideal.ofBits .f32 0x45800000#32)
    * Ideal.ofBits .f32 0x41C00000#32

/-! ## Index bookkeeping -/

/-! ## Small facts on 32-bit words -/

/-- A word at most `4096` is not negative as a signed number. -/
theorem slt_zero_of_le (P : BitVec 32) (h : P.toNat ≤ 4096) : IntOp.cmpi .slt P 0#32 = 0#1 := by
  have h1 : P.toInt = (P.toNat : Int) := by
    rw [BitVec.toInt_eq_toNat_cond, if_pos (by omega)]
  have h2 : P.slt 0#32 = false := by
    rw [BitVec.slt, h1]
    simp
  simp [IntOp.cmpi, h2]

/-- The negative-index wrap leaves a word at most `4096` alone. -/
theorem wrap_noop (P c : BitVec 32) (h : P.toNat ≤ 4096) :
    Scalar.select (IntOp.cmpi .slt P 0#32) (IntOp.addi P c) P = P := by
  rw [slt_zero_of_le P h, select_zero]

/-- Read as a signed number, a word at most `4096` is its unsigned value. -/
theorem toInt_toNat_of_le (P : BitVec 32) (h : P.toNat ≤ 4096) : P.toInt.toNat = P.toNat := by
  rw [BitVec.toInt_eq_toNat_cond, if_pos (by omega)]
  rfl

theorem ofNat_toNat_of_lt (n : Nat) (h : n < 4096) : (BitVec.ofNat 32 n).toNat = n := by
  rw [BitVec.toNat_ofNat]; omega

/-! ## The keys and their order -/

section Keys
variable (μ : Fin 4096 → Prop)

theorem key_le (j : Fin 4096) : (Sel.key μ j).toNat ≤ 4096 := by
  unfold Sel.key
  split
  · rw [ofNat_toNat_of_lt _ j.isLt]; exact Nat.le_of_lt j.isLt
  · decide

theorem srt_le (k : Fin 4096) : (Sel.srt μ k).toNat ≤ 4096 := by
  unfold Sel.srt; exact key_le μ _

/-- The `k`-th selected key as a word: the `k`-th sorted key, or the first where that is `4096`. -/
def pk (k : Fin 16) : BitVec 32 :=
  if Sel.srt μ ⟨k.val, by omega⟩ = 4096#32 then Sel.srt μ ⟨0, by omega⟩ else Sel.srt μ ⟨k.val, by omega⟩

theorem pk_toNat (k : Fin 16) : (pk μ k).toNat = Sel.pick μ k := rfl

theorem pk_le (k : Fin 16) : (pk μ k).toNat ≤ 4096 := by
  unfold pk; split <;> exact srt_le μ _

end Keys

/-! ## The squared distances -/

theorem e4l (b : Fin 16) (s j : Fin 4096) (k : Fin 3) : lidx_main_v4 (ix3 b s j) k = ix3 b s k := by
  funext a
  match a with
  | ⟨0, _⟩ => rfl
  | ⟨1, _⟩ => rfl
  | ⟨2, _⟩ => rfl

theorem e4r (b : Fin 16) (s j : Fin 4096) (k : Fin 3) :
    idx_main_v3 (ridx_main_v4 (ix3 b s j) k) = ix3 b j k := by
  funext a
  match a with
  | ⟨0, _⟩ => rfl
  | ⟨1, _⟩ => rfl
  | ⟨2, _⟩ => rfl

theorem e8 (b : Fin 16) (s j : Fin 4096) (k : Fin 3) :
    idx_main_v8 (idx_main_v9 (idx_main_v10 (ix3 b s j))) k = ix3 b s k := by
  funext a
  match a with
  | ⟨0, _⟩ => rfl
  | ⟨1, _⟩ => rfl
  | ⟨2, _⟩ => rfl

theorem e13 (b : Fin 16) (s j : Fin 4096) (k : Fin 3) :
    idx_main_v13 (idx_main_v14 (idx_main_v15 (ix3 b s j))) k = ix3 b j k := by
  funext a
  match a with
  | ⟨0, _⟩ => rfl
  | ⟨1, _⟩ => rfl
  | ⟨2, _⟩ => rfl

theorem v16_apply (x0 x1 : Arr) (b : Fin 16) (s j : Fin 4096) :
    val_main_v16 (F := Ideal) x0 x1 (ix3 b s j) = dR x0 x1 b s j := by
  rw [val_main_v16_apply, val_main_v11_apply, val_main_v6_apply, val_main_v5_apply, val_main_cst_apply,
    val_main_v4_apply, val_main_v10_apply, val_main_v9_apply, val_main_v8_apply, val_main_cst_0_apply,
    val_main_v15_apply, val_main_v14_apply, val_main_v13_apply, val_main_cst_1_apply]
  simp only [val_main_v3_apply, val_main_v7_apply, val_main_v12_apply, Ideal.addf_def, Ideal.mulf_def,
    Ideal.ofBits_def, Ideal.ofBits_zero_f32, e4l, e4r, e8, e13]
  rfl

/-! ## The keys -/

theorem v19_apply (x0 x1 : Arr) (b : Fin 16) (s j : Fin 4096) :
    val_main_v19 (F := Ideal) x0 x1 (ix3 b s j) = Sel.key (inBall x0 x1 b s) j := by
  rw [val_main_v19_apply, val_main_v18_apply, v16_apply, val_main_v17_apply, val_main_cst_2_apply,
    val_main_call0_v0_apply, val_main_c_apply, val_main_v2_apply, val_main_v1_apply, val_main_v0_apply,
    Ideal.cmpf_def, Ideal.ofBits_def]
  unfold Sel.key inBall
  by_cases h : r2 < dR x0 x1 b s j
  · rw [if_neg (not_not.mpr h)]
    have hc : Ideal.cmp .ogt (dR x0 x1 b s j) (Ideal.ofBits .f32 0x3C23D70A#32) = 1#1 := by
      have h' : Ideal.ofBits .f32 0x3C23D70A#32 < dR x0 x1 b s j := h
      simp [Ideal.cmp, h']
    rw [hc, select_one]
  · rw [if_pos h]
    have hc : Ideal.cmp .ogt (dR x0 x1 b s j) (Ideal.ofBits .f32 0x3C23D70A#32) = 0#1 := by
      have h' : ¬ Ideal.ofBits .f32 0x3C23D70A#32 < dR x0 x1 b s j := h
      simp [Ideal.cmp, h']
    rw [hc, select_zero]

/-! ## The sort along the last axis -/

theorem along2 (h2 : 2 < S16x4096x4096.rank) (b : Fin 16) (s k : Fin 4096) (k' : Fin (S16x4096x4096.size ⟨2, h2⟩)) :
    (ix3 b s k : S16x4096x4096.Idx).along ⟨2, h2⟩ k' = ix3 b s k' := by
  funext a
  match a with
  | ⟨0, _⟩ => rfl
  | ⟨1, _⟩ => rfl
  | ⟨2, _⟩ => rfl

theorem sort_apply {α : Type} (cmp : α → α → BitVec 1) (x : S16x4096x4096.Idx → α) (b : Fin 16) (s k : Fin 4096) :
    Host.sort S16x4096x4096 2 cmp x (ix3 b s k)
      = x (ix3 b s (sortedFrom (fun i i' : Fin 4096 => cmp (x (ix3 b s i)) (x (ix3 b s i')) == 1#1) k)) := by
  unfold Host.sort
  rw [dif_pos (show 2 < S16x4096x4096.rank by decide)]
  simp only [along2]
  rfl

theorem v20_apply (x0 x1 : Arr) (b : Fin 16) (s k : Fin 4096) :
    val_main_v20 (F := Ideal) x0 x1 (ix3 b s k) = Sel.srt (inBall x0 x1 b s) k := by
  unfold val_main_v20
  rw [sort_apply]
  simp only [v19_apply]
  rfl

/-! ## The gather read at an index -/

/-- The gather at `(b, s, k, c)`: the operand's row at the two start-index components, each read as a signed
    number and clamped into its axis, and column `c`. -/
theorem gather_apply {α : Type} (x : S16x4096x3.Idx → α) (idx : IVec S16x4096x16x2 32)
    (b : Fin 16) (s : Fin 4096) (k : Fin 16) (c : Fin 3) :
    Host.gather gather_S16x4096x3_S16x4096x16x2_S16x4096x16x3_3_01_n_n_01_3_113 x idx (ix4 b s k c)
      = x (ix3 (⟨min (idx (ix4 b s k 0)).toInt.toNat 15, by omega⟩ : Fin 16)
          (⟨min (idx (ix4 b s k 1)).toInt.toNat 4095, by omega⟩ : Fin 4096) c) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S16x4096x3_S16x4096x16x2_S16x4096x16x3_3_01_n_n_01_3_113.startIndexMap by decide)]
    have hsi : gather_S16x4096x3_S16x4096x16x2_S16x4096x16x3_3_01_n_n_01_3_113.siIdx (ix4 b s k c)
        ⟨List.idxOf (0 : Fin 3) gather_S16x4096x3_S16x4096x16x2_S16x4096x16x3_3_01_n_n_01_3_113.startIndexMap,
          List.idxOf_lt_length_iff.2 (by decide)⟩ = ix4 b s k 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S16x4096x3_S16x4096x16x2_S16x4096x16x3_3_01_n_n_01_3_113.startIndexMap by decide)]
    have hsi : gather_S16x4096x3_S16x4096x16x2_S16x4096x16x3_3_01_n_n_01_3_113.siIdx (ix4 b s k c)
        ⟨List.idxOf (1 : Fin 3) gather_S16x4096x3_S16x4096x16x2_S16x4096x16x3_3_01_n_n_01_3_113.startIndexMap,
          List.idxOf_lt_length_iff.2 (by decide)⟩ = ix4 b s k 1 := by
      funext b'; refine Fin.ext ?_
      match b' with
      | ⟨0, _⟩ => rfl
      | ⟨1, _⟩ => rfl
      | ⟨2, _⟩ => rfl
      | ⟨3, _⟩ => rfl
    rw [hsi]
    rfl
  | ⟨2, _⟩ =>
    show GatherDims.start _ _ idx 2 + GatherDims.batchCoord _ _ 2 + GatherDims.offCoord _ _ 2 = c.val
    rw [GatherDims.batchCoord_eq_zero _ _ _ List.not_mem_nil]
    unfold GatherDims.start
    rw [dif_neg (show (2 : Fin 3) ∉ gather_S16x4096x3_S16x4096x16x2_S16x4096x16x3_3_01_n_n_01_3_113.startIndexMap by decide)]
    unfold GatherDims.offCoord
    rw [dif_pos (show (2 : Fin 3) ∈ gather_S16x4096x3_S16x4096x16x2_S16x4096x16x3_3_01_n_n_01_3_113.sKept by decide)]
    simp only [Nat.zero_add]
    rfl

/-! ## The two index columns joined -/

theorem concat_apply0 {α : Type} (y0 y1 : S16x4096x16x1.Idx → α) (b : Fin 16) (s : Fin 4096) (k : Fin 16) :
    concatenate S16x4096x16x2 3 [⟨S16x4096x16x1, y0⟩, ⟨S16x4096x16x1, y1⟩]
        Facts₀.concatenates_S16x4096x16x1_S16x4096x16x1_S16x4096x16x2_d3 (ix4 b s k 0)
      = y0 (ix4 b s k 0) :=
  concatenate_pair_apply_left (t := S16x4096x16x2) (s₁ := S16x4096x16x1) (s₂ := S16x4096x16x1) 3 y0 y1 _
    (ix4 b s k 0) rfl (ix4 b s k 0) (fun b' => by
    match b' with
    | ⟨0, _⟩ => rfl
    | ⟨1, _⟩ => rfl
    | ⟨2, _⟩ => rfl
    | ⟨3, _⟩ => rfl)

theorem concat_apply1 {α : Type} (y0 y1 : S16x4096x16x1.Idx → α) (b : Fin 16) (s : Fin 4096) (k : Fin 16) :
    concatenate S16x4096x16x2 3 [⟨S16x4096x16x1, y0⟩, ⟨S16x4096x16x1, y1⟩]
        Facts₀.concatenates_S16x4096x16x1_S16x4096x16x1_S16x4096x16x2_d3 (ix4 b s k 1)
      = y1 (ix4 b s k 0) :=
  concatenate_pair_apply_right (t := S16x4096x16x2) (s₁ := S16x4096x16x1) (s₂ := S16x4096x16x1) 3 y0 y1 _
    (ix4 b s k 1) rfl rfl (ix4 b s k 0) (fun b' hb => by
    match b', hb with
    | ⟨0, _⟩, _ => rfl
    | ⟨1, _⟩, _ => rfl
    | ⟨2, _⟩, _ => rfl
    | ⟨3, _⟩, hb => exact absurd rfl hb) rfl

/-! ## The selected indices -/

theorem select_eq {α : Type} (A C : BitVec 32) (X Y : α) :
    Scalar.select (IntOp.cmpi .eq A C) X Y = if A = C then X else Y := by
  by_cases h : A = C
  · subst h
    simp [Scalar.select, IntOp.cmpi]
  · have hb : (A == C) = false := beq_eq_false_iff_ne.mpr h
    simp [Scalar.select, IntOp.cmpi, hb, h]

theorem e21 (b : Fin 16) (s : Fin 4096) (k : Fin 16) :
    idx_main_v21 (ix3 b s k) = ix3 b s (⟨k.val, by omega⟩ : Fin 4096) := by
  funext a
  match a with
  | ⟨0, _⟩ => rfl
  | ⟨1, _⟩ => rfl
  | ⟨2, _⟩ => rfl

theorem e2223 (b : Fin 16) (s : Fin 4096) (k : Fin 16) :
    idx_main_v22 (idx_main_v23 (ix3 b s k)) = ix3 b s (⟨0, by omega⟩ : Fin 16) := by
  funext a
  match a with
  | ⟨0, _⟩ => rfl
  | ⟨1, _⟩ => rfl
  | ⟨2, _⟩ => rfl

theorem v21_apply' (x0 x1 : Arr) (b : Fin 16) (s : Fin 4096) (k : Fin 16) :
    val_main_v21 (F := Ideal) x0 x1 (ix3 b s k) = Sel.srt (inBall x0 x1 b s) ⟨k.val, by omega⟩ := by
  rw [val_main_v21_apply, e21, v20_apply]

theorem v26_apply' (x0 x1 : Arr) (b : Fin 16) (s : Fin 4096) (k : Fin 16) :
    val_main_v26 (F := Ideal) x0 x1 (ix3 b s k) = pk (inBall x0 x1 b s) k := by
  rw [val_main_v26_apply, val_main_v25_apply, val_main_v24_apply, val_main_c_3_apply, val_main_v23_apply,
    val_main_v22_apply, e2223, v21_apply', v21_apply', select_eq]
  rfl

theorem v38_apply' (x0 x1 : Arr) (b : Fin 16) (s : Fin 4096) (k : Fin 16) :
    val_main_v38 (F := Ideal) x0 x1 (ix3 b s k) = pk (inBall x0 x1 b s) k := by
  rw [val_main_v38_apply, val_main_v35_apply, val_main_v37_apply, val_main_v34_apply, val_main_c_6_apply,
    val_main_v36_apply, val_main_c_7_apply, v26_apply']
  exact wrap_noop _ _ (pk_le _ k)

/-! ## The batch index -/

theorem v39_apply' (b : Fin 16) (s : Fin 4096) (k : Fin 16) :
    val_main_v39 (F := Ideal) (ix3 b s k) = BitVec.ofNat 32 b.val := by
  rw [val_main_v39_apply, val_main_v33_apply, val_main_v30_apply, val_main_v32_apply, val_main_v29_apply,
    val_main_c_4_apply, val_main_v31_apply, val_main_c_5_apply, val_main_v28_apply, val_main_v27_apply]
  have e : ((idx_main_v28 (idx_main_v39 (ix3 b s k))) 0).val = b.val := by
    show (b.val * 1 + 0) * 1 + 0 = b.val
    omega
  rw [e]
  exact wrap_noop _ _ (by rw [ofNat_toNat_of_lt _ (by omega)]; omega)

theorem e40 (b : Fin 16) (s : Fin 4096) (k : Fin 16) :
    idx_main_v40 (ix4 b s k (0 : Fin 1)) = ix3 b s k := by
  funext a
  match a with
  | ⟨0, _⟩ => rfl
  | ⟨1, _⟩ => rfl
  | ⟨2, _⟩ => rfl

theorem e41 (b : Fin 16) (s : Fin 4096) (k : Fin 16) :
    idx_main_v41 (ix4 b s k (0 : Fin 1)) = ix3 b s k := by
  funext a
  match a with
  | ⟨0, _⟩ => rfl
  | ⟨1, _⟩ => rfl
  | ⟨2, _⟩ => rfl

/-! ## The gathered rows -/

theorem v43_apply' (x0 x1 : Arr) (b : Fin 16) (s : Fin 4096) (k : Fin 16) (c : Fin 3) :
    val_main_v43 (F := Ideal) x0 x1 (ix4 b s k c) = x1 (ix3 b (gidx x0 x1 b s k) c) := by
  have h0 : val_main_v42 (F := Ideal) x0 x1 (ix4 b s k 0) = BitVec.ofNat 32 b.val := by
    unfold val_main_v42
    rw [concat_apply0, val_main_v40_apply, e40, v39_apply']
  have h1 : val_main_v42 (F := Ideal) x0 x1 (ix4 b s k 1) = pk (inBall x0 x1 b s) k := by
    unfold val_main_v42
    rw [concat_apply1, val_main_v41_apply, e41, v38_apply']
  unfold val_main_v43
  rw [gather_apply]
  refine congrArg x1 ?_
  funext a
  refine Fin.ext ?_
  match a with
  | ⟨0, _⟩ =>
    show min (val_main_v42 (F := Ideal) x0 x1 (ix4 b s k 0)).toInt.toNat 15 = b.val
    have hb : (BitVec.ofNat 32 b.val).toNat = b.val := ofNat_toNat_of_lt _ (by omega)
    rw [h0, toInt_toNat_of_le _ (by rw [hb]; omega), hb]
    omega
  | ⟨1, _⟩ =>
    show min (val_main_v42 (F := Ideal) x0 x1 (ix4 b s k 1)).toInt.toNat 4095 = min (Sel.pick (inBall x0 x1 b s) k) 4095
    rw [h1, toInt_toNat_of_le _ (pk_le _ k), pk_toNat]
  | ⟨2, _⟩ => rfl

/-! ## The summed offsets and their norm -/

theorem e47 (b : Fin 16) (s : Fin 4096) (c : Fin 3) (k : Fin 16) :
    idx_main_v47 (ix3 b s c) k = ix4 b s k c := by
  funext a
  match a with
  | ⟨0, _⟩ => rfl
  | ⟨1, _⟩ => rfl
  | ⟨2, _⟩ => rfl
  | ⟨3, _⟩ => rfl

theorem e4445 (b : Fin 16) (s : Fin 4096) (k : Fin 16) (c : Fin 3) :
    idx_main_v44 (idx_main_v45 (ix4 b s k c)) = ix3 b s c := by
  have hb := b.isLt
  have hs := s.isLt
  have hc := c.isLt
  funext a
  refine Fin.ext ?_
  match a with
  | ⟨0, _⟩ =>
    show (((b.val * 4096 + s.val) * 1 + 0) * 3 + c.val) / 12288 = b.val
    omega
  | ⟨1, _⟩ =>
    show (((b.val * 4096 + s.val) * 1 + 0) * 3 + c.val) / 3 % 4096 = s.val
    omega
  | ⟨2, _⟩ =>
    show (((b.val * 4096 + s.val) * 1 + 0) * 3 + c.val) % 3 = c.val
    omega

theorem v47_apply' (x0 x1 : Arr) (b : Fin 16) (s : Fin 4096) (c : Fin 3) :
    val_main_v47 (F := Ideal) x0 x1 (ix3 b s c) = svR x0 x1 b s c := by
  rw [val_main_v47_apply, val_main_cst_8_apply, Ideal.ofBits_def, Ideal.ofBits_zero_f32]
  unfold svR
  refine congrArg (fun t => (0 : EReal) + t) (Finset.sum_congr rfl fun k _ => ?_)
  rw [val_main_v46_apply, e47, v43_apply', val_main_v45_apply, val_main_v44_apply, e4445, Ideal.subf_def]

theorem e49 (b : Fin 16) (s : Fin 4096) (c : Fin 3) :
    idx_main_v49 (ix2 b s) c = ix3 b s c := by
  funext a
  match a with
  | ⟨0, _⟩ => rfl
  | ⟨1, _⟩ => rfl
  | ⟨2, _⟩ => rfl

theorem v50_apply' (x0 x1 : Arr) (b : Fin 16) (s : Fin 4096) :
    val_main_v50 (F := Ideal) x0 x1 (ix2 b s) = rowR x0 x1 b s := by
  rw [val_main_v50_apply, val_main_v49_apply, val_main_cst_9_apply, Ideal.hostUnary_sqrt_def, Ideal.ofBits_def,
    Ideal.ofBits_zero_f32]
  unfold rowR
  refine congrArg (fun t => Ideal.sqrt ((0 : EReal) + t)) (Finset.sum_congr rfl fun c _ => ?_)
  rw [val_main_v48_apply, e49, v47_apply', Ideal.mulf_def]

/-! ## The scalar result -/

theorem ref_value (x0 x1 : Arr) :
    Cert.ReferenceIdeal.Read.val_main_v54 (F := Ideal) x0 x1 ix0 = tailR (0 + ∑ b : Fin 16, ∑ s : Fin 4096, rowR x0 x1 b s) := by
  rw [val_main_v54_apply, val_main_v53_apply, val_main_v52_apply, val_main_v51_apply, val_main_cst_10_apply,
    val_main_cst_11_apply, val_main_cst_12_apply, val_main_cst_13_apply, sum_idx2]
  simp only [v50_apply', Ideal.mulf_def, Ideal.hostDivf_def, Ideal.ofBits_def, Ideal.ofBits_zero_f32]
  rfl

end Cert.ReferenceIdeal.RefValue

end
-- ==== Proof.Body.lean ====
import proofs.«123924_g12506944766668_retrytranche2_29_15_alg».proof.Proof.Gen.KernelIdeal.Skeleton

/-!
# The body's value as one term

One grid point loads seven blocks (the query rows with their squared norms, the doubled negated
candidate coordinates, the candidates' squared norms, the last candidate, the candidates with a
column of ones, and the two 0/1 chunk-membership matrices), and adds to the running total the sum
over its 512 query rows of the length of that row's summed difference vector.  The arithmetic in
between is split at the running count of in-radius candidates (`runCount`): everything before it
computes the inclusive count of ones of the mask along a row, everything after it selects by that
count and contracts with the candidates.
-/

noncomputable section

namespace Cert.KernelIdeal.Body

open Idealize.ShloMosaic Idealize.SL.Sem Cert.KernelIdeal Cert.KernelIdeal.Gen

variable {F : FTy → Type} [FloatOps F]

/-- The 0/1 mask of in-radius candidates of the point's 512 query rows. -/
abbrev maskOf (x0 : Vec F S1x512x4 .f32) (x1 : Vec F S1x3x4096 .f32) (x2 : Vec F S1x1x4096 .f32) : FVec F S512x4096 .bf16 :=
  k0_pay9 x0 x1 x2

/-- The lane numbers of the 128 chunk totals. -/
abbrev chunkLane : IVec S1x128 32 := iota .tc S1x128 32 [1] iota_S1x128_d1_w32

/-- The count of ones within each 32-lane chunk up to and including a lane (five doubling steps). -/
abbrev inChunk (v26 : FVec F S512x4096 .bf16) : FVec F S512x4096 .bf16 :=
  k0_pay14 (k0_pay12 v26 k0_pay10 k0_pay11 (Scalar.ofBits .f32 0x3F800000#32)) (k0_pay13 (F := F) k0_pay10)

/-- The running count along a row, from the in-chunk counts `v79`, the chunk totals `v80`, their partial
    doubling sums `v108`, `v116` and the chunk-membership matrix `v13`: the chunk totals' inclusive prefix,
    less the chunk's own total, spread back over the chunk's lanes and added to the in-chunk count. -/
def runCount (v13 : FVec F S128x4096 .f32) (v79 : FVec F S512x4096 .bf16) (v80 : FVec F S512x128 .f32) (v81 : IVec S1x128 32)
    (v108 : FVec F S512x128 .f32) (v116 : FVec F S512x128 .f32) : FVec F S512x4096 .bf16 :=
  have v117 : FVec F S512x128 .f32 := addf v108 v116
  have v118 : IVec S1x128 32 := broadcast S1x128 16#32
  have v119 : IVec S1x128 1 := cmpi .sge v81 v118
  have cst_54 : F .f32 := Scalar.ofBits .f32 0x3F800000#32
  have cst_55 : F .f32 := Scalar.ofBits .f32 0x00000000#32
  have v120 : FVec F S1x128 .f32 := broadcast S1x128 cst_54
  have v121 : FVec F S1x128 .f32 := broadcast S1x128 cst_55
  have v122 : FVec F S1x128 .f32 := select v119 v120 v121
  have v123 : FVec F S512x128 .f32 := dynamicRotate 1 16#32 none v117 rotates_S512x128_d1
  have v124 : FVec F S512x128 .f32 := broadcastTo S512x128 v122 broadcasts_S1x128_S512x128
  have v125 : FVec F S512x128 .f32 := mulf v123 v124
  have v126 : FVec F S512x128 .f32 := addf v117 v125
  have v127 : IVec S1x128 32 := broadcast S1x128 32#32
  have v128 : IVec S1x128 1 := cmpi .sge v81 v127
  have cst_57 : F .f32 := Scalar.ofBits .f32 0x3F800000#32
  have cst_58 : F .f32 := Scalar.ofBits .f32 0x00000000#32
  have v129 : FVec F S1x128 .f32 := broadcast S1x128 cst_57
  have v130 : FVec F S1x128 .f32 := broadcast S1x128 cst_58
  have v131 : FVec F S1x128 .f32 := select v128 v129 v130
  have v132 : FVec F S512x128 .f32 := dynamicRotate 1 32#32 none v126 rotates_S512x128_d1
  have v133 : FVec F S512x128 .f32 := broadcastTo S512x128 v131 broadcasts_S1x128_S512x128
  have v134 : FVec F S512x128 .f32 := mulf v132 v133
  have v135 : FVec F S512x128 .f32 := addf v126 v134
  have v136 : IVec S1x128 32 := broadcast S1x128 64#32
  have v137 : IVec S1x128 1 := cmpi .sge v81 v136
  have cst_60 : F .f32 := Scalar.ofBits .f32 0x3F800000#32
  have cst_61 : F .f32 := Scalar.ofBits .f32 0x00000000#32
  have v138 : FVec F S1x128 .f32 := broadcast S1x128 cst_60
  have v139 : FVec F S1x128 .f32 := broadcast S1x128 cst_61
  have v140 : FVec F S1x128 .f32 := select v137 v138 v139
  have v141 : FVec F S512x128 .f32 := dynamicRotate 1 64#32 none v135 rotates_S512x128_d1
  have v142 : FVec F S512x128 .f32 := broadcastTo S512x128 v140 broadcasts_S1x128_S512x128
  have v143 : FVec F S512x128 .f32 := mulf v141 v142
  have v144 : FVec F S512x128 .f32 := addf v135 v143
  have v145 : FVec F S512x128 .f32 := subf v144 v80
  have cst_63 : FVec F S512x4096 .f32 := constant S512x4096 .f32 0x00000000#32
  have v146 : FVec F S512x4096 .f32 := matmul dot_S512x128_S128x4096_S512x4096_1_0_0_1_n_n none v145 v13 cst_63
  have v147 : FVec F S512x4096 .bf16 := truncf .bf16 v146 bitsLt_bf16_f32
  have v148 : FVec F S512x4096 .bf16 := addf v79 v147
  v148

/-- What is contracted with the candidates once the running count `cf` is known: the first sixteen ones of the
    mask (rows 0–511) and its first one (rows 512–1023), against the columns (x, y, z, 1). -/
def selectSums (v9 : FVec F S4096x4 .f32) (v26 : FVec F S512x4096 .bf16) (v148 : FVec F S512x4096 .bf16) : FVec F S1024x4 .f32 :=
  have cst_64 : F .bf16 := Scalar.ofBits .bf16 0x4180#16
  have v149 : FVec F S512x4096 .bf16 := broadcast S512x4096 cst_64
  have v150 : IVec S512x4096 1 := cmpf .ole v148 v149
  have cst_65 : F .bf16 := Scalar.ofBits .bf16 0x0000#16
  have v151 : FVec F S512x4096 .bf16 := broadcast S512x4096 cst_65
  have v152 : FVec F S512x4096 .bf16 := select v150 v26 v151
  have cst_66 : F .bf16 := Scalar.ofBits .bf16 0x3F80#16
  have v153 : FVec F S512x4096 .bf16 := broadcast S512x4096 cst_66
  have v154 : IVec S512x4096 1 := cmpf .oeq v148 v153
  have cst_67 : F .bf16 := Scalar.ofBits .bf16 0x0000#16
  have v155 : FVec F S512x4096 .bf16 := broadcast S512x4096 cst_67
  have v156 : FVec F S512x4096 .bf16 := select v154 v26 v155
  have v157 : FVec F S1024x4096 .bf16 := concatenate S1024x4096 0 [⟨S512x4096, v152⟩, ⟨S512x4096, v156⟩] concatenates_S512x4096_S512x4096_S1024x4096_d0
  have cst_68 : FVec F S1024x4 .f32 := constant S1024x4 .f32 0x00000000#32
  have v158 : FVec F S1024x4 .f32 := matmul dot_S1024x4096_S4096x4_S1024x4_1_0_0_1_n_n none v157 v9 cst_68
  v158

theorem k0_pay18_eq (v9 : FVec F S4096x4 .f32) (v13 : FVec F S128x4096 .f32) (v26 : FVec F S512x4096 .bf16) (v79 : FVec F S512x4096 .bf16)
    (v80 : FVec F S512x128 .f32) (v81 : IVec S1x128 32) (v108 : FVec F S512x128 .f32) (v116 : FVec F S512x128 .f32) :
    k0_pay18 v9 v13 v26 v79 v80 v81 v108 v116 = selectSums v9 v26 (runCount v13 v79 v80 v81 v108 v116) := rfl

/-- The running count of the mask `v26` along each row, with the two chunk-membership matrices as loaded. -/
abbrev countOf (v11 : FVec F S4096x128 .bf16) (v13 : FVec F S128x4096 .f32) (v26 : FVec F S512x4096 .bf16) : FVec F S512x4096 .bf16 :=
  runCount v13 (inChunk v26) (k0_pay15 v11 v26) chunkLane (k0_pay16 v11 v26) (k0_pay17 v11 v26)

/-- The running total after one grid point: the total before it, `acc`, plus the point's sum of lengths. -/
def step (x0 : Vec F S1x512x4 .f32) (x1 : Vec F S1x3x4096 .f32) (x2 : Vec F S1x1x4096 .f32) (x3 : Vec F S1x1x3 .f32)
    (x4 : Vec F S1x4096x4 .f32) (x5 : Vec F S4096x128 .bf16) (x6 : Vec F S128x4096 .f32) (acc : Vec F S1x1 .f32) : FVec F S1x1 .f32 :=
  k0_pay2 (k0_pay4 x3) (k0_pay8 x0)
    (selectSums (k0_pay5 x4) (maskOf x0 x1 x2) (countOf (k0_pay6 x5) (k0_pay7 x6) (maskOf x0 x1 x2))) acc

end Cert.KernelIdeal.Body

end
-- ==== Proof.KRun.lean ====
/-
  The kernel program's run, with its result named.

  The program's one output block [1,1] is the same block at every one of the 128 grid points.  At the first point
  the body stores the zero block into it, reads that back and stores the zero block plus the point's partial sum;
  at every later point it reads what the point before left and stores that plus the point's partial sum.  In both
  cases what the block holds after the point is `Body.step` of the point's seven loaded blocks and of the total before
  the point (the zero block `k0_pay1` at the first point): `outsAt0_zero`, `outsAt0_succ`.  The block is written back
  to its [1,1] array once, after the last point, and the block is the whole array: the array ends holding the total
  after point 127 (`final`).  After the region four host operations act on it — the reshape of the [1,1] array to a
  scalar, a division by 65536, a division by 4096 and a product by 24 (`tailK`, the three constants kept as their
  words) — and the program's result is that scalar (`run`), its two arguments being left as launched.
-/
import proofs.«123924_g12506944766668_retrytranche2_29_15_alg».proof.Proof.Gen.KernelIdeal.Frame
import proofs.«123924_g12506944766668_retrytranche2_29_15_alg».proof.Proof.Body
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Body Idealize.ShloMosaic Idealize.ShloMosaic.ValueIdx

variable {F : FTy → Type} [FloatOps F]

/-- The zero offsets of a rank-2 access, as a constant function. -/
theorem hz : (![0, 0] : Fin 2 → Nat) = fun _ => 0 := funext fun a => by fin_cases a <;> rfl
/-- The zero offsets of a rank-3 access, as a constant function. -/
theorem hz3 : (![0, 0, 0] : Fin 3 → Nat) = fun _ => 0 := funext fun a => by fin_cases a <;> rfl

/-! ## What one grid point leaves in the output block -/

/-- At a point other than the first the body's one covering store leaves, in the output block holding `xo7`,
    `step` of the seven loaded blocks and `xo7`: its loads read the whole buffers. -/
theorem out_B (c : Dev nD) (i : grid0.Coords) (arg2 : Memref sig .tc .vmem S1x512x4 .f32) (harg2 : arg2.IsWhole) (arg3 : Memref sig .tc .vmem S1x3x4096 .f32) (harg3 : arg3.IsWhole) (arg4 : Memref sig .tc .vmem S1x1x4096 .f32) (harg4 : arg4.IsWhole) (arg5 : Memref sig .tc .vmem S1x1x3 .f32) (harg5 : arg5.IsWhole) (arg6 : Memref sig .tc .vmem S1x4096x4 .f32) (harg6 : arg6.IsWhole) (arg7 : Memref sig .tc .vmem S4096x128 .bf16) (harg7 : arg7.IsWhole) (arg8 : Memref sig .tc .vmem S128x4096 .f32) (harg8 : arg8.IsWhole) (arg9 : Memref sig .tc .vmem S1x1 .f32) (harg9 : arg9.IsWhole) (hc0 : ¬cond0_0 i)
    (x0 : Vec F S1x512x4 .f32) (x1 : Vec F S1x3x4096 .f32) (x2 : Vec F S1x1x4096 .f32) (x3 : Vec F S1x1x3 .f32) (x4 : Vec F S1x4096x4 .f32) (x5 : Vec F S4096x128 .bf16) (x6 : Vec F S128x4096 .f32) (xo7 : Vec F S1x1 .f32) :
    out0_B_7 c i arg2 harg2 arg3 harg3 arg4 harg4 arg5 harg5 arg6 harg6 arg7 harg7 arg8 harg8 arg9 harg9 hc0 x0 x1 x2 x3 x4 x5 x6 xo7 = step x0 x1 x2 x3 x4 x5 x6 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 x6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread,
    View.ld_unit_zero (S := S1x512x4) hz3, View.ld_unit_zero (S := S1x3x4096) hz3, View.ld_unit_zero (S := S1x1x4096) hz3, View.ld_unit_zero (S := S1x1x3) hz3, View.ld_unit_zero (S := S1x4096x4) hz3,
    View.ld_unit_zero (S := S4096x128) hz, View.ld_unit_zero (S := S128x4096) hz, View.ld_unit_zero (S := S1x1) hz]
  rfl

/-- At the first point the body stores the zero block, reads it back, and leaves `step` of the seven loaded blocks and
    the zero block. -/
theorem out_A (c : Dev nD) (i : grid0.Coords) (arg2 : Memref sig .tc .vmem S1x512x4 .f32) (harg2 : arg2.IsWhole) (arg3 : Memref sig .tc .vmem S1x3x4096 .f32) (harg3 : arg3.IsWhole) (arg4 : Memref sig .tc .vmem S1x1x4096 .f32) (harg4 : arg4.IsWhole) (arg5 : Memref sig .tc .vmem S1x1x3 .f32) (harg5 : arg5.IsWhole) (arg6 : Memref sig .tc .vmem S1x4096x4 .f32) (harg6 : arg6.IsWhole) (arg7 : Memref sig .tc .vmem S4096x128 .bf16) (harg7 : arg7.IsWhole) (arg8 : Memref sig .tc .vmem S128x4096 .f32) (harg8 : arg8.IsWhole) (arg9 : Memref sig .tc .vmem S1x1 .f32) (harg9 : arg9.IsWhole) (hc0 : cond0_0 i)
    (x0 : Vec F S1x512x4 .f32) (x1 : Vec F S1x3x4096 .f32) (x2 : Vec F S1x1x4096 .f32) (x3 : Vec F S1x1x3 .f32) (x4 : Vec F S1x4096x4 .f32) (x5 : Vec F S4096x128 .bf16) (x6 : Vec F S128x4096 .f32) :
    out0_A_7 c i arg2 harg2 arg3 harg3 arg4 harg4 arg5 harg5 arg6 harg6 arg7 harg7 arg8 harg8 arg9 harg9 hc0 x0 x1 x2 x3 x4 x5 x6 = step x0 x1 x2 x3 x4 x5 x6 k0_pay1 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread,
    View.ld_unit_zero (S := S1x512x4) hz3, View.ld_unit_zero (S := S1x3x4096) hz3, View.ld_unit_zero (S := S1x1x4096) hz3, View.ld_unit_zero (S := S1x1x3) hz3, View.ld_unit_zero (S := S1x4096x4) hz3,
    View.ld_unit_zero (S := S4096x128) hz, View.ld_unit_zero (S := S128x4096) hz, View.ld_unit_zero (S := S1x1) hz]
  rfl

/-! ## The running total, point by point -/

variable (m : (ℓ : Loc nD τ sig) → Buf (Elt F) ℓ) (ρ : Dev nD → PrngReg)

/-- After the first point the output block holds one step from the zero block. -/
theorem outsAt0_zero (c : Dev nD) (h : 0 < cfg0.N) :
    outsAt0 m c 0 h = step (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) k0_pay1 :=
  (outsAt0_A m c ⟨0, h⟩ rfl).trans
    (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩))

/-- After point `n + 1` it holds one step from what it held after point `n`: no later point resets it. -/
theorem outsAt0_succ (c : Dev nD) (n : ℕ) (h : n + 1 < cfg0.N) :
    outsAt0 m c (n + 1) h = step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)) := by
  have hN : cfg0.N = 128 := N_0
  have hB : ¬(⟨n + 1, h⟩ : Fin cfg0.N).val % 128 = 0 := by dsimp only; omega
  exact (outsAt0_B m c ⟨n + 1, h⟩ hB).trans
    (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun h' => hB ((hcond0_0 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)))

/-! ## The result array after the region -/

/-- The last grid point. -/
abbrev tLast : Fin cfg0.N := ⟨127, by rw [show cfg0.N = 128 from N_0]; decide⟩

/-- The accumulator after the last point, as contents of the kernel's result array (its one block is the array). -/
abbrev total (c : Dev nD) : Buf (Elt F) ((c : Thread nD τ).loc main_call0_v24) :=
  outsAt0 m c 127 tLast.isLt

/-- The one write-back, after point 127, writes it: block (0, 0) of the [1,1] array is the array. -/
theorem flushed_eq (c : Dev nD) (t : Fin cfg0.N) (hf : (cfg0.win 7).flush t = true) :
    (dats m 0 c).flushed 7 t = ((cfg0.win 7).blk t).view.read (Elt F) (total m c) := by
  have hN : cfg0.N = 128 := N_0
  have h3 : t.val = 127 := by have := (flush0_7 t).mp hf; have := t.isLt; omega
  have e : outsAt0 m c t.val t.isLt = total m c := by
    obtain ⟨n, hn⟩ := t
    dsimp only at h3
    subst h3
    rfl
  show (cfg0.win 7).cut (grid0.coords t) ((dats m 0 c).after 7 t) = _
  rw [after0_7, e]
  have hz' : (fun a => win0_7.index t a * main_call0_v24.ty.shape.size a) = fun _ => 0 := funext fun a => by fin_cases a <;> rfl
  exact (Memref.read_access_unit_zero (Elt F) main_call0_v24 hz' (fun a => by rw [congrFun hz' a]; simp) (total m c)).symm

/-- Every index of the [1,1] result array lies in the block of any point (the block is the array). -/
theorem mem_blk (t : Fin cfg0.N) (i : S1x1.Idx) : i ∈ ((cfg0.win 7).blk t).view.set := by
  show i ∈ ((View.whole main_call0_v24).slice (win0_7.rect t)).set
  rw [View.set_slice_whole, Rect.mem_set_unit]
  intro a
  have h0 : (i 0 : Nat) < 1 := (i 0).isLt
  have h1 : (i 1 : Nat) < 1 := (i 1).isLt
  match a with
  | ⟨0, _⟩ => exact ⟨Nat.zero_le _, h0⟩
  | ⟨1, _⟩ => exact ⟨Nat.zero_le _, h1⟩

/-- So the result array ends holding the accumulator after the last point. -/
theorem final (c : Dev nD) : (dats m 0 c).arrAt 7 cfg0.N = total m c :=
  (dats m 0 c).arrAt_eq_of_cover 7 (total m c) (flushed_eq m c) fun i =>
    ⟨tLast, (flush0_7 tLast).mpr rfl, mem_blk tLast i⟩

/-! ## The host operations after the region, at the ideal instance -/

/-- The host tail on a scalar: divided by 65536, divided by 4096, multiplied by 24 (the three constants kept as their words). -/
def tailK (t : EReal) : EReal :=
  Ideal.div (Ideal.div t (Ideal.ofBits .f32 0x47800000#32)) (Ideal.ofBits .f32 0x45800000#32) * Ideal.ofBits .f32 0x41C00000#32

/-- The tail's four operations on a [1,1] block: the reshape to a scalar reads the block's one element. -/
theorem tail_apply (X : Vec Ideal S1x1 .f32) :
    mulf (Host.divf (Host.divf (shapeCast S_ X shapeCasts_S1x1_S_) (constant (F := Ideal) S_ .f32 0x47800000#32))
      (constant (F := Ideal) S_ .f32 0x45800000#32)) (constant (F := Ideal) S_ .f32 0x41C00000#32)
      = fun _ => tailK (X (ix2 (0 : Fin 1) (0 : Fin 1))) := by
  funext j
  have e : shapeCast S_ X shapeCasts_S1x1_S_ j = X (ix2 (0 : Fin 1) (0 : Fin 1)) :=
    shapeCast_apply X shapeCasts_S1x1_S_ j (ix2 (0 : Fin 1) (0 : Fin 1)) (by
      have h1 : (S1x1.rowMajor (ix2 (0 : Fin 1) (0 : Fin 1))).val < 1 := (S1x1.rowMajor _).isLt
      have h2 : (S_.rowMajor j).val < 1 := (S_.rowMajor j).isLt
      omega)
  show Ideal.div (Ideal.div (shapeCast S_ X shapeCasts_S1x1_S_ j) _) _ * _ = _
  rw [e]
  rfl

variable (mI : (ℓ : Loc nD τ sig) → Buf (Elt Ideal) ℓ)

/-- What the program's result holds at the end: the tail of the accumulator after the last point. -/
theorem tail_eq (c : Dev nD) :
    Pipeline.afterTail₀ cfgs (dats mI) 0 (V0 mI) [hostOps1] c main_v0
      = fun _ => tailK (total mI c (ix2 (0 : Fin 1) (0 : Fin 1))) := by
  have e : Pipeline.withArrays (cfgs 0).spec c (V0 mI c) (fun w => (dats mI 0 c).arrAt w (cfgs 0).N) (Proc.devRef .tc main_call0_v24) = total mI c :=
    (Pipeline.withArrays_arr spec0 launch0.win.arr_inj c _ _ 7).trans (final mI c)
  unfold Pipeline.afterTail₀
  show StableHlo.after hostOps1 _ (Proc.devRef .tc main_v0) = _
  after_results
  refine Eq.trans ?_ (tail_apply (total mI c))
  rw [e]
  rfl

/-- THE RUN, read: at the ideal instance every weakly fair execution of the program terminates with its result at the
    host tail of the accumulator after the last grid point, and its two arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (fun _ => tailK (outsAt0 m c 127 tLast.isLt (ix2 (0 : Fin 1) (0 : Fin 1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v0 (Pipeline.mem_restRefs_of main_v0 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KRun

end
-- ==== Proof.KRow.lean ====
import proofs.«123924_g12506944766668_retrytranche2_29_15_alg».proof.Proof.Body
import Idealize.ShloMosaic.Lib.Pipeline.Value
import Idealize.ShloMosaic.Lib.ValueIdx
import Idealize.ShloMosaic.Lib.ValueLayout
import Idealize.ShloMosaic.PureOps.Ideal.Laws

/-!
# The point's last arithmetic, read at the extended reals

From the running count of in-radius candidates along each of the point's 512 query rows to what the point adds to
the total.  The mask's entries whose count is at most sixteen (rows 0–511) and whose count is one (rows 512–1023)
are contracted with the candidates' columns (x, y, z, 1): the first block of rows holds the sum of the first
sixteen in-radius candidates and their number, the second the first in-radius candidate and whether there is one.
The summed difference vector of a row is the first sum, padded up to sixteen terms by the first candidate (by
the last candidate when no candidate is in radius), less sixteen times the query point; the point adds the sum over
its rows of that vector's length.  Each operation is read at an index: slices, broadcasts and shape casts move
the index, the two additive reductions and the contraction are finite sums, the comparisons are the order's.
-/

noncomputable section

namespace Cert.KernelIdeal.KRow

open Cert.KernelIdeal Cert.KernelIdeal.Gen Cert.KernelIdeal.Body Idealize.ShloMosaic Idealize.ShloMosaic.ValueIdx
open scoped BigOperators

/-! ## The constants' values -/

theorem f32_sixteen : Ideal.ofBits .f32 0x41800000#32 = 16 := by
  simp [Ideal.ofBits, Ideal.ieee, -EReal.coe_mul]; norm_num; rfl

theorem f32_one : Ideal.ofBits .f32 0x3F800000#32 = 1 := by
  simp [Ideal.ofBits, Ideal.ieee, -EReal.coe_mul]; norm_num

theorem bf16_sixteen : Ideal.ofBits .bf16 0x4180#16 = 16 := by
  simp [Ideal.ofBits, Ideal.ieee, -EReal.coe_mul]; norm_num; rfl

theorem bf16_one : Ideal.ofBits .bf16 0x3F80#16 = 1 := by
  simp [Ideal.ofBits, Ideal.ieee, -EReal.coe_mul]; norm_num

theorem bf16_zero : Ideal.ofBits .bf16 0x0000#16 = 0 := by
  simp [Ideal.ofBits, Ideal.ieee]

theorem scalar_ofBits (φ : FTy) (b : BitVec φ.bits) : Scalar.ofBits (F := Ideal) φ b = Ideal.ofBits φ b := rfl

/-! ## Layout operations of the point's arithmetic, read at an index -/

section Layout
variable {α : Type}

/-- A slice of the [1024, 4] sums at (r, c) is the sums at (o₀ + r, o₁ + c). -/
theorem slice_apply {n m o0 o1 : Nat} (s : S1024x4.Idx → α) (h : S1024x4.Slices ![o0, o1] ⟨2, ![n, m]⟩)
    (r : Fin n) (c : Fin m) (R : Fin 1024) (C : Fin 4) (hR : R.val = o0 + r.val) (hC : C.val = o1 + c.val) :
    extractStridedSlice ⟨2, ![n, m]⟩ ![o0, o1] s h (ix2 r c) = s (ix2 R C) :=
  extractStridedSlice_apply _ s h (ix2 r c) (ix2 R C) fun a => match a with
    | ⟨0, _⟩ => hR
    | ⟨1, _⟩ => hC

/-- A [512, 1] column spread over three lanes reads, at (r, c), the column at r. -/
theorem spread_col_apply (x : S512x1.Idx → α) (h : S512x1.Broadcasts S512x3) (r : Fin 512) (c : Fin 3) :
    broadcastTo S512x3 x h (ix2 r c) = x (ix2 r (0 : Fin 1)) :=
  broadcastTo_apply x h (ix2 r c) (ix2 r (0 : Fin 1)) fun a => match a with
    | ⟨0, _⟩ => by show r.val = if (512 : Nat) = 1 then 0 else r.val; rw [if_neg (by decide)]
    | ⟨1, _⟩ => by show (0 : Nat) = if (1 : Nat) = 1 then 0 else c.val; rw [if_pos rfl]

/-- A [1, 3] row spread over 512 rows reads, at (r, c), the row at c. -/
theorem spread_row_apply (x : S1x3.Idx → α) (h : S1x3.Broadcasts S512x3) (r : Fin 512) (c : Fin 3) :
    broadcastTo S512x3 x h (ix2 r c) = x (ix2 (0 : Fin 1) c) :=
  broadcastTo_apply x h (ix2 r c) (ix2 (0 : Fin 1) c) fun a => match a with
    | ⟨0, _⟩ => by show (0 : Nat) = if (1 : Nat) = 1 then 0 else r.val; rw [if_pos rfl]
    | ⟨1, _⟩ => by show c.val = if (3 : Nat) = 1 then 0 else c.val; rw [if_neg (by decide)]

/-- A [512] vector viewed as a [512, 1] column reads, at (r, 0), the vector at r. -/
theorem col_of_vec_apply (x : S512.Idx → α) (h : S512.ShapeCasts S512x1) (r : Fin 512) :
    shapeCast S512x1 x h (ix2 r (0 : Fin 1)) = x (ix1 r) :=
  shapeCast_apply x h _ _ (by
    rw [Shape.rowMajor_val_one, Shape.rowMajor_val_two]
    show r.val = r.val * 1 + 0
    omega)

/-- A [512, 1] column viewed as [1, 512, 1] reads, at (0, r, 0), the column at r. -/
theorem cube_of_col_apply (x : S512x1.Idx → α) (h : S512x1.ShapeCasts S1x512x1) (r : Fin 512) :
    shapeCast S1x512x1 x h (ix3 (0 : Fin 1) r (0 : Fin 1)) = x (ix2 r (0 : Fin 1)) :=
  shapeCast_apply x h _ _ (by
    rw [Shape.rowMajor_val_two, Shape.rowMajor_val_three]
    show r.val * 1 + 0 = (0 * 512 + r.val) * 1 + 0
    omega)

/-- A [1] vector viewed as [1, 1, 1] reads its one entry. -/
theorem cube_of_one_apply (x : S1.Idx → α) (h : S1.ShapeCasts S1x1x1) :
    shapeCast S1x1x1 x h (ix3 (0 : Fin 1) (0 : Fin 1) (0 : Fin 1)) = x (ix1 (0 : Fin 1)) :=
  shapeCast_apply x h _ _ (by
    rw [Shape.rowMajor_val_one, Shape.rowMajor_val_three]
    rfl)

end Layout

/-! ## The two reductions -/

/-- A reduced row index with the lane put back is the pair. -/
theorem lift_lane (h : S512x3.Reduces [1] S512) (r : Fin 512) (k : Fin (S512x3.size 1)) :
    h.lift (ix1 r) k = ix2 r (⟨k.val, k.isLt⟩ : Fin 3) := by
  funext a; apply Fin.ext
  match a with
  | ⟨0, _⟩ => rfl
  | ⟨1, _⟩ => rfl

/-- The lane sum of a [512, 3] array at row r is the sum of the row's three entries. -/
theorem lane_sum (z : FVec Ideal S512x3 .f32) (h : S512x3.Reduces [1] S512) (hφ : FKind.Formats .f32)
    (hacc : (0x00000000#32 : BitVec 32) = FKind.add.neutral .f32 hφ) (r : Fin 512) :
    multiReduction .add [1] S512 z 0x00000000#32 h hφ hacc (ix1 r) = ∑ c : Fin 3, z (ix2 r c) := by
  refine (Ideal.multiReduction_add_single z 0x00000000#32 h hφ hacc (ix1 r)).trans ?_
  exact Finset.sum_congr rfl fun k _ => congrArg z (lift_lane h r k)

/-- The indices of a [1, 512, 1] array are its 512 rows. -/
def rowEquiv : Fin 512 ≃ S1x512x1.Idx where
  toFun r := ix3 (0 : Fin 1) r (0 : Fin 1)
  invFun i := ⟨(i 1).val, (i 1).isLt⟩
  left_inv r := rfl
  right_inv i := by
    funext a; apply Fin.ext
    match a with
    | ⟨0, _⟩ =>
      have h : (i 0).val < 1 := (i 0).isLt
      show 0 = (i 0).val
      omega
    | ⟨1, _⟩ => rfl
    | ⟨2, _⟩ =>
      have h : (i 2).val < 1 := (i 2).isLt
      show 0 = (i 2).val
      omega

/-- The sum of a [1, 512, 1] array over its last two axes is the sum of its 512 entries. -/
theorem total_sum (z : FVec Ideal S1x512x1 .f32) (h : S1x512x1.Reduces [1, 2] S1) (hφ : FKind.Formats .f32)
    (hacc : (0x00000000#32 : BitVec 32) = FKind.add.neutral .f32 hφ) :
    multiReduction .add [1, 2] S1 z 0x00000000#32 h hφ hacc (ix1 (0 : Fin 1))
      = ∑ r : Fin 512, z (ix3 (0 : Fin 1) r (0 : Fin 1)) := by
  refine (Ideal.multiReduction_add_total z 0x00000000#32 h (fun b => ?_) hφ hacc (ix1 (0 : Fin 1))).trans ?_
  · match b with
    | ⟨0, _⟩ => rfl
  · exact (Equiv.sum_comp rowEquiv z).symm

/-- The entry a [1, 1, 1] array is read at. -/
theorem extractAt_origin {α : Type} (x : S1x1x1.Idx → α) (h : ∀ a, (![0, 0, 0] : Fin 3 → Nat) a < S1x1x1.size a) :
    extractAt ![0, 0, 0] x h = x (ix3 (0 : Fin 1) (0 : Fin 1) (0 : Fin 1)) :=
  congrArg x (funext fun a => match a with
    | ⟨0, _⟩ => rfl
    | ⟨1, _⟩ => rfl
    | ⟨2, _⟩ => rfl)

/-! ## The point's arithmetic from the [1024, 4] sums -/

section Arith
variable (v7 : FVec Ideal S1x3 .f32) (v14 : FVec Ideal S512x3 .f32) (s : FVec Ideal S1024x4 .f32)

/-- The summed difference vector of row r at coordinate c, from the sums s: rows 0–511 hold the selected sums
    (columns 0–2) and their number (column 3), rows 512–1023 the first selected one and whether there is one. -/
def vecOf (r : Fin 512) (c : Fin 3) : EReal :=
  ((s (ix2 (⟨r.val, by omega⟩ : Fin 1024) (⟨c.val, by omega⟩ : Fin 4))
      + ((16 : EReal) - s (ix2 (⟨r.val, by omega⟩ : Fin 1024) (3 : Fin 4)))
        * s (ix2 (⟨r.val + 512, by omega⟩ : Fin 1024) (⟨c.val, by omega⟩ : Fin 4)))
    + (((1 : EReal) - s (ix2 (⟨r.val + 512, by omega⟩ : Fin 1024) (3 : Fin 4))) * 16) * v7 (ix2 (0 : Fin 1) c))
  - 16 * v14 (ix2 r c)

/-- The same as a [512, 3] array, as the kernel computes it. -/
def diffArr : FVec Ideal S512x3 .f32 :=
  subf
    (addf
      (addf (extractStridedSlice S512x3 ![0, 0] s slices_S1024x4_o0_0_S512x3)
        (mulf
          (broadcastTo S512x3
            (subf (broadcast S512x1 (Scalar.ofBits .f32 0x41800000#32))
              (extractStridedSlice S512x1 ![0, 3] s slices_S1024x4_o0_3_S512x1))
            broadcasts_S512x1_S512x3)
          (extractStridedSlice S512x3 ![512, 0] s slices_S1024x4_o512_0_S512x3)))
      (mulf
        (broadcastTo S512x3
          (mulf
            (subf (broadcast S512x1 (Scalar.ofBits .f32 0x3F800000#32))
              (extractStridedSlice S512x1 ![512, 3] s slices_S1024x4_o512_3_S512x1))
            (broadcast S512x1 (Scalar.ofBits .f32 0x41800000#32)))
          broadcasts_S512x1_S512x3)
        (broadcastTo S512x3 v7 broadcasts_S1x3_S512x3)))
    (mulf (broadcast S512x3 (Scalar.ofBits .f32 0x41800000#32)) v14)

theorem diffArr_apply (r : Fin 512) (c : Fin 3) : diffArr v7 v14 s (ix2 r c) = vecOf v7 v14 s r c := by
  have e1 := slice_apply s slices_S1024x4_o0_0_S512x3 r c (⟨r.val, by omega⟩ : Fin 1024) (⟨c.val, by omega⟩ : Fin 4)
    (Nat.zero_add _).symm (Nat.zero_add _).symm
  have e2 := slice_apply s slices_S1024x4_o0_3_S512x1 r (0 : Fin 1) (⟨r.val, by omega⟩ : Fin 1024) (3 : Fin 4)
    (Nat.zero_add _).symm rfl
  have e3 := slice_apply s slices_S1024x4_o512_0_S512x3 r c (⟨r.val + 512, by omega⟩ : Fin 1024) (⟨c.val, by omega⟩ : Fin 4)
    (Nat.add_comm _ _) (Nat.zero_add _).symm
  have e4 := slice_apply s slices_S1024x4_o512_3_S512x1 r (0 : Fin 1) (⟨r.val + 512, by omega⟩ : Fin 1024) (3 : Fin 4)
    (Nat.add_comm _ _) rfl
  unfold diffArr vecOf
  simp only [subf_apply, addf_apply, mulf_apply, spread_col_apply, spread_row_apply, broadcast_apply, scalar_ofBits,
    f32_sixteen, f32_one]
  rw [e1, e2, e3, e4]

/-- The rows' lengths as a [512, 1] column, as the kernel computes them. -/
def lenArr : FVec Ideal S512x1 .f32 :=
  sqrt (shapeCast S512x1
    (multiReduction .add [1] S512 (mulf (diffArr v7 v14 s) (diffArr v7 v14 s)) 0x00000000#32 reduces_S512x3_S512 (.inl rfl) rfl)
    shapeCasts_S512_S512x1)

theorem lenArr_apply (r : Fin 512) :
    lenArr v7 v14 s (ix2 r (0 : Fin 1)) = Ideal.sqrt (0 + ∑ c : Fin 3, vecOf v7 v14 s r c * vecOf v7 v14 s r c) := by
  unfold lenArr
  show Ideal.sqrt (shapeCast S512x1 _ shapeCasts_S512_S512x1 (ix2 r (0 : Fin 1))) = _
  refine congrArg Ideal.sqrt ?_
  refine (col_of_vec_apply _ shapeCasts_S512_S512x1 r).trans ?_
  refine (lane_sum _ reduces_S512x3_S512 (.inl rfl) rfl r).trans ?_
  refine (Finset.sum_congr rfl fun c _ => ?_).trans (zero_add _).symm
  show diffArr v7 v14 s (ix2 r c) * diffArr v7 v14 s (ix2 r c) = _
  rw [diffArr_apply]

/-- The kernel's last payload is the loaded total plus the sum of the lengths. -/
theorem k0_pay2_eq (acc : Vec Ideal S1x1 .f32) :
    k0_pay2 (F := Ideal) v7 v14 s acc
      = addf (shapeCast S1x1 acc shapeCasts_S1x1_S1x1)
          (broadcast S1x1 (extractAt ![0, 0, 0]
            (shapeCast S1x1x1
              (multiReduction .add [1, 2] S1 (shapeCast S1x512x1 (lenArr v7 v14 s) shapeCasts_S512x1_S1x512x1)
                0x00000000#32 reduces_S1x512x1_S1 (.inl rfl) rfl)
              shapeCasts_S1_S1x1x1)
            inpos_S1x1x1_p0_0_0)) := rfl

theorem k0_pay2_apply (acc : Vec Ideal S1x1 .f32) :
    k0_pay2 (F := Ideal) v7 v14 s acc (ix2 (0 : Fin 1) (0 : Fin 1))
      = acc (ix2 (0 : Fin 1) (0 : Fin 1))
        + (0 + ∑ r : Fin 512, Ideal.sqrt (0 + ∑ c : Fin 3, vecOf v7 v14 s r c * vecOf v7 v14 s r c)) := by
  rw [k0_pay2_eq]
  refine (addf_apply _ _ _).trans ?_
  rw [shapeCast_self acc shapeCasts_S1x1_S1x1]
  refine congrArg (acc (ix2 (0 : Fin 1) (0 : Fin 1)) + ·) ?_
  refine (broadcast_apply _ _).trans ?_
  refine (extractAt_origin _ inpos_S1x1x1_p0_0_0).trans ?_
  refine (cube_of_one_apply _ shapeCasts_S1_S1x1x1).trans ?_
  refine (total_sum _ reduces_S1x512x1_S1 (.inl rfl) rfl).trans ?_
  refine (Finset.sum_congr rfl fun r _ => ?_).trans (zero_add _).symm
  refine (cube_of_col_apply _ shapeCasts_S512x1_S1x512x1 r).trans ?_
  exact lenArr_apply v7 v14 s r

end Arith

/-! ## The selection and its contraction with the candidates -/

section Select
variable (v9 : FVec Ideal S4096x4 .f32) (v26 cf : FVec Ideal S512x4096 .bf16)

/-- The mask's entry where the running count is at most sixteen, else zero. -/
def wSel (r : Fin 512) (j : Fin 4096) : EReal := if cf (ix2 r j) ≤ (16 : EReal) then v26 (ix2 r j) else 0

/-- The mask's entry where the running count is one, else zero. -/
def fSel (r : Fin 512) (j : Fin 4096) : EReal := if cf (ix2 r j) = (1 : EReal) then v26 (ix2 r j) else 0

/-- The two selections as the kernel computes them. -/
def wArr : FVec Ideal S512x4096 .bf16 :=
  select (cmpf .ole cf (broadcast S512x4096 (Scalar.ofBits .bf16 0x4180#16))) v26
    (broadcast S512x4096 (Scalar.ofBits .bf16 0x0000#16))
def fArr : FVec Ideal S512x4096 .bf16 :=
  select (cmpf .oeq cf (broadcast S512x4096 (Scalar.ofBits .bf16 0x3F80#16))) v26
    (broadcast S512x4096 (Scalar.ofBits .bf16 0x0000#16))

theorem wArr_apply (r : Fin 512) (j : Fin 4096) : wArr v26 cf (ix2 r j) = wSel v26 cf r j := by
  unfold wArr wSel
  show Scalar.select (BitVec.ofBool (decide (cf (ix2 r j) ≤ Ideal.ofBits .bf16 0x4180#16))) (v26 (ix2 r j))
    (Ideal.ofBits .bf16 0x0000#16) = _
  rw [bf16_sixteen, bf16_zero]
  by_cases h : cf (ix2 r j) ≤ (16 : EReal)
  · rw [if_pos h, decide_eq_true h]; exact select_one _ _
  · rw [if_neg h, decide_eq_false h]; exact select_zero _ _

theorem fArr_apply (r : Fin 512) (j : Fin 4096) : fArr v26 cf (ix2 r j) = fSel v26 cf r j := by
  unfold fArr fSel
  show Scalar.select (BitVec.ofBool (decide (cf (ix2 r j) = Ideal.ofBits .bf16 0x3F80#16))) (v26 (ix2 r j))
    (Ideal.ofBits .bf16 0x0000#16) = _
  rw [bf16_one, bf16_zero]
  by_cases h : cf (ix2 r j) = (1 : EReal)
  · rw [if_pos h, decide_eq_true h]; exact select_one _ _
  · rw [if_neg h, decide_eq_false h]; exact select_zero _ _

/-- The two selections stacked: rows 0–511 the first, rows 512–1023 the second. -/
theorem stack_lo (x y : FVec Ideal S512x4096 .bf16) (r : Fin 512) (j : Fin 4096) :
    concatenate S1024x4096 0 [⟨S512x4096, x⟩, ⟨S512x4096, y⟩] concatenates_S512x4096_S512x4096_S1024x4096_d0
      (ix2 (⟨r.val, by omega⟩ : Fin 1024) j) = x (ix2 r j) :=
  concatenate_pair_apply_left 0 x y concatenates_S512x4096_S512x4096_S1024x4096_d0 _ rfl (ix2 r j) fun b => match b with
    | ⟨0, _⟩ => rfl
    | ⟨1, _⟩ => rfl

theorem stack_hi (x y : FVec Ideal S512x4096 .bf16) (r : Fin 512) (j : Fin 4096) :
    concatenate S1024x4096 0 [⟨S512x4096, x⟩, ⟨S512x4096, y⟩] concatenates_S512x4096_S512x4096_S1024x4096_d0
      (ix2 (⟨r.val + 512, by omega⟩ : Fin 1024) j) = y (ix2 r j) :=
  concatenate_pair_apply_right 0 x y concatenates_S512x4096_S512x4096_S1024x4096_d0 _ rfl rfl (ix2 r j)
    (fun b => match b with
      | ⟨0, _⟩ => fun hb => absurd rfl hb
      | ⟨1, _⟩ => fun _ => rfl)
    rfl

theorem lhs_dot_0 (i : S1024x4.Idx) (q : dot_S1024x4096_S4096x4_S1024x4_1_0_0_1_n_n.contr.Idx) :
    (dot_S1024x4096_S4096x4_S1024x4_1_0_0_1_n_n.lhsIdx i q 0).val = (i 0).val := by
  unfold DotDims.lhsIdx
  rw [dif_neg (show ¬(0 : Fin S1024x4096.rank) ∈ dot_S1024x4096_S4096x4_S1024x4_1_0_0_1_n_n.lhsBatch by decide),
    dif_pos (show (0 : Fin S1024x4096.rank) ∈ dot_S1024x4096_S4096x4_S1024x4_1_0_0_1_n_n.lhsNonContracting by decide)]
  rfl
theorem lhs_dot_1 (i : S1024x4.Idx) (q : dot_S1024x4096_S4096x4_S1024x4_1_0_0_1_n_n.contr.Idx) :
    (dot_S1024x4096_S4096x4_S1024x4_1_0_0_1_n_n.lhsIdx i q 1).val = (q ⟨0, by decide⟩).val :=
  dot_S1024x4096_S4096x4_S1024x4_1_0_0_1_n_n.lhsIdx_val_of_single rfl i q
theorem rhs_dot_0 (i : S1024x4.Idx) (q : dot_S1024x4096_S4096x4_S1024x4_1_0_0_1_n_n.contr.Idx) :
    (dot_S1024x4096_S4096x4_S1024x4_1_0_0_1_n_n.rhsIdx i q 0).val = (q ⟨0, by decide⟩).val :=
  dot_S1024x4096_S4096x4_S1024x4_1_0_0_1_n_n.rhsIdx_val_of_single rfl i q
theorem rhs_dot_1 (i : S1024x4.Idx) (q : dot_S1024x4096_S4096x4_S1024x4_1_0_0_1_n_n.contr.Idx) :
    (dot_S1024x4096_S4096x4_S1024x4_1_0_0_1_n_n.rhsIdx i q 1).val = (i 1).val := by
  unfold DotDims.rhsIdx
  rw [dif_neg (show ¬(1 : Fin S4096x4.rank) ∈ dot_S1024x4096_S4096x4_S1024x4_1_0_0_1_n_n.rhsBatch by decide),
    dif_pos (show (1 : Fin S4096x4.rank) ∈ dot_S1024x4096_S4096x4_S1024x4_1_0_0_1_n_n.rhsNonContracting by decide)]
  rfl

/-- The contraction into zeros, read at (R, C): the sum over the 4096 candidates. -/
theorem dot_apply (x : FVec Ideal S1024x4096 .bf16) (R : Fin 1024) (C : Fin 4) :
    matmul dot_S1024x4096_S4096x4_S1024x4_1_0_0_1_n_n none x v9 (constant S1024x4 .f32 0x00000000#32) (ix2 R C)
      = ∑ j : Fin 4096, x (ix2 R j) * v9 (ix2 j C) := by
  simp only [matmul]
  rw [Ideal.matmul_constant_zero_apply,
    ← Equiv.sum_comp (contrEquiv1 dot_S1024x4096_S4096x4_S1024x4_1_0_0_1_n_n 4096 rfl rfl).symm]
  refine Finset.sum_congr rfl fun k _ => ?_
  have hk := contrEquiv1_symm_val dot_S1024x4096_S4096x4_S1024x4_1_0_0_1_n_n 4096 rfl rfl k
  have el : dot_S1024x4096_S4096x4_S1024x4_1_0_0_1_n_n.lhsIdx (ix2 R C)
      ((contrEquiv1 dot_S1024x4096_S4096x4_S1024x4_1_0_0_1_n_n 4096 rfl rfl).symm k) = ix2 R k :=
    funext fun a => Fin.ext (by
      match a with
      | ⟨0, _⟩ => exact lhs_dot_0 _ _
      | ⟨1, _⟩ => exact (lhs_dot_1 _ _).trans hk)
  have er : dot_S1024x4096_S4096x4_S1024x4_1_0_0_1_n_n.rhsIdx (ix2 R C)
      ((contrEquiv1 dot_S1024x4096_S4096x4_S1024x4_1_0_0_1_n_n 4096 rfl rfl).symm k) = ix2 k C :=
    funext fun a => Fin.ext (by
      match a with
      | ⟨0, _⟩ => exact (rhs_dot_0 _ _).trans hk
      | ⟨1, _⟩ => exact rhs_dot_1 _ _)
  rw [el, er]

theorem selectSums_eq :
    selectSums (F := Ideal) v9 v26 cf
      = matmul dot_S1024x4096_S4096x4_S1024x4_1_0_0_1_n_n none
          (concatenate S1024x4096 0 [⟨S512x4096, wArr v26 cf⟩, ⟨S512x4096, fArr v26 cf⟩]
            concatenates_S512x4096_S512x4096_S1024x4096_d0)
          v9 (constant S1024x4 .f32 0x00000000#32) := rfl

/-- Rows 0–511 of the sums: the first sixteen in-radius candidates' columns summed. -/
theorem selectSums_lo (r : Fin 512) (C : Fin 4) :
    selectSums (F := Ideal) v9 v26 cf (ix2 (⟨r.val, by omega⟩ : Fin 1024) C) = ∑ j : Fin 4096, wSel v26 cf r j * v9 (ix2 j C) := by
  rw [selectSums_eq, dot_apply]
  refine Finset.sum_congr rfl fun j _ => ?_
  rw [stack_lo, wArr_apply]

/-- Rows 512–1023 of the sums: the first in-radius candidate's columns. -/
theorem selectSums_hi (r : Fin 512) (C : Fin 4) :
    selectSums (F := Ideal) v9 v26 cf (ix2 (⟨r.val + 512, by omega⟩ : Fin 1024) C) = ∑ j : Fin 4096, fSel v26 cf r j * v9 (ix2 j C) := by
  rw [selectSums_eq, dot_apply]
  refine Finset.sum_congr rfl fun j _ => ?_
  rw [stack_hi, fArr_apply]

end Select

/-! ## The point's contribution -/

section Final
variable (v7 : FVec Ideal S1x3 .f32) (v14 : FVec Ideal S512x3 .f32) (v9 : FVec Ideal S4096x4 .f32)
  (v26 cf : FVec Ideal S512x4096 .bf16)

/-- The summed difference vector of query row r at coordinate c: the sum of the first sixteen in-radius candidates,
    padded by the first one up to sixteen (by the last candidate when there is none), less sixteen times the query. -/
def sumVec (r : Fin 512) (c : Fin 3) : EReal :=
  (((∑ j : Fin 4096, wSel v26 cf r j * v9 (ix2 j (⟨c.val, by omega⟩ : Fin 4)))
      + ((16 : EReal) - ∑ j : Fin 4096, wSel v26 cf r j * v9 (ix2 j (3 : Fin 4))) * (∑ j : Fin 4096, fSel v26 cf r j * v9 (ix2 j (⟨c.val, by omega⟩ : Fin 4))))
    + (((1 : EReal) - ∑ j : Fin 4096, fSel v26 cf r j * v9 (ix2 j (3 : Fin 4))) * 16) * v7 (ix2 (0 : Fin 1) c))
  - 16 * v14 (ix2 r c)

/-- The length of that vector. -/
def rowLen (r : Fin 512) : EReal := Ideal.sqrt (0 + ∑ c : Fin 3, sumVec v7 v14 v9 v26 cf r c * sumVec v7 v14 v9 v26 cf r c)

theorem vecOf_selectSums (r : Fin 512) (c : Fin 3) :
    vecOf v7 v14 (selectSums v9 v26 cf) r c = sumVec v7 v14 v9 v26 cf r c := by
  unfold vecOf sumVec
  rw [selectSums_lo, selectSums_lo, selectSums_hi, selectSums_hi]

/-- One grid point adds to the running total the sum of its 512 rows' lengths. -/
theorem step_apply (acc : Vec Ideal S1x1 .f32) :
    k0_pay2 (F := Ideal) v7 v14 (selectSums v9 v26 cf) acc (ix2 (0 : Fin 1) (0 : Fin 1))
      = acc (ix2 (0 : Fin 1) (0 : Fin 1)) + (0 + ∑ r : Fin 512, rowLen v7 v14 v9 v26 cf r) := by
  rw [k0_pay2_apply]
  refine congrArg (acc (ix2 (0 : Fin 1) (0 : Fin 1)) + ·) (congrArg (0 + ·) (Finset.sum_congr rfl fun r _ => ?_))
  unfold rowLen
  refine congrArg Ideal.sqrt (congrArg (0 + ·) (Finset.sum_congr rfl fun c _ => ?_))
  rw [vecOf_selectSums]

end Final

/-- The total starts at zero. -/
theorem pay1_apply : k0_pay1 (F := Ideal) (ix2 (0 : Fin 1) (0 : Fin 1)) = 0 := by
  show Ideal.ofBits .f32 0x00000000#32 = 0
  exact Ideal.ofBits_zero_f32

end Cert.KernelIdeal.KRow

end
-- ==== Proof.KCount.lean ====
import proofs.«123924_g12506944766668_retrytranche2_29_15_alg».proof.Proof.Body
import Idealize.ShloMosaic.Lib.ValueIdx
import Idealize.ShloMosaic.Lib.KernelVsHost
import Idealize.ShloMosaic.Lib.Pipeline.Value
import Idealize.ShloMosaic.PureOps.Ideal.Laws

/-!
# The running count, read at an index

Along each of the 512 rows the body counts the ones of a 0/1 mask up to and including each of the 4096 lanes, in two
levels. Within each chunk of 32 lanes five doubling steps (lane n adds the value k lanes back when n's place in its
chunk is at least k, for k = 1, 2, 4, 8, 16) give the count of the chunk's ones up to the lane. The contraction of the
mask with the 0/1 chunk-membership matrix gives the 128 chunk totals; seven doubling steps over them give their
inclusive prefix sums; taking the chunk's own total away and contracting with the transposed membership matrix puts on
every lane the number of ones in the earlier chunks. The sum of the two is the number of ones up to the lane.

Every value on the way is a natural number read in the extended reals, so the arithmetic is done on naturals: the
doubling steps are the function dstep, s of them in a row are scan, and after the last one scan is the sum over the
lane's block up to the lane (scan_eq). The extended reals enter only through x * 1 = x, x * 0 = 0, the sum of two
naturals, and the difference of two naturals of which the second is the smaller.
-/

noncomputable section

namespace Cert.KernelIdeal.KCount

open Cert.KernelIdeal Cert.KernelIdeal.Body Idealize.ShloMosaic Idealize.ShloMosaic.ValueIdx
open Cert.KernelIdeal.Gen Finset

/-! ## Doubling scans on naturals -/

/-- One doubling step of a scan within blocks of L lanes: lane n adds the value k lanes back
    when that lane is in the same block (n % L is at least k). -/
def dstep (L k : ℕ) (f : ℕ → ℕ) : ℕ → ℕ := fun n => f n + if k ≤ n % L then f (n - k) else 0

theorem le_dstep (L k : ℕ) (f : ℕ → ℕ) (n : ℕ) : f n ≤ dstep L k f n := Nat.le_add_right _ _

/-- The doubling steps by 1, 2, 4, …, 2^(s-1). -/
def scan (L : ℕ) (f : ℕ → ℕ) : ℕ → ℕ → ℕ
  | 0 => f
  | s + 1 => dstep L (2 ^ s) (scan L f s)

theorem le_scan (L : ℕ) (f : ℕ → ℕ) (s n : ℕ) : f n ≤ scan L f s n := by
  induction s with
  | zero => exact le_rfl
  | succ s ih => exact ih.trans (le_dstep _ _ _ _)

/-- After s doubling steps lane n holds the sum of the last min (2^s) (n % L + 1) lanes up to n. -/
theorem scan_eq (L : ℕ) (hL : 0 < L) (f : ℕ → ℕ) (s n : ℕ) :
    scan L f s n = ∑ d ∈ range (min (2 ^ s) (n % L + 1)), f (n - d) := by
  induction s generalizing n with
  | zero =>
    have h1 : min (2 ^ 0) (n % L + 1) = 1 := by simp
    rw [h1]; simp [scan]
  | succ s ih =>
    show scan L f s n + (if 2 ^ s ≤ n % L then scan L f s (n - 2 ^ s) else 0) = _
    have hp : 2 ^ (s + 1) = 2 ^ s + 2 ^ s := by rw [pow_succ]; omega
    rw [ih n, hp]
    generalize 2 ^ s = p at *
    by_cases h : p ≤ n % L
    · rw [if_pos h, ih (n - p)]
      have hmod : (n - p) % L = n % L - p := by
        have hn : n = (n % L - p) + p + L * (n / L) := by
          have := Nat.mod_add_div n L; omega
        have hlt : n % L - p < L := lt_of_le_of_lt (Nat.sub_le _ _) (Nat.mod_lt _ hL)
        have h2 : n - p = (n % L - p) + L * (n / L) := by omega
        rw [h2, Nat.add_mul_mod_self_left, Nat.mod_eq_of_lt hlt]
      rw [hmod]
      have e1 : min p (n % L + 1) = p := by omega
      have e2 : min (p + p) (n % L + 1) = p + min p (n % L - p + 1) := by omega
      rw [e1, e2, sum_range_add]
      congr 1
      refine sum_congr rfl fun x _ => ?_
      rw [Nat.sub_add_eq]
    · rw [if_neg h, add_zero]
      have e1 : min p (n % L + 1) = n % L + 1 := by omega
      have e2 : min (p + p) (n % L + 1) = n % L + 1 := by omega
      rw [e1, e2]

/-- A telescoping sum read backwards: if g c + Q c = Q (c + 1) up to n, the last k + 1 values of g
    up to n add Q (n - k) up to Q (n + 1). -/
theorem sum_back (g Q : ℕ → ℕ) (n : ℕ) (h : ∀ c, c ≤ n → g c + Q c = Q (c + 1)) (k : ℕ) (hk : k ≤ n) :
    (∑ d ∈ range (k + 1), g (n - d)) + Q (n - k) = Q (n + 1) := by
  induction k with
  | zero => simpa using h n le_rfl
  | succ k ih =>
    rw [sum_range_succ, add_assoc]
    have e : n - k = (n - (k + 1)) + 1 := by omega
    have := h (n - (k + 1)) (Nat.sub_le _ _)
    rw [this, ← e]
    exact ih (by omega)

/-- The sum of the first n values. -/
def pre (m : ℕ → ℕ) (n : ℕ) : ℕ := ∑ i ∈ range n, m i

/-- The ones of chunk ch, as the contraction with the chunk-membership matrix gives them. -/
def tot (m : ℕ → ℕ) (ch : ℕ) : ℕ := ∑ i ∈ range 4096, if i / 32 = ch then m i else 0

theorem tot_add_pre (m : ℕ → ℕ) (ch : ℕ) (hch : ch < 128) : tot m ch + pre m (32 * ch) = pre m (32 * (ch + 1)) := by
  unfold tot pre
  rw [← sum_filter]
  have hf : (range 4096).filter (fun i => i / 32 = ch) = Ico (32 * ch) (32 * (ch + 1)) := by
    ext i; simp only [mem_filter, mem_range, mem_Ico]; omega
  rw [hf, add_comm]
  exact sum_range_add_sum_Ico _ (by omega)

/-- The running count assembled the two-level way. -/
def full (m : ℕ → ℕ) (n : ℕ) : ℕ := scan 32 m 5 n + (scan 128 (tot m) 7 (n / 32) - tot m (n / 32))

theorem full_eq (m : ℕ → ℕ) (n : ℕ) (hn : n < 4096) : full m n = pre m (n + 1) := by
  unfold full
  have hc : scan 32 m 5 n + pre m (n - n % 32) = pre m (n + 1) := by
    rw [scan_eq 32 (by norm_num)]
    have e : min (2 ^ 5) (n % 32 + 1) = n % 32 + 1 := by norm_num; omega
    rw [e]
    exact sum_back m (pre m) n (fun c _ => by unfold pre; rw [sum_range_succ, add_comm]) (n % 32) (Nat.mod_le _ _)
  have hch : n / 32 < 128 := by omega
  have hp : scan 128 (tot m) 7 (n / 32) = pre m (32 * (n / 32 + 1)) := by
    rw [scan_eq 128 (by norm_num)]
    have e : min (2 ^ 7) (n / 32 % 128 + 1) = n / 32 + 1 := by norm_num; omega
    rw [e]
    have := sum_back (tot m) (fun c => pre m (32 * c)) (n / 32)
      (fun c hc => tot_add_pre m c (by omega)) (n / 32) le_rfl
    simpa [pre] using this
  have ht := tot_add_pre m (n / 32) hch
  have e32 : n - n % 32 = 32 * (n / 32) := by omega
  rw [e32] at hc
  omega

/-- The chunk totals' seven doubling steps as the program spells them (the step by 8 split into its addend and the sum). -/
theorem scan7_eq (g : ℕ → ℕ) :
    dstep 128 64 (dstep 128 32 (dstep 128 16 (fun c => dstep 128 4 (dstep 128 2 (dstep 128 1 g)) c
      + if 8 ≤ c % 128 then dstep 128 4 (dstep 128 2 (dstep 128 1 g)) (c - 8) else 0))) = scan 128 g 7 := rfl

/-- The mask of one row as naturals, on every lane number. -/
def maskNat (μ : Fin 4096 → Prop) [DecidablePred μ] (n : ℕ) : ℕ := if h : n < 4096 then (if μ ⟨n, h⟩ then 1 else 0) else 0

/-- The sum of the mask's first j + 1 values counts the ones up to lane j. -/
theorem pre_maskNat (μ : Fin 4096 → Prop) [DecidablePred μ] (j : Fin 4096) :
    pre (maskNat μ) (j.val + 1) = (univ.filter fun i : Fin 4096 => i.val ≤ j.val ∧ μ i).card := by
  have hj := j.isLt
  unfold pre
  rw [card_filter]
  have e1 : ∀ i : Fin 4096, (if i.val ≤ j.val ∧ μ i then 1 else 0) = (fun n => if n ≤ j.val then maskNat μ n else 0) i.val := by
    intro i
    show _ = if i.val ≤ j.val then (if h : i.val < 4096 then (if μ ⟨i.val, h⟩ then 1 else 0) else 0) else 0
    rw [dif_pos i.isLt]
    by_cases h1 : i.val ≤ j.val <;> by_cases h2 : μ i <;> simp [h1, h2]
  rw [sum_congr rfl (fun i _ => e1 i), Fin.sum_univ_eq_sum_range (fun n => if n ≤ j.val then maskNat μ n else 0) 4096, ← sum_filter]
  have hf : (range 4096).filter (fun n => n ≤ j.val) = range (j.val + 1) := by
    ext n; simp only [mem_filter, mem_range]; omega
  rw [hf]

/-! ## Words: the lane masks -/

/-- A signed "at least" of two words below 2^31 is the order of the naturals they hold. -/
theorem cmpi_sge_small (x y : BitVec 32) (hx : x.toNat < 2 ^ 31) (hy : y.toNat < 2 ^ 31) :
    IntOp.cmpi .sge x y = if y.toNat ≤ x.toNat then 1#1 else 0#1 := by
  have hxi : x.toInt = x.toNat := BitVec.toInt_eq_toNat_of_lt (by omega)
  have hyi : y.toInt = y.toNat := BitVec.toInt_eq_toNat_of_lt (by omega)
  show BitVec.ofBool (y.sle x) = _
  rw [BitVec.sle_eq_decide, hxi, hyi]
  by_cases h : y.toNat ≤ x.toNat
  · rw [if_pos h]; simp [h]
  · rw [if_neg h]; simp [h]

/-- The lane number within its chunk of 32: lane j and 31. -/
theorem pay10_apply (j : Fin 4096) : (k0_pay10 (ix2 (0 : Fin 1) j)).toNat = j.val % 32 := by
  show (BitVec.ofNat 32 (0 * 4096 + j.val) &&& 31#32).toNat = j.val % 32
  have hj := j.isLt
  rw [BitVec.toNat_and, BitVec.toNat_ofNat]
  have e : (31#32 : BitVec 32).toNat = 2 ^ 5 - 1 := by decide
  rw [e, Nat.and_two_pow_sub_one_eq_mod]
  omega

/-- The mask "the lane's place in its chunk is at least k". -/
theorem mask32_apply (k : ℕ) (hk : k < 2 ^ 31) (j : Fin 4096) :
    cmpi .sge k0_pay10 (broadcast S1x4096 (BitVec.ofNat 32 k)) (ix2 (0 : Fin 1) j) = if k ≤ j.val % 32 then 1#1 else 0#1 := by
  show IntOp.cmpi .sge (k0_pay10 (ix2 (0 : Fin 1) j)) (BitVec.ofNat 32 k) = _
  have hkk : (BitVec.ofNat 32 k).toNat = k := by rw [BitVec.toNat_ofNat]; omega
  rw [cmpi_sge_small _ _ (by rw [pay10_apply]; omega) (by rw [hkk]; exact hk), pay10_apply, hkk]

/-- The lane numbers of the 128 chunk totals. -/
theorem chunkLane_apply (ch : Fin 128) : ((iota .tc S1x128 32 [1] iota_S1x128_d1_w32) (ix2 (0 : Fin 1) ch)).toNat = ch.val := by
  show (BitVec.ofNat 32 (0 * 128 + ch.val)).toNat = ch.val
  have := ch.isLt
  rw [BitVec.toNat_ofNat]; omega

/-- The mask "chunk number is at least k". -/
theorem mask128_apply (k : ℕ) (hk : k < 2 ^ 31) (ch : Fin 128) :
    cmpi .sge (iota .tc S1x128 32 [1] iota_S1x128_d1_w32) (broadcast S1x128 (BitVec.ofNat 32 k)) (ix2 (0 : Fin 1) ch) = if k ≤ ch.val then 1#1 else 0#1 := by
  show IntOp.cmpi .sge ((iota .tc S1x128 32 [1] iota_S1x128_d1_w32) (ix2 (0 : Fin 1) ch)) (BitVec.ofNat 32 k) = _
  have hkk : (BitVec.ofNat 32 k).toNat = k := by rw [BitVec.toNat_ofNat]; omega
  have := ch.isLt
  rw [cmpi_sge_small _ _ (by rw [chunkLane_apply]; omega) (by rw [hkk]; exact hk), chunkLane_apply, hkk]

/-! ## The two float constants -/

theorem one_f32 : (Scalar.ofBits .f32 0x3F800000#32 : Ideal .f32) = (1 : EReal) := by
  show Ideal.ofBits .f32 0x3F800000#32 = 1
  simp [Ideal.ofBits, Ideal.ieee, -EReal.coe_mul]; norm_num

theorem zero_f32 : (Scalar.ofBits .f32 0x00000000#32 : Ideal .f32) = (0 : EReal) := Ideal.ofBits_zero_f32

/-! ## One doubling step read at an index -/

/-- The addend of a doubling step along the 4096 lanes in chunks of 32: the vector moved k lanes on, times the 0/1
    mask of the lanes whose place in the chunk is at least k. -/
theorem addendBig (c : FVec Ideal S512x4096 .bf16) (f : Fin 512 → ℕ → ℕ)
    (hc : ∀ (r : Fin 512) (j : Fin 4096), c (ix2 r j) = ((f r j.val : ℕ) : EReal))
    (cond : IVec S1x4096 1) (k : ℕ) (hk : k ≤ 32)
    (hcond : ∀ j : Fin 4096, cond (ix2 (0 : Fin 1) j) = if k ≤ j.val % 32 then 1#1 else 0#1)
    (hrot : S512x4096.Rotates 1 none) (hbc : S1x4096.Broadcasts S512x4096) (hlt : FTy.bits .bf16 < FTy.bits .f32)
    (r : Fin 512) (j : Fin 4096) :
    mulf (dynamicRotate 1 (BitVec.ofNat 32 k) none c hrot)
      (broadcastTo S512x4096 (truncf .bf16 (select cond (broadcast S1x4096 (Scalar.ofBits .f32 0x3F800000#32 : Ideal .f32))
        (broadcast S1x4096 (Scalar.ofBits .f32 0x00000000#32 : Ideal .f32))) hlt) hbc) (ix2 r j)
      = (((if k ≤ j.val % 32 then f r (j.val - k) else 0 : ℕ)) : EReal) := by
  have hj := j.isLt
  rw [mulf_apply]
  rw [broadcastTo_apply _ hbc (ix2 r j) (ix2 (0 : Fin 1) j) (fun a => match a with
    | ⟨0, _⟩ => by show 0 = if (1 : ℕ) = 1 then 0 else _; rw [if_pos rfl]
    | ⟨1, _⟩ => by show j.val = if (4096 : ℕ) = 1 then 0 else j.val; rw [if_neg (by decide)])]
  rw [truncf_apply, select_apply, hcond j]
  by_cases h : k ≤ j.val % 32
  · rw [if_pos h, if_pos h, select_one, broadcast_apply, one_f32, mul_one]
    have hkj : k ≤ j.val := h.trans (Nat.mod_le _ _)
    rw [dynamicRotate_apply (1 : Fin 2) _ c hrot (ix2 r j) (ix2 r ⟨j.val - k, by omega⟩) (fun b => match b with
      | ⟨0, _⟩ => rfl
      | ⟨1, _⟩ => by
        show j.val - k = (j.val + 4096 - (BitVec.ofNat 32 k).toNat % 4096) % 4096
        rw [BitVec.toNat_ofNat]; omega)]
    exact hc r ⟨j.val - k, by omega⟩
  · rw [if_neg h, if_neg h, select_zero, broadcast_apply, zero_f32, mul_zero, Nat.cast_zero]

/-- A doubling step along the 4096 lanes in chunks of 32. -/
theorem stepBig (c : FVec Ideal S512x4096 .bf16) (f : Fin 512 → ℕ → ℕ)
    (hc : ∀ (r : Fin 512) (j : Fin 4096), c (ix2 r j) = ((f r j.val : ℕ) : EReal))
    (cond : IVec S1x4096 1) (k : ℕ) (hk : k ≤ 32)
    (hcond : ∀ j : Fin 4096, cond (ix2 (0 : Fin 1) j) = if k ≤ j.val % 32 then 1#1 else 0#1)
    (hrot : S512x4096.Rotates 1 none) (hbc : S1x4096.Broadcasts S512x4096) (hlt : FTy.bits .bf16 < FTy.bits .f32)
    (r : Fin 512) (j : Fin 4096) :
    addf c (mulf (dynamicRotate 1 (BitVec.ofNat 32 k) none c hrot)
      (broadcastTo S512x4096 (truncf .bf16 (select cond (broadcast S1x4096 (Scalar.ofBits .f32 0x3F800000#32 : Ideal .f32))
        (broadcast S1x4096 (Scalar.ofBits .f32 0x00000000#32 : Ideal .f32))) hlt) hbc)) (ix2 r j)
      = ((dstep 32 k (f r) j.val : ℕ) : EReal) := by
  rw [addf_apply, addendBig c f hc cond k hk hcond hrot hbc hlt r j, hc r j, ← Nat.cast_add]
  rfl

/-- The addend of a doubling step along the 128 chunk totals. -/
theorem addendSmall (c : FVec Ideal S512x128 .f32) (f : Fin 512 → ℕ → ℕ)
    (hc : ∀ (r : Fin 512) (ch : Fin 128), c (ix2 r ch) = ((f r ch.val : ℕ) : EReal))
    (k : ℕ) (hk : k ≤ 128)
    (hrot : S512x128.Rotates 1 none) (hbc : S1x128.Broadcasts S512x128)
    (r : Fin 512) (ch : Fin 128) :
    mulf (dynamicRotate 1 (BitVec.ofNat 32 k) none c hrot)
      (broadcastTo S512x128 (select (cmpi .sge (iota .tc S1x128 32 [1] iota_S1x128_d1_w32) (broadcast S1x128 (BitVec.ofNat 32 k)))
        (broadcast S1x128 (Scalar.ofBits .f32 0x3F800000#32 : Ideal .f32))
        (broadcast S1x128 (Scalar.ofBits .f32 0x00000000#32 : Ideal .f32))) hbc) (ix2 r ch)
      = (((if k ≤ ch.val % 128 then f r (ch.val - k) else 0 : ℕ)) : EReal) := by
  have hch := ch.isLt
  have hmod : ch.val % 128 = ch.val := Nat.mod_eq_of_lt hch
  rw [mulf_apply]
  rw [broadcastTo_apply _ hbc (ix2 r ch) (ix2 (0 : Fin 1) ch) (fun a => match a with
    | ⟨0, _⟩ => by show 0 = if (1 : ℕ) = 1 then 0 else _; rw [if_pos rfl]
    | ⟨1, _⟩ => by show ch.val = if (128 : ℕ) = 1 then 0 else ch.val; rw [if_neg (by decide)])]
  rw [select_apply, mask128_apply k (by omega) ch, hmod]
  by_cases h : k ≤ ch.val
  · rw [if_pos h, if_pos h, select_one, broadcast_apply, one_f32, mul_one]
    rw [dynamicRotate_apply (1 : Fin 2) _ c hrot (ix2 r ch) (ix2 r ⟨ch.val - k, by omega⟩) (fun b => match b with
      | ⟨0, _⟩ => rfl
      | ⟨1, _⟩ => by
        show ch.val - k = (ch.val + 128 - (BitVec.ofNat 32 k).toNat % 128) % 128
        rw [BitVec.toNat_ofNat]; omega)]
    exact hc r ⟨ch.val - k, by omega⟩
  · rw [if_neg h, if_neg h, select_zero, broadcast_apply, zero_f32, mul_zero, Nat.cast_zero]

/-- A doubling step along the 128 chunk totals. -/
theorem stepSmall (c : FVec Ideal S512x128 .f32) (f : Fin 512 → ℕ → ℕ)
    (hc : ∀ (r : Fin 512) (ch : Fin 128), c (ix2 r ch) = ((f r ch.val : ℕ) : EReal))
    (k : ℕ) (hk : k ≤ 128)
    (hrot : S512x128.Rotates 1 none) (hbc : S1x128.Broadcasts S512x128)
    (r : Fin 512) (ch : Fin 128) :
    addf c (mulf (dynamicRotate 1 (BitVec.ofNat 32 k) none c hrot)
      (broadcastTo S512x128 (select (cmpi .sge (iota .tc S1x128 32 [1] iota_S1x128_d1_w32) (broadcast S1x128 (BitVec.ofNat 32 k)))
        (broadcast S1x128 (Scalar.ofBits .f32 0x3F800000#32 : Ideal .f32))
        (broadcast S1x128 (Scalar.ofBits .f32 0x00000000#32 : Ideal .f32))) hbc)) (ix2 r ch)
      = ((dstep 128 k (f r) ch.val : ℕ) : EReal) := by
  rw [addf_apply, addendSmall c f hc k hk hrot hbc r ch, hc r ch, ← Nat.cast_add]
  rfl

/-! ## The two contractions with the chunk-membership matrices -/

local notation "D1" => dot_S512x4096_S4096x128_S512x128_1_0_0_1_n_n
local notation "D2" => dot_S512x128_S128x4096_S512x4096_1_0_0_1_n_n

theorem D1_lhs0 (j : S512x128.Idx) (q : (DotDims.contr D1).Idx) : (DotDims.lhsIdx D1 j q 0).val = (j 0).val := by
  unfold DotDims.lhsIdx
  rw [dif_neg (show ¬(0 : Fin S512x4096.rank) ∈ DotDims.lhsBatch D1 by decide),
    dif_pos (show (0 : Fin S512x4096.rank) ∈ DotDims.lhsNonContracting D1 by decide)]
  rfl
theorem D1_lhs1 (j : S512x128.Idx) (q : (DotDims.contr D1).Idx) : (DotDims.lhsIdx D1 j q 1).val = (q ⟨0, by decide⟩).val :=
  DotDims.lhsIdx_val_of_single D1 rfl j q
theorem D1_rhs0 (j : S512x128.Idx) (q : (DotDims.contr D1).Idx) : (DotDims.rhsIdx D1 j q 0).val = (q ⟨0, by decide⟩).val :=
  DotDims.rhsIdx_val_of_single D1 rfl j q
theorem D1_rhs1 (j : S512x128.Idx) (q : (DotDims.contr D1).Idx) : (DotDims.rhsIdx D1 j q 1).val = (j 1).val := by
  unfold DotDims.rhsIdx
  rw [dif_neg (show ¬(1 : Fin S4096x128.rank) ∈ DotDims.rhsBatch D1 by decide),
    dif_pos (show (1 : Fin S4096x128.rank) ∈ DotDims.rhsNonContracting D1 by decide)]
  rfl

theorem D2_lhs0 (j : S512x4096.Idx) (q : (DotDims.contr D2).Idx) : (DotDims.lhsIdx D2 j q 0).val = (j 0).val := by
  unfold DotDims.lhsIdx
  rw [dif_neg (show ¬(0 : Fin S512x128.rank) ∈ DotDims.lhsBatch D2 by decide),
    dif_pos (show (0 : Fin S512x128.rank) ∈ DotDims.lhsNonContracting D2 by decide)]
  rfl
theorem D2_lhs1 (j : S512x4096.Idx) (q : (DotDims.contr D2).Idx) : (DotDims.lhsIdx D2 j q 1).val = (q ⟨0, by decide⟩).val :=
  DotDims.lhsIdx_val_of_single D2 rfl j q
theorem D2_rhs0 (j : S512x4096.Idx) (q : (DotDims.contr D2).Idx) : (DotDims.rhsIdx D2 j q 0).val = (q ⟨0, by decide⟩).val :=
  DotDims.rhsIdx_val_of_single D2 rfl j q
theorem D2_rhs1 (j : S512x4096.Idx) (q : (DotDims.contr D2).Idx) : (DotDims.rhsIdx D2 j q 1).val = (j 1).val := by
  unfold DotDims.rhsIdx
  rw [dif_neg (show ¬(1 : Fin S128x4096.rank) ∈ DotDims.rhsBatch D2 by decide),
    dif_pos (show (1 : Fin S128x4096.rank) ∈ DotDims.rhsNonContracting D2 by decide)]
  rfl

/-- The contraction over the 4096 lanes, read at (r, ch). -/
theorem totMatmul_apply (A : FVec Ideal S512x4096 .bf16) (B : FVec Ideal S4096x128 .bf16) (r : Fin 512) (ch : Fin 128) :
    matmul D1 none A B (constant S512x128 .f32 0x00000000#32) (ix2 r ch) = ∑ i : Fin 4096, A (ix2 r i) * B (ix2 i ch) := by
  show FloatOps.matmul D1 none A B (constant S512x128 .f32 0x00000000#32) (ix2 r ch) = _
  rw [Ideal.matmul_constant_zero_apply, ← Equiv.sum_comp (contrEquiv1 D1 4096 rfl rfl).symm]
  refine Finset.sum_congr rfl fun i _ => ?_
  have hk := contrEquiv1_symm_val D1 4096 rfl rfl i
  have el : DotDims.lhsIdx D1 (ix2 r ch) ((contrEquiv1 D1 4096 rfl rfl).symm i) = ix2 r i :=
    funext fun a => Fin.ext (by
      match a with
      | ⟨0, _⟩ => exact D1_lhs0 _ _
      | ⟨1, _⟩ => exact (D1_lhs1 _ _).trans hk)
  have er : DotDims.rhsIdx D1 (ix2 r ch) ((contrEquiv1 D1 4096 rfl rfl).symm i) = ix2 i ch :=
    funext fun a => Fin.ext (by
      match a with
      | ⟨0, _⟩ => exact (D1_rhs0 _ _).trans hk
      | ⟨1, _⟩ => exact D1_rhs1 _ _)
  rw [el, er]

/-- The contraction over the 128 chunks, read at (r, j). -/
theorem spreadMatmul_apply (A : FVec Ideal S512x128 .f32) (B : FVec Ideal S128x4096 .f32) (r : Fin 512) (j : Fin 4096) :
    matmul D2 none A B (constant S512x4096 .f32 0x00000000#32) (ix2 r j) = ∑ ch : Fin 128, A (ix2 r ch) * B (ix2 ch j) := by
  show FloatOps.matmul D2 none A B (constant S512x4096 .f32 0x00000000#32) (ix2 r j) = _
  rw [Ideal.matmul_constant_zero_apply, ← Equiv.sum_comp (contrEquiv1 D2 128 rfl rfl).symm]
  refine Finset.sum_congr rfl fun i _ => ?_
  have hk := contrEquiv1_symm_val D2 128 rfl rfl i
  have el : DotDims.lhsIdx D2 (ix2 r j) ((contrEquiv1 D2 128 rfl rfl).symm i) = ix2 r i :=
    funext fun a => Fin.ext (by
      match a with
      | ⟨0, _⟩ => exact D2_lhs0 _ _
      | ⟨1, _⟩ => exact (D2_lhs1 _ _).trans hk)
  have er : DotDims.rhsIdx D2 (ix2 r j) ((contrEquiv1 D2 128 rfl rfl).symm i) = ix2 i j :=
    funext fun a => Fin.ext (by
      match a with
      | ⟨0, _⟩ => exact (D2_rhs0 _ _).trans hk
      | ⟨1, _⟩ => exact D2_rhs1 _ _)
  rw [el, er]

/-- A difference of two naturals, the smaller taken away, read in the extended reals. -/
theorem natCast_sub_natCast (a b : ℕ) (h : b ≤ a) : ((a : ℕ) : EReal) - ((b : ℕ) : EReal) = ((a - b : ℕ) : EReal) := by
  rw [← EReal.coe_coe_eq_natCast a, ← EReal.coe_coe_eq_natCast b, ← EReal.coe_coe_eq_natCast (a - b), ← EReal.coe_sub,
    Nat.cast_sub h]

/-! ## The payloads, read at an index -/

section Payloads

variable (v11 : FVec Ideal S4096x128 .bf16) (v13 : FVec Ideal S128x4096 .f32) (v26 : FVec Ideal S512x4096 .bf16)
  (f : Fin 512 → ℕ → ℕ)

/-- The in-chunk count after the doubling steps by 1, 2, 4 and 8. -/
theorem pay12_apply (h26 : ∀ (r : Fin 512) (j : Fin 4096), v26 (ix2 r j) = ((f r j.val : ℕ) : EReal)) (r : Fin 512) (j : Fin 4096) :
    k0_pay12 v26 k0_pay10 k0_pay11 (Scalar.ofBits .f32 0x3F800000#32) (ix2 r j)
      = ((dstep 32 8 (dstep 32 4 (dstep 32 2 (dstep 32 1 (f r)))) j.val : ℕ) : EReal) := by
  have s1 := stepBig v26 f h26 k0_pay11 1 (by norm_num) (fun j => mask32_apply 1 (by norm_num) j)
    rotates_S512x4096_d1 broadcasts_S1x4096_S512x4096 bitsLt_bf16_f32
  have s2 := stepBig _ (fun r => dstep 32 1 (f r)) s1 (cmpi .sge k0_pay10 (broadcast S1x4096 2#32)) 2 (by norm_num)
    (fun j => mask32_apply 2 (by norm_num) j) rotates_S512x4096_d1 broadcasts_S1x4096_S512x4096 bitsLt_bf16_f32
  have s3 := stepBig _ (fun r => dstep 32 2 (dstep 32 1 (f r))) s2 (cmpi .sge k0_pay10 (broadcast S1x4096 4#32)) 4 (by norm_num)
    (fun j => mask32_apply 4 (by norm_num) j) rotates_S512x4096_d1 broadcasts_S1x4096_S512x4096 bitsLt_bf16_f32
  have s4 := stepBig _ (fun r => dstep 32 4 (dstep 32 2 (dstep 32 1 (f r)))) s3 (cmpi .sge k0_pay10 (broadcast S1x4096 8#32)) 8 (by norm_num)
    (fun j => mask32_apply 8 (by norm_num) j) rotates_S512x4096_d1 broadcasts_S1x4096_S512x4096 bitsLt_bf16_f32
  exact s4 r j

/-- The in-chunk count: five doubling steps within chunks of 32 lanes. -/
theorem inChunk_apply (h26 : ∀ (r : Fin 512) (j : Fin 4096), v26 (ix2 r j) = ((f r j.val : ℕ) : EReal)) (r : Fin 512) (j : Fin 4096) :
    inChunk v26 (ix2 r j) = ((scan 32 (f r) 5 j.val : ℕ) : EReal) :=
  stepBig _ (fun r => dstep 32 8 (dstep 32 4 (dstep 32 2 (dstep 32 1 (f r))))) (pay12_apply v26 f h26)
    (cmpi .sge k0_pay10 (broadcast S1x4096 16#32)) 16 (by norm_num) (fun j => mask32_apply 16 (by norm_num) j)
    rotates_S512x4096_d1 broadcasts_S1x4096_S512x4096 bitsLt_bf16_f32 r j

/-- The chunk totals. -/
theorem pay15_apply (h26 : ∀ (r : Fin 512) (j : Fin 4096), v26 (ix2 r j) = ((f r j.val : ℕ) : EReal))
    (h11 : ∀ (j : Fin 4096) (ch : Fin 128), v11 (ix2 j ch) = if j.val / 32 = ch.val then (1 : EReal) else 0)
    (r : Fin 512) (ch : Fin 128) :
    k0_pay15 v11 v26 (ix2 r ch) = ((tot (f r) ch.val : ℕ) : EReal) := by
  refine (totMatmul_apply v26 v11 r ch).trans ?_
  unfold tot
  rw [Nat.cast_sum, ← Fin.sum_univ_eq_sum_range (fun i => (((if i / 32 = ch.val then f r i else 0 : ℕ)) : EReal)) 4096]
  refine Finset.sum_congr rfl fun i _ => ?_
  rw [h26 r i, h11 i ch]
  by_cases h : i.val / 32 = ch.val
  · rw [if_pos h, if_pos h, mul_one]
  · rw [if_neg h, if_neg h, mul_zero, Nat.cast_zero]

/-- The chunk totals after the doubling steps by 1, 2 and 4. -/
theorem pay16_apply (h26 : ∀ (r : Fin 512) (j : Fin 4096), v26 (ix2 r j) = ((f r j.val : ℕ) : EReal))
    (h11 : ∀ (j : Fin 4096) (ch : Fin 128), v11 (ix2 j ch) = if j.val / 32 = ch.val then (1 : EReal) else 0)
    (r : Fin 512) (ch : Fin 128) :
    k0_pay16 v11 v26 (ix2 r ch) = ((dstep 128 4 (dstep 128 2 (dstep 128 1 (tot (f r)))) ch.val : ℕ) : EReal) := by
  have s1 := stepSmall (k0_pay15 v11 v26) (fun r => tot (f r)) (pay15_apply v11 v26 f h26 h11) 1 (by norm_num)
    rotates_S512x128_d1 broadcasts_S1x128_S512x128
  have s2 := stepSmall _ (fun r => dstep 128 1 (tot (f r))) s1 2 (by norm_num) rotates_S512x128_d1 broadcasts_S1x128_S512x128
  have s3 := stepSmall _ (fun r => dstep 128 2 (dstep 128 1 (tot (f r)))) s2 4 (by norm_num) rotates_S512x128_d1 broadcasts_S1x128_S512x128
  exact s3 r ch

/-- The addend of the chunk totals' doubling step by 8. -/
theorem pay17_apply (h26 : ∀ (r : Fin 512) (j : Fin 4096), v26 (ix2 r j) = ((f r j.val : ℕ) : EReal))
    (h11 : ∀ (j : Fin 4096) (ch : Fin 128), v11 (ix2 j ch) = if j.val / 32 = ch.val then (1 : EReal) else 0)
    (r : Fin 512) (ch : Fin 128) :
    k0_pay17 v11 v26 (ix2 r ch)
      = (((if 8 ≤ ch.val % 128 then dstep 128 4 (dstep 128 2 (dstep 128 1 (tot (f r)))) (ch.val - 8) else 0 : ℕ)) : EReal) :=
  addendSmall (k0_pay16 v11 v26) (fun r => dstep 128 4 (dstep 128 2 (dstep 128 1 (tot (f r))))) (pay16_apply v11 v26 f h26 h11) 8 (by norm_num)
    rotates_S512x128_d1 broadcasts_S1x128_S512x128 r ch

end Payloads

/-! ## The running count -/

/-- The running count from its parts: the in-chunk count, plus the chunk totals' inclusive prefix less the chunk's own
    total at the lane's chunk. -/
theorem runCount_apply (v13 : FVec Ideal S128x4096 .f32) (v79 : FVec Ideal S512x4096 .bf16) (v80 v108 v116 : FVec Ideal S512x128 .f32)
    (f79 f80 g108 g116 : Fin 512 → ℕ → ℕ)
    (h79 : ∀ (r : Fin 512) (j : Fin 4096), v79 (ix2 r j) = ((f79 r j.val : ℕ) : EReal))
    (h80 : ∀ (r : Fin 512) (ch : Fin 128), v80 (ix2 r ch) = ((f80 r ch.val : ℕ) : EReal))
    (h108 : ∀ (r : Fin 512) (ch : Fin 128), v108 (ix2 r ch) = ((g108 r ch.val : ℕ) : EReal))
    (h116 : ∀ (r : Fin 512) (ch : Fin 128), v116 (ix2 r ch) = ((g116 r ch.val : ℕ) : EReal))
    (hle : ∀ (r : Fin 512) (c : ℕ), f80 r c ≤ g108 r c)
    (h13 : ∀ (ch : Fin 128) (j : Fin 4096), v13 (ix2 ch j) = if j.val / 32 = ch.val then (1 : EReal) else 0)
    (r : Fin 512) (j : Fin 4096) :
    runCount v13 v79 v80 chunkLane v108 v116 (ix2 r j)
      = ((f79 r j.val + (dstep 128 64 (dstep 128 32 (dstep 128 16 (fun c => g108 r c + g116 r c))) (j.val / 32)
          - f80 r (j.val / 32)) : ℕ) : EReal) := by
  have s117 : ∀ (r : Fin 512) (ch : Fin 128), addf v108 v116 (ix2 r ch) = ((g108 r ch.val + g116 r ch.val : ℕ) : EReal) := by
    intro r ch; rw [addf_apply, h108, h116, ← Nat.cast_add]
  have s126 := stepSmall _ (fun r c => g108 r c + g116 r c) s117 16 (by norm_num) rotates_S512x128_d1 broadcasts_S1x128_S512x128
  have s135 := stepSmall _ (fun r => dstep 128 16 (fun c => g108 r c + g116 r c)) s126 32 (by norm_num)
    rotates_S512x128_d1 broadcasts_S1x128_S512x128
  have s144 := stepSmall _ (fun r => dstep 128 32 (dstep 128 16 (fun c => g108 r c + g116 r c))) s135 64 (by norm_num)
    rotates_S512x128_d1 broadcasts_S1x128_S512x128
  have hx : ∀ (r : Fin 512) (c : ℕ), f80 r c ≤ dstep 128 64 (dstep 128 32 (dstep 128 16 (fun c => g108 r c + g116 r c))) c :=
    fun r c => le_trans (hle r c) (le_trans (Nat.le_add_right (g108 r c) (g116 r c))
      (le_trans (le_dstep 128 16 (fun c => g108 r c + g116 r c) c) (le_trans (le_dstep 128 32 _ c) (le_dstep 128 64 _ c))))
  have tail : ∀ (X : FVec Ideal S512x128 .f32) (x : Fin 512 → ℕ → ℕ),
      (∀ (r : Fin 512) (ch : Fin 128), X (ix2 r ch) = ((x r ch.val : ℕ) : EReal)) → (∀ (r : Fin 512) (c : ℕ), f80 r c ≤ x r c) →
      addf v79 (truncf .bf16 (matmul dot_S512x128_S128x4096_S512x4096_1_0_0_1_n_n none (subf X v80) v13
        (constant S512x4096 .f32 0x00000000#32)) bitsLt_bf16_f32) (ix2 r j)
        = ((f79 r j.val + (x r (j.val / 32) - f80 r (j.val / 32)) : ℕ) : EReal) := by
    intro X x hX hx
    have hj := j.isLt
    rw [addf_apply, truncf_apply, spreadMatmul_apply, h79 r j, Nat.cast_add]
    congr 1
    rw [Finset.sum_eq_single (⟨j.val / 32, by omega⟩ : Fin 128)]
    · rw [subf_apply, hX, h80, h13, if_pos rfl, mul_one, natCast_sub_natCast _ _ (hx r _)]
    · intro ch _ hne
      rw [h13, if_neg (fun h => hne (Fin.ext h.symm)), mul_zero]
    · intro h; exact absurd (Finset.mem_univ _) h
  exact tail _ (fun r => dstep 128 64 (dstep 128 32 (dstep 128 16 (fun c => g108 r c + g116 r c)))) s144 hx

/-- THE RUNNING COUNT: at lane j of row r it is the number of ones of the row's mask up to and including lane j. -/
theorem countOf_apply (v11 : FVec Ideal S4096x128 .bf16) (v13 : FVec Ideal S128x4096 .f32) (v26 : FVec Ideal S512x4096 .bf16)
    (μ : Fin 512 → Fin 4096 → Prop) [∀ r j, Decidable (μ r j)]
    (h26 : ∀ (r : Fin 512) (j : Fin 4096), v26 (ix2 r j) = if μ r j then (1 : EReal) else 0)
    (h11 : ∀ (j : Fin 4096) (ch : Fin 128), v11 (ix2 j ch) = if j.val / 32 = ch.val then (1 : EReal) else 0)
    (h13 : ∀ (ch : Fin 128) (j : Fin 4096), v13 (ix2 ch j) = if j.val / 32 = ch.val then (1 : EReal) else 0)
    (r : Fin 512) (j : Fin 4096) :
    countOf (F := Ideal) v11 v13 v26 (ix2 r j)
      = (((Finset.univ.filter fun i : Fin 4096 => i.val ≤ j.val ∧ μ r i).card : ℕ) : EReal) := by
  have hf : ∀ (r : Fin 512) (j : Fin 4096), v26 (ix2 r j) = ((maskNat (μ r) j.val : ℕ) : EReal) := by
    intro r j
    rw [h26 r j]
    show _ = (((if h : j.val < 4096 then (if μ r ⟨j.val, h⟩ then 1 else 0) else 0 : ℕ)) : EReal)
    rw [dif_pos j.isLt]
    by_cases hm : μ r j
    · rw [if_pos hm, if_pos hm, Nat.cast_one]
    · rw [if_neg hm, if_neg hm, Nat.cast_zero]
  have h := runCount_apply v13 (inChunk v26) (k0_pay15 v11 v26) (k0_pay16 v11 v26) (k0_pay17 v11 v26)
    (fun r => scan 32 (maskNat (μ r)) 5) (fun r => tot (maskNat (μ r)))
    (fun r => dstep 128 4 (dstep 128 2 (dstep 128 1 (tot (maskNat (μ r))))))
    (fun r c => if 8 ≤ c % 128 then dstep 128 4 (dstep 128 2 (dstep 128 1 (tot (maskNat (μ r))))) (c - 8) else 0)
    (inChunk_apply v26 (fun r => maskNat (μ r)) hf) (pay15_apply v11 v26 (fun r => maskNat (μ r)) hf h11)
    (pay16_apply v11 v26 (fun r => maskNat (μ r)) hf h11) (pay17_apply v11 v26 (fun r => maskNat (μ r)) hf h11)
    (fun r c => le_trans (le_dstep 128 1 _ c) (le_trans (le_dstep 128 2 _ c) (le_dstep 128 4 _ c))) h13 r j
  refine h.trans ?_
  show (((scan 32 (maskNat (μ r)) 5 j.val + ((dstep 128 64 (dstep 128 32 (dstep 128 16 (fun c =>
      dstep 128 4 (dstep 128 2 (dstep 128 1 (tot (maskNat (μ r))))) c
        + if 8 ≤ c % 128 then dstep 128 4 (dstep 128 2 (dstep 128 1 (tot (maskNat (μ r))))) (c - 8) else 0)))) (j.val / 32)
      - tot (maskNat (μ r)) (j.val / 32)) : ℕ)) : EReal) = _
  rw [scan7_eq, show scan 32 (maskNat (μ r)) 5 j.val + (scan 128 (tot (maskNat (μ r))) 7 (j.val / 32) - tot (maskNat (μ r)) (j.val / 32))
    = full (maskNat (μ r)) j.val from rfl, full_eq _ _ j.isLt, pre_maskNat]

end Cert.KernelIdeal.KCount

end
-- ==== Proof.KInputs.lean ====
/-
# The kernel's first five input blocks at a grid point

The program's host operations build five arrays from its two arguments (the query points and the candidate
points, each of shape [16, 4096, 3]): the query points with their squared norm as a fourth column; the constant
pattern `0xC0000000` times the transposed candidate points; the candidates' squared norms as a row; each
batch's last candidate; the candidates with a fourth column of ones. The region reads them through windows
whose block at grid point `t = 8 b + sb` is, for the first, rows `512 sb … 512 sb + 511` of batch `b`, and for
the others all of batch `b`. This module states what each block holds at an index as a function of the two
arguments, at the ideal values.
-/
import proofs.«123924_g12506944766668_retrytranche2_29_15_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.KInputs

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ)

/-! ## Where each window's block sits in its array

The printed index maps, decided once over the 128 grid points. A block's element sits in the array, on
each axis, at the block index times the block's size plus the coordinate inside the block. -/

/-- The block index of each of the first five windows at point `t`: `(t / 8, t % 8, 0)` for window 0 and
    `(t / 8, 0, 0)` for windows 1 to 4. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0) :=
  (by decide +kernel : ∀ t : Fin grid0.N, _)

/-- Window 0's block at point `t` is rows `512 (t % 8) … 512 (t % 8) + 511` of batch `t / 8` of its array. -/
theorem iblk0_read (c : Dev nD) (t : Fin cfg0.N) (b : Fin 16) (sb : Fin 8) (hb : b.val = t.val / 8) (hs : sb.val = t.val % 8)
    (r : Fin 512) (k : Fin 4) :
    (iblk m c 0 t : S1x512x4.Idx → EReal) (ix3 (0 : Fin 1) r k)
      = (V m c main_call0_v3 : S16x4096x4.Idx → EReal) (ix3 b (⟨512 * sb.val + r.val, by omega⟩ : Fin 4096) k) := by
  obtain ⟨⟨e0, e1, e2⟩, -⟩ := idx_facts t
  unfold iblk
  rw [View.read_apply]
  show V m c main_call0_v3 _ = V m c main_call0_v3 _
  refine congrArg _ (funext fun a => Fin.ext ?_)
  match a with
  | ⟨0, _⟩ => show win0_0.index t (0 : Fin 3) * 1 + 1 * (0 : Fin 1).val = b.val; rw [e0, hb]; simp
  | ⟨1, _⟩ => show win0_0.index t (1 : Fin 3) * 512 + 1 * r.val = 512 * sb.val + r.val; rw [e1, hs]; omega
  | ⟨2, _⟩ => show win0_0.index t (2 : Fin 3) * 4 + 1 * k.val = k.val; rw [e2]; omega

/-- Window 1's block at point `t` is batch `t / 8` of its array. -/
theorem iblk1_read (c : Dev nD) (t : Fin cfg0.N) (b : Fin 16) (hb : b.val = t.val / 8) (k : Fin 3) (j : Fin 4096) :
    (iblk m c 1 t : S1x3x4096.Idx → EReal) (ix3 (0 : Fin 1) k j)
      = (V m c main_call0_v6 : S16x3x4096.Idx → EReal) (ix3 b k j) := by
  obtain ⟨-, ⟨e0, e1, e2⟩, -⟩ := idx_facts t
  unfold iblk
  rw [View.read_apply]
  show V m c main_call0_v6 _ = V m c main_call0_v6 _
  refine congrArg _ (funext fun a => Fin.ext ?_)
  match a with
  | ⟨0, _⟩ => show win0_1.index t (0 : Fin 3) * 1 + 1 * (0 : Fin 1).val = b.val; rw [e0, hb]; simp
  | ⟨1, _⟩ => show win0_1.index t (1 : Fin 3) * 3 + 1 * k.val = k.val; rw [e1]; omega
  | ⟨2, _⟩ => show win0_1.index t (2 : Fin 3) * 4096 + 1 * j.val = j.val; rw [e2]; omega

/-- Window 2's block at point `t` is batch `t / 8` of its array. -/
theorem iblk2_read (c : Dev nD) (t : Fin cfg0.N) (b : Fin 16) (hb : b.val = t.val / 8) (j : Fin 4096) :
    (iblk m c 2 t : S1x1x4096.Idx → EReal) (ix3 (0 : Fin 1) (0 : Fin 1) j)
      = (V m c main_call0_v9 : S16x1x4096.Idx → EReal) (ix3 b (0 : Fin 1) j) := by
  obtain ⟨-, -, ⟨e0, e1, e2⟩, -⟩ := idx_facts t
  unfold iblk
  rw [View.read_apply]
  show V m c main_call0_v9 _ = V m c main_call0_v9 _
  refine congrArg _ (funext fun a => Fin.ext ?_)
  match a with
  | ⟨0, _⟩ => show win0_2.index t (0 : Fin 3) * 1 + 1 * (0 : Fin 1).val = b.val; rw [e0, hb]; simp
  | ⟨1, _⟩ => show win0_2.index t (1 : Fin 3) * 1 + 1 * (0 : Fin 1).val = (0 : Fin 1).val; rw [e1]; simp
  | ⟨2, _⟩ => show win0_2.index t (2 : Fin 3) * 4096 + 1 * j.val = j.val; rw [e2]; omega

/-- Window 3's block at point `t` is batch `t / 8` of its array. -/
theorem iblk3_read (c : Dev nD) (t : Fin cfg0.N) (b : Fin 16) (hb : b.val = t.val / 8) (k : Fin 3) :
    (iblk m c 3 t : S1x1x3.Idx → EReal) (ix3 (0 : Fin 1) (0 : Fin 1) k)
      = (V m c main_call0_v10 : S16x1x3.Idx → EReal) (ix3 b (0 : Fin 1) k) := by
  obtain ⟨-, -, -, ⟨e0, e1, e2⟩, -⟩ := idx_facts t
  unfold iblk
  rw [View.read_apply]
  show V m c main_call0_v10 _ = V m c main_call0_v10 _
  refine congrArg _ (funext fun a => Fin.ext ?_)
  match a with
  | ⟨0, _⟩ => show win0_3.index t (0 : Fin 3) * 1 + 1 * (0 : Fin 1).val = b.val; rw [e0, hb]; simp
  | ⟨1, _⟩ => show win0_3.index t (1 : Fin 3) * 1 + 1 * (0 : Fin 1).val = (0 : Fin 1).val; rw [e1]; simp
  | ⟨2, _⟩ => show win0_3.index t (2 : Fin 3) * 3 + 1 * k.val = k.val; rw [e2]; omega

/-- Window 4's block at point `t` is batch `t / 8` of its array. -/
theorem iblk4_read (c : Dev nD) (t : Fin cfg0.N) (b : Fin 16) (hb : b.val = t.val / 8) (j : Fin 4096) (k : Fin 4) :
    (iblk m c 4 t : S1x4096x4.Idx → EReal) (ix3 (0 : Fin 1) j k)
      = (V m c main_call0_v12 : S16x4096x4.Idx → EReal) (ix3 b j k) := by
  obtain ⟨-, -, -, -, ⟨e0, e1, e2⟩⟩ := idx_facts t
  unfold iblk
  rw [View.read_apply]
  show V m c main_call0_v12 _ = V m c main_call0_v12 _
  refine congrArg _ (funext fun a => Fin.ext ?_)
  match a with
  | ⟨0, _⟩ => show win0_4.index t (0 : Fin 3) * 1 + 1 * (0 : Fin 1).val = b.val; rw [e0, hb]; simp
  | ⟨1, _⟩ => show win0_4.index t (1 : Fin 3) * 4096 + 1 * j.val = j.val; rw [e1]; omega
  | ⟨2, _⟩ => show win0_4.index t (2 : Fin 3) * 4 + 1 * k.val = k.val; rw [e2]; omega

/-! ## The arrays the host operations leave, as functions of the two arguments -/

/-- The host's sum of squares along the last axis of a [16, 4096, 3] array, from the zero pattern. -/
def sqsumLast (x : S16x4096x3.Idx → EReal) : S16x4096.Idx → EReal :=
  Host.reduceAdd (F := Ideal) (mulf (F := Ideal) (φ := .f32) x x) (constant (F := Ideal) S_ .f32 0x00000000#32)
    reducesTo_S16x4096x3_S16x4096_d2 h_S_

/-- The host's sum of squares along the middle axis of a [16, 3, 4096] array, from the zero pattern. -/
def sqsumMid (y : S16x3x4096.Idx → EReal) : S16x4096.Idx → EReal :=
  Host.reduceAdd (F := Ideal) (mulf (F := Ideal) (φ := .f32) y y) (constant (F := Ideal) S_ .f32 0x00000000#32)
    reducesTo_S16x3x4096_S16x4096_d1 h_S_

/-- The transpose of the last two axes. -/
def tr (x1 : S16x4096x3.Idx → EReal) : S16x3x4096.Idx → EReal :=
  transpose S16x3x4096 [0, 2, 1] x1 transposes_S16x4096x3_S16x3x4096_0_2_1

/-- Window 0's array: the points with their squared norm as a fourth column. -/
def p1a (x0 : S16x4096x3.Idx → EReal) : S16x4096x4.Idx → EReal :=
  concatenate S16x4096x4 2 [⟨S16x4096x3, x0⟩,
    ⟨S16x4096x1, broadcastInDim S16x4096x1 ![0, 1] bcast_S16x4096_S16x4096x1_0_1 (sqsumLast x0)⟩]
    concatenates_S16x4096x3_S16x4096x1_S16x4096x4_d2

/-- Window 1's array: the constant pattern `0xC0000000` times the transposed points. -/
def p2a (x1 : S16x4096x3.Idx → EReal) : S16x3x4096.Idx → EReal :=
  mulf (F := Ideal) (φ := .f32) (broadcastInDim S16x3x4096 ![] bcast_S_S16x3x4096 (constant (F := Ideal) S_ .f32 0xC0000000#32)) (tr x1)

/-- Window 2's array: the squared norms of the transposed points, as a row. -/
def bsq (x1 : S16x4096x3.Idx → EReal) : S16x1x4096.Idx → EReal :=
  broadcastInDim S16x1x4096 ![0, 2] bcast_S16x4096_S16x1x4096_0_2 (sqsumMid (tr x1))

/-- Window 3's array: the last point of each batch. -/
def lastPt (x1 : S16x4096x3.Idx → EReal) : S16x1x3.Idx → EReal :=
  extractStridedSlice S16x1x3 ![0, 4095, 0] x1 slices_S16x4096x3_S16x1x3_0_4095_0

/-- Window 4's array: the points with the constant pattern `0x3F800000` as a fourth column. -/
def p4 (x1 : S16x4096x3.Idx → EReal) : S16x4096x4.Idx → EReal :=
  concatenate S16x4096x4 2 [⟨S16x4096x3, x1⟩,
    ⟨S16x4096x1, broadcastInDim S16x4096x1 ![] bcast_S_S16x4096x1 (constant (F := Ideal) S_ .f32 0x3F800000#32)⟩]
    concatenates_S16x4096x3_S16x4096x1_S16x4096x4_d2

theorem V_p1a (c : Dev nD) :
    (V m c main_call0_v3 : S16x4096x4.Idx → EReal) = p1a (m ((c : Thread nD τ).loc main_arg0)) := by
  show StableHlo.after hostOps0 (fun b => m (c, b)) (Proc.devRef .tc main_call0_v3) = _
  after_results
  rfl

theorem V_p2a (c : Dev nD) :
    (V m c main_call0_v6 : S16x3x4096.Idx → EReal) = p2a (m ((c : Thread nD τ).loc main_arg1)) := by
  show StableHlo.after hostOps0 (fun b => m (c, b)) (Proc.devRef .tc main_call0_v6) = _
  after_results
  rfl

theorem V_bsq (c : Dev nD) :
    (V m c main_call0_v9 : S16x1x4096.Idx → EReal) = bsq (m ((c : Thread nD τ).loc main_arg1)) := by
  show StableHlo.after hostOps0 (fun b => m (c, b)) (Proc.devRef .tc main_call0_v9) = _
  after_results
  rfl

theorem V_lastPt (c : Dev nD) :
    (V m c main_call0_v10 : S16x1x3.Idx → EReal) = lastPt (m ((c : Thread nD τ).loc main_arg1)) := by
  show StableHlo.after hostOps0 (fun b => m (c, b)) (Proc.devRef .tc main_call0_v10) = _
  after_results
  rfl

theorem V_p4 (c : Dev nD) :
    (V m c main_call0_v12 : S16x4096x4.Idx → EReal) = p4 (m ((c : Thread nD τ).loc main_arg1)) := by
  show StableHlo.after hostOps0 (fun b => m (c, b)) (Proc.devRef .tc main_call0_v12) = _
  after_results
  rfl

/-! ## Those arrays read at an index -/

theorem tr_apply (x1 : S16x4096x3.Idx → EReal) (b : Fin 16) (k : Fin 3) (j : Fin 4096) :
    tr x1 (ix3 b k j) = x1 (ix3 b j k) :=
  transpose_apply [0, 2, 1] x1 transposes_S16x4096x3_S16x3x4096_0_2_1 (ix3 b k j) (ix3 b j k) (fun a => match a with
    | ⟨0, _⟩ => rfl
    | ⟨1, _⟩ => rfl
    | ⟨2, _⟩ => rfl)

theorem sqsumLast_apply (x : S16x4096x3.Idx → EReal) (b : Fin 16) (n : Fin 4096) :
    sqsumLast x (ix2 b n) = 0 + ∑ k : Fin 3, x (ix3 b n k) * x (ix3 b n k) := by
  unfold sqsumLast
  simp only [Host.reduceAdd, Ideal.hostReduceAdd_def]
  rw [Ideal.hostReduceAdd_single reducesTo_S16x4096x3_S16x4096_d2 (by decide)]
  refine congrArg₂ (· + ·) Ideal.ofBits_zero_f32 (Finset.sum_congr rfl fun k _ => ?_)
  exact congrArg (fun i => x i * x i) (funext fun a => Fin.ext (by match a with | ⟨0, _⟩ => rfl | ⟨1, _⟩ => rfl | ⟨2, _⟩ => rfl))

theorem sqsumMid_apply (y : S16x3x4096.Idx → EReal) (b : Fin 16) (j : Fin 4096) :
    sqsumMid y (ix2 b j) = 0 + ∑ k : Fin 3, y (ix3 b k j) * y (ix3 b k j) := by
  unfold sqsumMid
  simp only [Host.reduceAdd, Ideal.hostReduceAdd_def]
  rw [Ideal.hostReduceAdd_single reducesTo_S16x3x4096_S16x4096_d1 (by decide)]
  refine congrArg₂ (· + ·) Ideal.ofBits_zero_f32 (Finset.sum_congr rfl fun k _ => ?_)
  exact congrArg (fun i => y i * y i) (funext fun a => Fin.ext (by match a with | ⟨0, _⟩ => rfl | ⟨1, _⟩ => rfl | ⟨2, _⟩ => rfl))

theorem p1a_coord (x0 : S16x4096x3.Idx → EReal) (b : Fin 16) (n : Fin 4096) (k : Fin 3) :
    p1a x0 (ix3 b n (⟨k.val, by omega⟩ : Fin 4)) = x0 (ix3 b n k) := by
  unfold p1a
  exact concatenate_pair_apply_left 2 x0 _ concatenates_S16x4096x3_S16x4096x1_S16x4096x4_d2 _ rfl (ix3 b n k) (fun a => match a with
    | ⟨0, _⟩ => rfl
    | ⟨1, _⟩ => rfl
    | ⟨2, _⟩ => rfl)

theorem p1a_norm (x0 : S16x4096x3.Idx → EReal) (b : Fin 16) (n : Fin 4096) :
    p1a x0 (ix3 b n (3 : Fin 4)) = 0 + ∑ k : Fin 3, x0 (ix3 b n k) * x0 (ix3 b n k) := by
  unfold p1a
  refine (concatenate_pair_apply_right 2 x0 _ concatenates_S16x4096x3_S16x4096x1_S16x4096x4_d2 (ix3 b n (3 : Fin 4)) rfl rfl
    (ix3 b n (0 : Fin 1)) (fun a => match a with
      | ⟨0, _⟩ => fun _ => rfl
      | ⟨1, _⟩ => fun _ => rfl
      | ⟨2, _⟩ => fun h => absurd rfl h) rfl).trans ?_
  refine (broadcastInDim_apply _ bcast_S16x4096_S16x4096x1_0_1 (sqsumLast x0) (ix3 b n (0 : Fin 1)) (ix2 b n) (fun a => match a with
    | ⟨0, _⟩ => by show b.val = if (16 : Nat) = 1 then 0 else b.val; rw [if_neg (by decide)]
    | ⟨1, _⟩ => by show n.val = if (4096 : Nat) = 1 then 0 else n.val; rw [if_neg (by decide)])).trans ?_
  exact sqsumLast_apply x0 b n

theorem p2a_apply (x1 : S16x4096x3.Idx → EReal) (b : Fin 16) (k : Fin 3) (j : Fin 4096) :
    p2a x1 (ix3 b k j) = Ideal.ofBits .f32 0xC0000000#32 * x1 (ix3 b j k) := by
  unfold p2a
  rw [mulf_apply]
  refine congrArg₂ (· * ·) ?_ (tr_apply x1 b k j)
  exact broadcastInDim_apply _ bcast_S_S16x3x4096 _ (ix3 b k j) ix0 (fun a => a.elim0)

theorem bsq_apply (x1 : S16x4096x3.Idx → EReal) (b : Fin 16) (j : Fin 4096) :
    bsq x1 (ix3 b (0 : Fin 1) j) = 0 + ∑ k : Fin 3, x1 (ix3 b j k) * x1 (ix3 b j k) := by
  unfold bsq
  refine (broadcastInDim_apply _ bcast_S16x4096_S16x1x4096_0_2 (sqsumMid (tr x1)) (ix3 b (0 : Fin 1) j) (ix2 b j) (fun a => match a with
    | ⟨0, _⟩ => by show b.val = if (16 : Nat) = 1 then 0 else b.val; rw [if_neg (by decide)]
    | ⟨1, _⟩ => by show j.val = if (4096 : Nat) = 1 then 0 else j.val; rw [if_neg (by decide)])).trans ?_
  refine (sqsumMid_apply (tr x1) b j).trans ?_
  refine congrArg (0 + ·) (Finset.sum_congr rfl fun k _ => ?_)
  rw [tr_apply]

theorem lastPt_apply (x1 : S16x4096x3.Idx → EReal) (b : Fin 16) (k : Fin 3) :
    lastPt x1 (ix3 b (0 : Fin 1) k) = x1 (ix3 b (4095 : Fin 4096) k) := by
  unfold lastPt
  exact extractStridedSlice_apply _ x1 slices_S16x4096x3_S16x1x3_0_4095_0 (ix3 b (0 : Fin 1) k) (ix3 b (4095 : Fin 4096) k) (fun a => match a with
    | ⟨0, _⟩ => by show b.val = 0 + b.val; omega
    | ⟨1, _⟩ => by show (4095 : Fin 4096).val = 4095 + (0 : Fin 1).val; rfl
    | ⟨2, _⟩ => by show k.val = 0 + k.val; omega)

/-- The pattern `0x3F800000` denotes one. -/
theorem ofBits_one_f32 : Ideal.ofBits .f32 0x3F800000#32 = 1 := by
  simp [Ideal.ofBits, Ideal.ieee, -EReal.coe_mul]; norm_num

theorem p4_coord (x1 : S16x4096x3.Idx → EReal) (b : Fin 16) (j : Fin 4096) (k : Fin 3) :
    p4 x1 (ix3 b j (⟨k.val, by omega⟩ : Fin 4)) = x1 (ix3 b j k) := by
  unfold p4
  exact concatenate_pair_apply_left 2 x1 _ concatenates_S16x4096x3_S16x4096x1_S16x4096x4_d2 _ rfl (ix3 b j k) (fun a => match a with
    | ⟨0, _⟩ => rfl
    | ⟨1, _⟩ => rfl
    | ⟨2, _⟩ => rfl)

theorem p4_one (x1 : S16x4096x3.Idx → EReal) (b : Fin 16) (j : Fin 4096) :
    p4 x1 (ix3 b j (3 : Fin 4)) = 1 := by
  unfold p4
  refine (concatenate_pair_apply_right 2 x1 _ concatenates_S16x4096x3_S16x4096x1_S16x4096x4_d2 (ix3 b j (3 : Fin 4)) rfl rfl
    (ix3 b j (0 : Fin 1)) (fun a => match a with
      | ⟨0, _⟩ => fun _ => rfl
      | ⟨1, _⟩ => fun _ => rfl
      | ⟨2, _⟩ => fun h => absurd rfl h) rfl).trans ?_
  refine (broadcastInDim_apply _ bcast_S_S16x4096x1 _ (ix3 b j (0 : Fin 1)) ix0 (fun a => a.elim0)).trans ?_
  exact ofBits_one_f32

/-! ## The five input blocks at grid point `t = 8 b + sb`, as functions of the two arguments -/

/-- The product of two extended reals, with the type named: a buffer's element type is the extended reals only
    after unfolding, so the plain `*` finds no multiplication on it. The term is the plain product. -/
local notation:70 a:70 " *ₑ " b:71 => @HMul.hMul EReal EReal EReal _ a b

/-- Window 0, a coordinate column: row `r` of the block is point `512 sb + r` of batch `b` of the first argument. -/
theorem iblk0_coord (c : Dev nD) (t : Fin cfg0.N) (b : Fin 16) (sb : Fin 8) (hb : b.val = t.val / 8) (hs : sb.val = t.val % 8)
    (r : Fin 512) (k : Fin 3) :
    (iblk m c 0 t : S1x512x4.Idx → EReal) (ix3 (0 : Fin 1) r (⟨k.val, by omega⟩ : Fin 4))
      = (m ((c : Thread nD τ).loc main_arg0) : S16x4096x3.Idx → EReal) (ix3 b (⟨512 * sb.val + r.val, by omega⟩ : Fin 4096) k) :=
  (iblk0_read m c t b sb hb hs r _).trans ((congrFun (V_p1a m c) _).trans (p1a_coord _ b _ k))

/-- Window 0, the fourth column: the squared norm of that point, summed from zero. -/
theorem iblk0_norm (c : Dev nD) (t : Fin cfg0.N) (b : Fin 16) (sb : Fin 8) (hb : b.val = t.val / 8) (hs : sb.val = t.val % 8)
    (r : Fin 512) :
    (iblk m c 0 t : S1x512x4.Idx → EReal) (ix3 (0 : Fin 1) r (3 : Fin 4))
      = 0 + ∑ k : Fin 3, (m ((c : Thread nD τ).loc main_arg0) : S16x4096x3.Idx → EReal) (ix3 b (⟨512 * sb.val + r.val, by omega⟩ : Fin 4096) k)
          *ₑ (m ((c : Thread nD τ).loc main_arg0) : S16x4096x3.Idx → EReal) (ix3 b (⟨512 * sb.val + r.val, by omega⟩ : Fin 4096) k) :=
  (iblk0_read m c t b sb hb hs r _).trans ((congrFun (V_p1a m c) _).trans (p1a_norm _ b _))

/-- Window 1: the constant pattern `0xC0000000` times the transposed second argument, batch `b`. -/
theorem iblk1_apply (c : Dev nD) (t : Fin cfg0.N) (b : Fin 16) (sb : Fin 8) (hb : b.val = t.val / 8) (hs : sb.val = t.val % 8)
    (k : Fin 3) (j : Fin 4096) :
    (iblk m c 1 t : S1x3x4096.Idx → EReal) (ix3 (0 : Fin 1) k j)
      = Ideal.ofBits .f32 0xC0000000#32 * (m ((c : Thread nD τ).loc main_arg1) : S16x4096x3.Idx → EReal) (ix3 b j k) :=
  (iblk1_read m c t b hb k j).trans ((congrFun (V_p2a m c) _).trans (p2a_apply _ b k j))

/-- Window 2: the squared norm of point `j` of batch `b` of the second argument, summed from zero. -/
theorem iblk2_apply (c : Dev nD) (t : Fin cfg0.N) (b : Fin 16) (sb : Fin 8) (hb : b.val = t.val / 8) (hs : sb.val = t.val % 8)
    (j : Fin 4096) :
    (iblk m c 2 t : S1x1x4096.Idx → EReal) (ix3 (0 : Fin 1) (0 : Fin 1) j)
      = 0 + ∑ k : Fin 3, (m ((c : Thread nD τ).loc main_arg1) : S16x4096x3.Idx → EReal) (ix3 b j k)
          *ₑ (m ((c : Thread nD τ).loc main_arg1) : S16x4096x3.Idx → EReal) (ix3 b j k) :=
  (iblk2_read m c t b hb j).trans ((congrFun (V_bsq m c) _).trans (bsq_apply _ b j))

/-- Window 3: the last point of batch `b` of the second argument. -/
theorem iblk3_apply (c : Dev nD) (t : Fin cfg0.N) (b : Fin 16) (sb : Fin 8) (hb : b.val = t.val / 8) (hs : sb.val = t.val % 8)
    (k : Fin 3) :
    (iblk m c 3 t : S1x1x3.Idx → EReal) (ix3 (0 : Fin 1) (0 : Fin 1) k)
      = (m ((c : Thread nD τ).loc main_arg1) : S16x4096x3.Idx → EReal) (ix3 b (4095 : Fin 4096) k) :=
  (iblk3_read m c t b hb k).trans ((congrFun (V_lastPt m c) _).trans (lastPt_apply _ b k))

/-- Window 4, a coordinate column: point `j` of batch `b` of the second argument. -/
theorem iblk4_coord (c : Dev nD) (t : Fin cfg0.N) (b : Fin 16) (sb : Fin 8) (hb : b.val = t.val / 8) (hs : sb.val = t.val % 8)
    (j : Fin 4096) (k : Fin 3) :
    (iblk m c 4 t : S1x4096x4.Idx → EReal) (ix3 (0 : Fin 1) j (⟨k.val, by omega⟩ : Fin 4))
      = (m ((c : Thread nD τ).loc main_arg1) : S16x4096x3.Idx → EReal) (ix3 b j k) :=
  (iblk4_read m c t b hb j _).trans ((congrFun (V_p4 m c) _).trans (p4_coord _ b j k))

/-- Window 4, the fourth column: one. -/
theorem iblk4_one (c : Dev nD) (t : Fin cfg0.N) (b : Fin 16) (sb : Fin 8) (hb : b.val = t.val / 8) (hs : sb.val = t.val % 8)
    (j : Fin 4096) :
    (iblk m c 4 t : S1x4096x4.Idx → EReal) (ix3 (0 : Fin 1) j (3 : Fin 4)) = (1 : EReal) :=
  (iblk4_read m c t b hb j _).trans ((congrFun (V_p4 m c) _).trans (p4_one _ b j))

end Cert.KernelIdeal.KInputs

end
-- ==== Proof.KChunk.lean ====
import proofs.«123924_g12506944766668_retrytranche2_29_15_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.KChunk

open Cert.KernelIdeal Cert.KernelIdeal.Gen Idealize.ShloMosaic Idealize.ShloMosaic.ValueIdx

/-! # The two chunk-membership matrices

The host program builds `chunk j = ⌊j / 32⌋` for `0 ≤ j < 4096` (a signed divide with the sign and
remainder corrections of a floor division), compares it with `0 … 127` and converts the one-bit answer
to a number: `ef j ch = 1` when `⌊j / 32⌋ = ch` and `0` otherwise.  Window 5 holds `ef`, window 6 its
transpose, both whole at every grid point. -/

/-! ## The floor division of a small nonnegative word by 32 -/

/-- A word below 4096 has a clear sign bit. -/
theorem msb_small (j : ℕ) (hj : j < 4096) : (BitVec.ofNat 32 j).msb = false := by
  rw [BitVec.msb_eq_decide]
  simp only [BitVec.toNat_ofNat, decide_eq_false_iff_not, not_le, Nat.reducePow]
  omega

/-- Dividing by 32 is never at the signed division's corner. -/
theorem not_corner (x : BitVec 32) : ¬ IntOp.SDivCorner x 32#32 := by
  unfold IntOp.SDivCorner
  rintro (h | ⟨_, h⟩) <;> exact absurd h (by decide)

/-- The signed quotient of a word below 4096 by 32 is the natural quotient. -/
theorem divsi_host (j : ℕ) (hj : j < 4096) :
    IntOp.divsi .host (BitVec.ofNat 32 j) 32#32 = BitVec.ofNat 32 (j / 32) := by
  unfold IntOp.divsi
  rw [if_neg (not_corner _)]
  rw [BitVec.sdiv_eq, msb_small j hj, show (32#32 : BitVec 32).msb = false by decide]
  apply BitVec.eq_of_toNat_eq
  simp only [BitVec.udiv_eq, BitVec.toNat_udiv, BitVec.toNat_ofNat, Nat.reducePow, Nat.reduceMod]
  omega

/-- The floor division's correction (subtract one when the signs differ and the remainder is not zero)
    never fires on a dividend `0 ≤ j < 4096`: for `j > 0` the signs agree, for `j = 0` the remainder is
    zero.  So the selected word is the quotient `⌊j / 32⌋`. -/
theorem floorDiv_word (j : ℕ) (hj : j < 4096) :
    Scalar.select
      (IntOp.andi
        (IntOp.cmpi .ne (if BitVec.ofNat 32 j = 0 then (0 : BitVec 32) else if (BitVec.ofNat 32 j).msb then -1 else 1)
          (if (32#32 : BitVec 32) = 0 then (0 : BitVec 32) else if (32#32 : BitVec 32).msb then -1 else 1))
        (IntOp.cmpi .ne (IntOp.remsi .host (BitVec.ofNat 32 j) 32#32) 0#32))
      (IntOp.subi (IntOp.divsi .host (BitVec.ofNat 32 j) 32#32) 1#32)
      (IntOp.divsi .host (BitVec.ofNat 32 j) 32#32) = BitVec.ofNat 32 (j / 32) := by
  have hc : IntOp.andi
        (IntOp.cmpi .ne (if BitVec.ofNat 32 j = 0 then (0 : BitVec 32) else if (BitVec.ofNat 32 j).msb then -1 else 1)
          (if (32#32 : BitVec 32) = 0 then (0 : BitVec 32) else if (32#32 : BitVec 32).msb then -1 else 1))
        (IntOp.cmpi .ne (IntOp.remsi .host (BitVec.ofNat 32 j) 32#32) 0#32) = 0#1 := by
    rw [show (if (32#32 : BitVec 32) = 0 then (0 : BitVec 32) else if (32#32 : BitVec 32).msb then -1 else 1) = 1 by decide]
    rcases Nat.eq_zero_or_pos j with h0 | hpos
    · subst h0
      decide
    · have hne : ¬ BitVec.ofNat 32 j = 0 := by
        intro h
        have h' : (BitVec.ofNat 32 j).toNat = 0 := by rw [h]; rfl
        simp only [BitVec.toNat_ofNat, Nat.reducePow] at h'
        omega
      rw [if_neg hne, msb_small j hj, if_neg (by decide : ¬ false = true)]
      show BitVec.ofBool ((1 : BitVec 32) != 1) &&& _ = 0#1
      rw [show ((1 : BitVec 32) != 1) = false by decide]
      exact BitVec.zero_and
  rw [hc, select_zero, divsi_host j hj]

/-! ## The host's terms -/

/-- `⌊arange(4096) / 32⌋` as the host program computes it. -/
def chunkId : IVec S4096 32 :=
  select
    (andi
      (cmpi .ne (signi (iotaInDim S4096 32 0))
        (broadcastInDim S4096 ![] bcast_S_S4096 (signi (id (constantI S_ 32 32#32)))))
      (cmpi .ne
        (Host.remsi (iotaInDim S4096 32 0) (broadcastInDim S4096 ![] bcast_S_S4096 (id (constantI S_ 32 32#32))))
        (broadcastInDim S4096 ![] bcast_S_S4096 (constantI S_ 32 0#32))))
    (subi
      (Host.divsi (iotaInDim S4096 32 0) (broadcastInDim S4096 ![] bcast_S_S4096 (id (constantI S_ 32 32#32))))
      (broadcastInDim S4096 ![] bcast_S_S4096 (constantI S_ 32 1#32)))
    (Host.divsi (iotaInDim S4096 32 0) (broadcastInDim S4096 ![] bcast_S_S4096 (id (constantI S_ 32 32#32))))

/-- The membership matrix `ef` as the host program computes it: the comparison of the chunk of row `j` with
    the column number, as a number. -/
def memberF : FVec Ideal S4096x128 .f32 :=
  uitofp .f32 (cmpi .eq
    (broadcastInDim S4096x128 ![0, 1] bcast_S4096x1_S4096x128_0_1 (broadcastInDim S4096x1 ![0] bcast_S4096_S4096x1_0 chunkId))
    (broadcastInDim S4096x128 ![0, 1] bcast_S1x128_S4096x128_0_1 (broadcastInDim S1x128 ![1] bcast_S128_S1x128_1 (iotaInDim S128 32 0))))

/-! ## The broadcasts read at an index -/

theorem bcastScalar_apply {α : Type} (x : S_.Idx → α) (i : S4096.Idx) :
    broadcastInDim S4096 ![] bcast_S_S4096 x i = x ix0 :=
  broadcastInDim_apply _ bcast_S_S4096 x i ix0 (fun a => a.elim0)

theorem bcastCol_apply {α : Type} (x : S4096.Idx → α) (j : Fin 4096) :
    broadcastInDim S4096x1 ![0] bcast_S4096_S4096x1_0 x (ix2 j (0 : Fin 1)) = x (ix1 j) :=
  broadcastInDim_apply _ bcast_S4096_S4096x1_0 x (ix2 j (0 : Fin 1)) (ix1 j) (fun a => match a with
    | ⟨0, _⟩ => by show j.val = if (4096 : Nat) = 1 then 0 else j.val; rw [if_neg (by decide)])

theorem bcastColWide_apply {α : Type} (x : S4096x1.Idx → α) (j : Fin 4096) (ch : Fin 128) :
    broadcastInDim S4096x128 ![0, 1] bcast_S4096x1_S4096x128_0_1 x (ix2 j ch) = x (ix2 j (0 : Fin 1)) :=
  broadcastInDim_apply _ bcast_S4096x1_S4096x128_0_1 x (ix2 j ch) (ix2 j (0 : Fin 1)) (fun a => match a with
    | ⟨0, _⟩ => by show j.val = if (4096 : Nat) = 1 then 0 else j.val; rw [if_neg (by decide)]
    | ⟨1, _⟩ => by show 0 = if (1 : Nat) = 1 then 0 else ch.val; rw [if_pos rfl])

theorem bcastRow_apply {α : Type} (x : S128.Idx → α) (ch : Fin 128) :
    broadcastInDim S1x128 ![1] bcast_S128_S1x128_1 x (ix2 (0 : Fin 1) ch) = x (ix1 ch) :=
  broadcastInDim_apply _ bcast_S128_S1x128_1 x (ix2 (0 : Fin 1) ch) (ix1 ch) (fun a => match a with
    | ⟨0, _⟩ => by show ch.val = if (128 : Nat) = 1 then 0 else ch.val; rw [if_neg (by decide)])

theorem bcastRowWide_apply {α : Type} (x : S1x128.Idx → α) (j : Fin 4096) (ch : Fin 128) :
    broadcastInDim S4096x128 ![0, 1] bcast_S1x128_S4096x128_0_1 x (ix2 j ch) = x (ix2 (0 : Fin 1) ch) :=
  broadcastInDim_apply _ bcast_S1x128_S4096x128_0_1 x (ix2 j ch) (ix2 (0 : Fin 1) ch) (fun a => match a with
    | ⟨0, _⟩ => by show 0 = if (1 : Nat) = 1 then 0 else j.val; rw [if_pos rfl]
    | ⟨1, _⟩ => by show ch.val = if (128 : Nat) = 1 then 0 else ch.val; rw [if_neg (by decide)])

/-! ## The terms read at an index -/

/-- Comparing two small words for equality and reading the bit as a number gives the indicator of
    equality of the naturals. -/
theorem member_word (a b : ℕ) (ha : a < 128) (hb : b < 128) :
    FloatOps.uitofp (F := Ideal) .f32 (IntOp.cmpi .eq (BitVec.ofNat 32 a) (BitVec.ofNat 32 b))
      = if a = b then (1 : EReal) else 0 := by
  by_cases h : a = b
  · subst h
    rw [if_pos rfl]
    show (((BitVec.ofBool (BitVec.ofNat 32 a == BitVec.ofNat 32 a)).toNat : ℝ) : EReal) = 1
    rw [beq_self_eq_true]
    simp
  · rw [if_neg h]
    have hne : (BitVec.ofNat 32 a == BitVec.ofNat 32 b) = false := by
      rw [beq_eq_false_iff_ne]
      intro he
      have he' := congrArg BitVec.toNat he
      simp only [BitVec.toNat_ofNat, Nat.reducePow] at he'
      omega
    show (((BitVec.ofBool (BitVec.ofNat 32 a == BitVec.ofNat 32 b)).toNat : ℝ) : EReal) = 0
    rw [hne]
    simp

/-- The chunk of row `j` is `⌊j / 32⌋`. -/
theorem chunkId_apply (j : Fin 4096) : chunkId (ix1 j) = BitVec.ofNat 32 (j.val / 32) := by
  unfold chunkId
  simp only [select_apply, andi, cmpi, signi, subi, Host.divsi, Host.remsi, bcastScalar_apply, constantI, id]
  exact floorDiv_word j.val j.isLt

/-- The membership matrix at `(j, ch)`: one when row `j` lies in chunk `ch`, zero otherwise. -/
theorem memberF_apply (j : Fin 4096) (ch : Fin 128) :
    memberF (ix2 j ch) = if j.val / 32 = ch.val then (1 : EReal) else 0 := by
  unfold memberF
  simp only [uitofp, cmpi]
  rw [bcastColWide_apply, bcastCol_apply, bcastRowWide_apply, bcastRow_apply, chunkId_apply]
  exact member_word (j.val / 32) ch.val (by have := j.isLt; omega) ch.isLt

/-! ## The arrays the region finds -/

variable (m : (ℓ : Loc nD τ sig) → Buf (Elt Ideal) ℓ)

set_option maxHeartbeats 4000000 in
/-- The array of window 5 when the region is entered: the membership matrix (its narrowing to bf16 is the
    identity on the values). -/
theorem V_e (c : Dev nD) :
    (V m c main_call0_v22 : S4096x128.Idx → EReal) = truncf .bf16 memberF bitsLt_bf16_f32 := by
  show StableHlo.after hostOps0 (fun b => m (c, b)) (Proc.devRef .tc main_call0_v22) = _
  after_results_simp
  rfl

set_option maxHeartbeats 4000000 in
/-- The array of window 6 when the region is entered: the transposed membership matrix. -/
theorem V_et (c : Dev nD) :
    (V m c main_call0_v23 : S128x4096.Idx → EReal)
      = transpose S128x4096 [1, 0] memberF transposes_S4096x128_S128x4096_1_0 := by
  show StableHlo.after hostOps0 (fun b => m (c, b)) (Proc.devRef .tc main_call0_v23) = _
  after_results_simp
  rfl

theorem V_e_apply (c : Dev nD) (j : Fin 4096) (ch : Fin 128) :
    (V m c main_call0_v22 : S4096x128.Idx → EReal) (ix2 j ch) = if j.val / 32 = ch.val then (1 : EReal) else 0 := by
  rw [V_e m c, truncf_apply]
  exact memberF_apply j ch

theorem V_et_apply (c : Dev nD) (ch : Fin 128) (j : Fin 4096) :
    (V m c main_call0_v23 : S128x4096.Idx → EReal) (ix2 ch j) = if j.val / 32 = ch.val then (1 : EReal) else 0 := by
  rw [V_et m c, transpose_apply [1, 0] memberF transposes_S4096x128_S128x4096_1_0 (ix2 ch j) (ix2 j ch) (fun b => match b with
    | ⟨0, _⟩ => rfl
    | ⟨1, _⟩ => rfl)]
  exact memberF_apply j ch

/-! ## The windows' blocks -/

/-- Windows 5 and 6 sit at block (0, 0) at every grid point. -/
theorem idx_facts : ∀ t : Fin cfg0.N, win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 5's block is the whole array `e` at every point. -/
theorem iblk5_read (c : Dev nD) (t : Fin cfg0.N) (j : Fin 4096) (ch : Fin 128) :
    (iblk m c 5 t : S4096x128.Idx → EReal) (ix2 j ch) = (V m c main_call0_v22 : S4096x128.Idx → EReal) (ix2 j ch) := by
  obtain ⟨e0, e1, -, -⟩ := idx_facts t
  show V m c main_call0_v22 (((cfg0.win 5).blk t).view.emb (ix2 j ch)) = V m c main_call0_v22 (ix2 j ch)
  refine congrArg _ (funext fun a => Fin.ext ?_)
  match a with
  | ⟨0, _⟩ => show win0_5.index t (0 : Fin 2) * 4096 + 1 * j.val = j.val; omega
  | ⟨1, _⟩ => show win0_5.index t (1 : Fin 2) * 128 + 1 * ch.val = ch.val; omega

/-- Window 6's block is the whole array `et` at every point. -/
theorem iblk6_read (c : Dev nD) (t : Fin cfg0.N) (ch : Fin 128) (j : Fin 4096) :
    (iblk m c 6 t : S128x4096.Idx → EReal) (ix2 ch j) = (V m c main_call0_v23 : S128x4096.Idx → EReal) (ix2 ch j) := by
  obtain ⟨-, -, e0, e1⟩ := idx_facts t
  show V m c main_call0_v23 (((cfg0.win 6).blk t).view.emb (ix2 ch j)) = V m c main_call0_v23 (ix2 ch j)
  refine congrArg _ (funext fun a => Fin.ext ?_)
  match a with
  | ⟨0, _⟩ => show win0_6.index t (0 : Fin 2) * 128 + 1 * ch.val = ch.val; omega
  | ⟨1, _⟩ => show win0_6.index t (1 : Fin 2) * 4096 + 1 * j.val = j.val; omega

/-- The block window 5 loads, at `(j, ch)`: one when row `j` lies in chunk `ch`, zero otherwise. -/
theorem iblk5_apply (c : Dev nD) (t : Fin cfg0.N) (j : Fin 4096) (ch : Fin 128) :
    (iblk m c 5 t : S4096x128.Idx → EReal) (ix2 j ch) = if j.val / 32 = ch.val then (1 : EReal) else 0 :=
  (iblk5_read m c t j ch).trans (V_e_apply m c j ch)

/-- The block window 6 loads, at `(ch, j)`: one when row `j` lies in chunk `ch`, zero otherwise. -/
theorem iblk6_apply (c : Dev nD) (t : Fin cfg0.N) (ch : Fin 128) (j : Fin 4096) :
    (iblk m c 6 t : S128x4096.Idx → EReal) (ix2 ch j) = if j.val / 32 = ch.val then (1 : EReal) else 0 :=
  (iblk6_read m c t ch j).trans (V_et_apply m c ch j)

/-! ## The body's casts of the two blocks -/

/-- The body's shape cast of block 5 to its own shape changes nothing. -/
theorem pay6_apply (x5 : Vec Ideal S4096x128 .bf16) (i : S4096x128.Idx) : k0_pay6 (F := Ideal) x5 i = x5 i := by
  unfold k0_pay6
  rw [shapeCast_self]

/-- The body's shape cast of block 6 to its own shape changes nothing. -/
theorem pay7_apply (x6 : Vec Ideal S128x4096 .f32) (i : S128x4096.Idx) : k0_pay7 (F := Ideal) x6 i = x6 i := by
  unfold k0_pay7
  rw [shapeCast_self]

end Cert.KernelIdeal.KChunk
-- ==== Proof.KMask.lean ====
import proofs.«123924_g12506944766668_retrytranche2_29_15_alg».proof.Proof.Body
import proofs.«123924_g12506944766668_retrytranche2_29_15_alg».proof.Proof.Shared
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

/-!
# The mask of in-radius candidates, read at an index

For query row `r` and candidate `j` of a grid point, the body forms the squared distance as the
contraction of the row's three coordinates with the candidate's doubled negated coordinates, plus the
row's squared norm (the block's fourth column), plus the candidate's squared norm, compares it with the
squared radius, and keeps `1` where it is at most the radius and `0` elsewhere.  Also here: the
leading-unit-axis casts the body applies to its loaded blocks.
-/

noncomputable section

namespace Cert.KernelIdeal.KMask

open Cert.KernelIdeal Cert.KernelIdeal.Gen Cert.KernelIdeal.Body Idealize.ShloMosaic Idealize.ShloMosaic.ValueIdx

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The query block with its leading unit axis dropped. -/
theorem pay3_apply (x0 : Vec Ideal S1x512x4 .f32) (r : Fin 512) (k : Fin 4) :
    k0_pay3 (F := Ideal) x0 (ix2 r k) = x0 (ix3 (0 : Fin 1) r k) := by
  unfold k0_pay3
  exact shapeCast_1ab_ab_apply x0 _ r k

/-- The last candidate's block with its leading unit axis dropped. -/
theorem pay4_apply (x3 : Vec Ideal S1x1x3 .f32) (k : Fin 3) :
    k0_pay4 (F := Ideal) x3 (ix2 (0 : Fin 1) k) = x3 (ix3 (0 : Fin 1) (0 : Fin 1) k) := by
  unfold k0_pay4
  exact shapeCast_1ab_ab_apply x3 _ (0 : Fin 1) k

/-- The candidates-with-ones block with its leading unit axis dropped. -/
theorem pay5_apply (x4 : Vec Ideal S1x4096x4 .f32) (j : Fin 4096) (k : Fin 4) :
    k0_pay5 (F := Ideal) x4 (ix2 j k) = x4 (ix3 (0 : Fin 1) j k) := by
  unfold k0_pay5
  exact shapeCast_1ab_ab_apply x4 _ j k

/-- The query rows' three coordinates. -/
theorem pay8_apply (x0 : Vec Ideal S1x512x4 .f32) (r : Fin 512) (k : Fin 3) :
    k0_pay8 (F := Ideal) x0 (ix2 r k) = x0 (ix3 (0 : Fin 1) r (⟨k.val, by omega⟩ : Fin 4)) := by
  unfold k0_pay8
  exact (slice2_axis1_apply 0 (k0_pay3 (F := Ideal) x0) _ r k (⟨k.val, by omega⟩ : Fin 4) (by simp)).trans
    (pay3_apply x0 r _)

theorem lhs_dot_0 (i : S512x4096.Idx) (q : dot_S512x3_S3x4096_S512x4096_1_0_0_1_n_n.contr.Idx) :
    (dot_S512x3_S3x4096_S512x4096_1_0_0_1_n_n.lhsIdx i q 0).val = (i 0).val := by
  unfold DotDims.lhsIdx
  rw [dif_neg (show ¬(0 : Fin S512x3.rank) ∈ dot_S512x3_S3x4096_S512x4096_1_0_0_1_n_n.lhsBatch by decide),
    dif_pos (show (0 : Fin S512x3.rank) ∈ dot_S512x3_S3x4096_S512x4096_1_0_0_1_n_n.lhsNonContracting by decide)]
  rfl
theorem lhs_dot_1 (i : S512x4096.Idx) (q : dot_S512x3_S3x4096_S512x4096_1_0_0_1_n_n.contr.Idx) :
    (dot_S512x3_S3x4096_S512x4096_1_0_0_1_n_n.lhsIdx i q 1).val = (q ⟨0, by decide⟩).val :=
  dot_S512x3_S3x4096_S512x4096_1_0_0_1_n_n.lhsIdx_val_of_single rfl i q
theorem rhs_dot_0 (i : S512x4096.Idx) (q : dot_S512x3_S3x4096_S512x4096_1_0_0_1_n_n.contr.Idx) :
    (dot_S512x3_S3x4096_S512x4096_1_0_0_1_n_n.rhsIdx i q 0).val = (q ⟨0, by decide⟩).val :=
  dot_S512x3_S3x4096_S512x4096_1_0_0_1_n_n.rhsIdx_val_of_single rfl i q
theorem rhs_dot_1 (i : S512x4096.Idx) (q : dot_S512x3_S3x4096_S512x4096_1_0_0_1_n_n.contr.Idx) :
    (dot_S512x3_S3x4096_S512x4096_1_0_0_1_n_n.rhsIdx i q 1).val = (i 1).val := by
  unfold DotDims.rhsIdx
  rw [dif_neg (show ¬(1 : Fin S3x4096.rank) ∈ dot_S512x3_S3x4096_S512x4096_1_0_0_1_n_n.rhsBatch by decide),
    dif_pos (show (1 : Fin S3x4096.rank) ∈ dot_S512x3_S3x4096_S512x4096_1_0_0_1_n_n.rhsNonContracting by decide)]
  rfl

/-- The contraction of a query row with a candidate's column. -/
theorem dist_dot_apply (l : FVec Ideal S512x3 .f32) (rr : FVec Ideal S3x4096 .f32) (r : Fin 512) (j : Fin 4096) :
    matmul dot_S512x3_S3x4096_S512x4096_1_0_0_1_n_n none l rr (constant S512x4096 .f32 0x00000000#32) (ix2 r j)
      = ∑ k : Fin 3, l (ix2 r k) * rr (ix2 k j) := by
  simp only [matmul]
  rw [Ideal.matmul_constant_zero_apply,
    ← Equiv.sum_comp (contrEquiv1 dot_S512x3_S3x4096_S512x4096_1_0_0_1_n_n 3 rfl rfl).symm]
  refine Finset.sum_congr rfl fun k _ => ?_
  have hk := contrEquiv1_symm_val dot_S512x3_S3x4096_S512x4096_1_0_0_1_n_n 3 rfl rfl k
  have el : dot_S512x3_S3x4096_S512x4096_1_0_0_1_n_n.lhsIdx (ix2 r j)
      ((contrEquiv1 dot_S512x3_S3x4096_S512x4096_1_0_0_1_n_n 3 rfl rfl).symm k) = ix2 r k :=
    funext fun a => Fin.ext (by
      match a with
      | ⟨0, _⟩ => exact lhs_dot_0 _ _
      | ⟨1, _⟩ => exact (lhs_dot_1 _ _).trans hk)
  have er : dot_S512x3_S3x4096_S512x4096_1_0_0_1_n_n.rhsIdx (ix2 r j)
      ((contrEquiv1 dot_S512x3_S3x4096_S512x4096_1_0_0_1_n_n 3 rfl rfl).symm k) = ix2 k j :=
    funext fun a => Fin.ext (by
      match a with
      | ⟨0, _⟩ => exact (rhs_dot_0 _ _).trans hk
      | ⟨1, _⟩ => exact rhs_dot_1 _ _)
  rw [el, er]

/-- Selecting `1` or `0` by the one-bit result of an order comparison. -/
theorem select_le (A B : EReal) :
    (if BitVec.ofBool (decide (A ≤ B)) = 1#1 then (1 : EReal) else 0) = if A ≤ B then (1 : EReal) else 0 := by
  by_cases h : A ≤ B <;> simp [h]

/-- The mask at query row `r`, candidate `j`: one where the squared distance is at most the squared radius. -/
theorem mask_apply (x0 : Vec Ideal S1x512x4 .f32) (x1 : Vec Ideal S1x3x4096 .f32) (x2 : Vec Ideal S1x1x4096 .f32)
    (r : Fin 512) (j : Fin 4096) :
    maskOf (F := Ideal) x0 x1 x2 (ix2 r j)
      = if ((∑ k : Fin 3, x0 (ix3 (0 : Fin 1) r (⟨k.val, by omega⟩ : Fin 4)) * x1 (ix3 (0 : Fin 1) k j))
              + x0 (ix3 (0 : Fin 1) r (3 : Fin 4))) + x2 (ix3 (0 : Fin 1) (0 : Fin 1) j) ≤ Cert.Shared.r2
        then (1 : EReal) else 0 := by
  have hd : matmul dot_S512x3_S3x4096_S512x4096_1_0_0_1_n_n none (k0_pay8 (F := Ideal) x0)
      (shapeCast S3x4096 x1 shapeCasts_S1x3x4096_S3x4096 : FVec Ideal S3x4096 .f32) (constant S512x4096 .f32 0x00000000#32) (ix2 r j)
      = ∑ k : Fin 3, x0 (ix3 (0 : Fin 1) r (⟨k.val, by omega⟩ : Fin 4)) * x1 (ix3 (0 : Fin 1) k j) := by
    refine (dist_dot_apply _ _ r j).trans (Finset.sum_congr rfl fun k _ => ?_)
    rw [pay8_apply]
    exact congrArg (_ * ·) (shapeCast_1ab_ab_apply x1 _ k j)
  have ha : broadcastTo S512x4096 (extractStridedSlice S512x1 ![0, 3] (k0_pay3 (F := Ideal) x0) slices_S512x4_o0_3_S512x1)
      broadcasts_S512x1_S512x4096 (ix2 r j) = x0 (ix3 (0 : Fin 1) r (3 : Fin 4)) := by
    refine (broadcastTo_a1_ab_apply _ _ r j).trans ?_
    exact (slice2_axis1_apply 3 (k0_pay3 (F := Ideal) x0) _ r (0 : Fin 1) (3 : Fin 4) rfl).trans (pay3_apply x0 r _)
  have hb : broadcastTo S512x4096 (shapeCast S1x4096 x2 shapeCasts_S1x1x4096_S1x4096) broadcasts_S1x4096_S512x4096 (ix2 r j)
      = x2 (ix3 (0 : Fin 1) (0 : Fin 1) j) :=
    (broadcastTo_1b_ab_apply _ _ r j).trans (shapeCast_1ab_ab_apply x2 _ (0 : Fin 1) j)
  show k0_pay9 (F := Ideal) x0 x1 x2 (ix2 r j) = _
  unfold k0_pay9
  simp only [truncf_apply, select_apply, cmpf_apply, addf_apply, broadcast_apply]
  rw [hd, ha, hb]
  simp only [Scalar.select, Ideal.cmpf_def, Ideal.cmp, Ideal.ofBits_def, Ideal.ofBits_one_f32, Ideal.ofBits_zero_f32,
    Cert.Shared.r2]
  exact select_le _ _

end Cert.KernelIdeal.KMask

end
-- ==== Proof.Basics.lean ====
import Mathlib

/-!
# Elementary facts on finite sums of reals inside the extended reals

The coercion of the reals into the extended reals commutes with finite sums; a 0/1 weight times a real is
the real or zero; natural-number counts compare inside the extended reals as they do as naturals; a sum
taken in blocks is the sum over the whole range.
-/

noncomputable section

namespace Cert.Basics

open Finset

/-- The coercion `ℝ → EReal` commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A 0/1 weight times a real. -/
theorem ite_mul_coe (P : Prop) [Decidable P] (x : ℝ) :
    (if P then (1 : EReal) else 0) * (x : EReal) = ((if P then x else 0 : ℝ) : EReal) := by
  split <;> simp

/-- A 0/1 weight times one. -/
theorem ite_mul_one (P : Prop) [Decidable P] :
    (if P then (1 : EReal) else 0) * (1 : EReal) = ((if P then (1 : ℝ) else 0 : ℝ) : EReal) := by
  split <;> simp

/-- A natural number inside the extended reals is the real of that number. -/
theorem natCast_eq_coe (n : ℕ) : ((n : ℕ) : EReal) = (((n : ℕ) : ℝ) : EReal) := by
  induction n with
  | zero => simp
  | succ n ih => rw [Nat.cast_succ, Nat.cast_succ, EReal.coe_add, ih]; simp

theorem natCast_le_sixteen (n : ℕ) : ((n : ℕ) : EReal) ≤ (16 : EReal) ↔ n ≤ 16 := by
  rw [natCast_eq_coe, show (16 : EReal) = ((16 : ℝ) : EReal) by norm_cast, EReal.coe_le_coe_iff]
  exact_mod_cast Iff.rfl

theorem natCast_eq_one (n : ℕ) : ((n : ℕ) : EReal) = (1 : EReal) ↔ n = 1 := by
  rw [natCast_eq_coe, show (1 : EReal) = ((1 : ℝ) : EReal) by norm_cast, EReal.coe_eq_coe_iff]
  exact_mod_cast Iff.rfl

/-- A sum over `a · b` indices, taken as `a` blocks of `b`. -/
theorem sum_blocks {M : Type*} [AddCommMonoid M] (a b : ℕ) (f : ℕ → M) :
    ∑ i : Fin a, ∑ j : Fin b, f (b * i.val + j.val) = ∑ k : Fin (a * b), f k.val := by
  rw [← Finset.sum_product', Finset.univ_product_univ]
  refine (Fintype.sum_equiv finProdFinEquiv _ _ fun p => ?_)
  simp [finProdFinEquiv, Nat.add_comm]

/-- A running sum is the sum over the range. -/
theorem running_sum {M : Type*} [AddCommMonoid M] (g acc : ℕ → M) (h0 : acc 0 = 0 + g 0)
    (hs : ∀ n, acc (n + 1) = acc n + g (n + 1)) (n : ℕ) : acc n = ∑ k ∈ Finset.range (n + 1), g k := by
  induction n with
  | zero => simp [h0]
  | succ n ih => rw [hs, ih, Finset.sum_range_succ _ (n + 1)]

end Cert.Basics

end
-- ==== Proof.SelectMath.lean ====
import proofs.«123924_g12506944766668_retrytranche2_29_15_alg».proof.Proof.Shared
import Idealize.ShloMosaic.Lib.SortFacts

/-!
# The selection, as mathematics

The reference sorts the keys (`j` inside the ball, `4096` outside) stably, takes the first sixteen sorted
keys, replaces a taken `4096` by the first sorted key and reads a table `x` at the result clamped to `4095`.
This file shows that the sum of the sixteen values read is: the sum of `x` over the candidates in the ball
whose running count is at most sixteen, plus as many copies of `x` at the first candidate in the ball as are
missing to sixteen, plus, when the ball is empty, sixteen copies of `x 4095`.

The argument: the sorting map `σ` is a bijection of the positions along which the keys are nondecreasing;
a nondecreasing sequence is below a bound `v` exactly on an initial segment, whose length is the number of
keys below `v`; hence, with `T` the number of candidates in the ball, for `k < T` the position `σ k` is in the
ball and has running count `k + 1`, and for `k ≥ T` it is outside the ball.
-/

noncomputable section

namespace Cert.SelectMath

open Cert.Shared
open Idealize.ShloMosaic
open Classical

/-! ## A nondecreasing sequence is below a bound exactly on an initial segment -/

theorem lt_iff_lt_card {n : ℕ} (f : Fin n → ℕ) (hf : ∀ i j : Fin n, i ≤ j → f i ≤ f j) (v : ℕ) (k : Fin n) :
    f k < v ↔ k.val < (Finset.univ.filter fun i : Fin n => f i < v).card := by
  constructor
  · intro hk
    have hsub : Finset.Iic k ⊆ Finset.univ.filter fun i : Fin n => f i < v := by
      intro i hi
      rw [Finset.mem_Iic] at hi
      simp only [Finset.mem_filter, Finset.mem_univ, true_and]
      exact lt_of_le_of_lt (hf i k hi) hk
    have hc := Finset.card_le_card hsub
    rw [Fin.card_Iic] at hc
    omega
  · intro hk
    by_contra hnot
    have hsub : (Finset.univ.filter fun i : Fin n => f i < v) ⊆ Finset.Iio k := by
      intro i hi
      simp only [Finset.mem_filter, Finset.mem_univ, true_and] at hi
      rw [Finset.mem_Iio]
      by_contra hik
      exact hnot (lt_of_le_of_lt (hf k i (not_lt.mp hik)) hi)
    have hc := Finset.card_le_card hsub
    rw [Fin.card_Iio] at hc
    omega

/-- A sum over `Fin n` of a function supported on the first `m` positions is the sum over `Fin m`. -/
theorem sum_fin_lt {m n : ℕ} (h : m ≤ n) (g : Fin n → ℝ) :
    ∑ k : Fin n, (if k.val < m then g k else 0) = ∑ k : Fin m, g ⟨k.val, lt_of_lt_of_le k.isLt h⟩ := by
  rw [← Finset.sum_filter]
  symm
  refine Finset.sum_bij (fun k _ => (⟨k.val, lt_of_lt_of_le k.isLt h⟩ : Fin n)) ?_ ?_ ?_ ?_
  · intro k _
    simp only [Finset.mem_filter, Finset.mem_univ, true_and]
    exact k.isLt
  · intro a _ b _ hab
    have := congrArg Fin.val hab
    exact Fin.ext this
  · intro b hb
    simp only [Finset.mem_filter, Finset.mem_univ, true_and] at hb
    exact ⟨⟨b.val, hb⟩, Finset.mem_univ _, Fin.ext rfl⟩
  · intro k _
    rfl

/-- Reindexing a masked sum along a bijection. -/
theorem sum_reindex {n : ℕ} (σ : Fin n → Fin n) (hσ : Function.Bijective σ) (Q Q' : Fin n → Prop)
    [DecidablePred Q] [DecidablePred Q'] (h : ∀ k, Q (σ k) ↔ Q' k) (g : Fin n → ℝ) :
    ∑ j : Fin n, (if Q j then g j else 0) = ∑ k : Fin n, (if Q' k then g (σ k) else 0) := by
  rw [← hσ.sum_comp (fun j => if Q j then g j else 0)]
  refine Finset.sum_congr rfl fun k _ => ?_
  exact if_congr (h k) rfl rfl

/-! ## The sorted order of a 0/1 mask's keys, over an abstract size -/

section Abstract

variable {n : ℕ} (μ : Fin n → Prop) (σ : Fin n → Fin n)

/-- The key of position `j` as a natural number: `j` where the mask holds, `n` elsewhere. -/
def nkey (j : Fin n) : ℕ := if μ j then j.val else n

/-- How many positions strictly below `v` the mask holds at. -/
def below (v : ℕ) : ℕ := (Finset.univ.filter fun j : Fin n => j.val < v ∧ μ j).card

/-- How many positions up to and including `j` the mask holds at. -/
def cntA (j : Fin n) : ℕ := (Finset.univ.filter fun i : Fin n => i.val ≤ j.val ∧ μ i).card

/-- How many positions the mask holds at. -/
def total : ℕ := (Finset.univ.filter fun j : Fin n => μ j).card

theorem nkey_le (j : Fin n) : nkey μ j ≤ n := by
  unfold nkey
  have := j.isLt
  split <;> omega

theorem nkey_lt_iff {v : ℕ} (hv : v ≤ n) (j : Fin n) : nkey μ j < v ↔ j.val < v ∧ μ j := by
  unfold nkey
  by_cases h : μ j
  · rw [if_pos h]; exact ⟨fun h' => ⟨h', h⟩, fun h' => h'.1⟩
  · rw [if_neg h]; exact ⟨fun h' => absurd h' (by omega), fun h' => absurd h'.2 h⟩

theorem cntA_eq (j : Fin n) : cntA μ j = below μ (j.val + 1) := by
  unfold cntA below
  refine congrArg Finset.card ?_
  ext i
  simp only [Finset.mem_filter, Finset.mem_univ, true_and]
  constructor <;> rintro ⟨h1, h2⟩ <;> exact ⟨by omega, h2⟩

theorem total_eq : total μ = below μ n := by
  unfold total below
  refine congrArg Finset.card ?_
  ext i
  simp only [Finset.mem_filter, Finset.mem_univ, true_and]
  exact ⟨fun h => ⟨i.isLt, h⟩, fun h => h.2⟩

theorem below_succ (j : Fin n) (hj : μ j) : below μ (j.val + 1) = below μ j.val + 1 := by
  unfold below
  have hins : (Finset.univ.filter fun i : Fin n => i.val < j.val + 1 ∧ μ i)
      = insert j (Finset.univ.filter fun i : Fin n => i.val < j.val ∧ μ i) := by
    ext i
    simp only [Finset.mem_filter, Finset.mem_univ, true_and, Finset.mem_insert]
    constructor
    · rintro ⟨h1, h2⟩
      by_cases hij : i = j
      · exact Or.inl hij
      · refine Or.inr ⟨?_, h2⟩
        have : i.val ≠ j.val := fun h => hij (Fin.ext h)
        omega
    · rintro (rfl | ⟨h1, h2⟩)
      · exact ⟨by omega, hj⟩
      · exact ⟨by omega, h2⟩
  rw [hins, Finset.card_insert_of_notMem]
  simp only [Finset.mem_filter, Finset.mem_univ, true_and, not_and]
  intro h
  omega

variable (hσ : Function.Bijective σ) (hmono : ∀ i j : Fin n, i ≤ j → nkey μ (σ i) ≤ nkey μ (σ j))
include hσ hmono

/-- The `k`-th sorted key is below `v` exactly when `k` is less than the number of keys below `v`. -/
theorem key_lt_iff {v : ℕ} (hv : v ≤ n) (k : Fin n) : nkey μ (σ k) < v ↔ k.val < below μ v := by
  refine (lt_iff_lt_card (fun i => nkey μ (σ i)) hmono v k).trans ?_
  have hcard : (Finset.univ.filter fun i : Fin n => nkey μ (σ i) < v).card = below μ v := by
    unfold below
    rw [← Finset.card_map ⟨σ, hσ.injective⟩]
    refine congrArg Finset.card ?_
    ext j
    simp only [Finset.mem_map, Finset.mem_filter, Finset.mem_univ, true_and, Function.Embedding.coeFn_mk]
    constructor
    · rintro ⟨i, hi, rfl⟩
      exact (nkey_lt_iff μ hv _).mp hi
    · intro hj
      obtain ⟨i, rfl⟩ := hσ.surjective j
      exact ⟨i, (nkey_lt_iff μ hv _).mpr hj, rfl⟩
  rw [hcard]

/-- The mask holds at the `k`-th sorted position exactly for `k` below the number of ones. -/
theorem mu_iff (k : Fin n) : μ (σ k) ↔ k.val < total μ := by
  rw [total_eq, ← key_lt_iff μ σ hσ hmono (le_refl n) k, nkey_lt_iff μ (le_refl n)]
  exact ⟨fun h => ⟨(σ k).isLt, h⟩, fun h => h.2⟩

/-- Where the mask holds at the `k`-th sorted position, that position's running count is `k + 1`. -/
theorem cnt_at (k : Fin n) (hk : μ (σ k)) : cntA μ (σ k) = k.val + 1 := by
  have hkey : nkey μ (σ k) = (σ k).val := by unfold nkey; rw [if_pos hk]
  have hlt := (σ k).isLt
  have h1 : k.val < below μ ((σ k).val + 1) :=
    (key_lt_iff μ σ hσ hmono (Nat.succ_le_of_lt hlt) k).mp (by omega)
  have h2 : ¬ k.val < below μ (σ k).val := fun h => by
    have := (key_lt_iff μ σ hσ hmono (le_of_lt hlt) k).mpr h
    omega
  rw [cntA_eq, below_succ μ (σ k) hk]
  rw [below_succ μ (σ k) hk] at h1
  omega

/-- Selecting by the mask and a property of the running count, read through the sorted order. -/
theorem sel_iff (P : ℕ → Prop) (k : Fin n) :
    (μ (σ k) ∧ P (cntA μ (σ k))) ↔ (k.val < total μ ∧ P (k.val + 1)) := by
  constructor
  · rintro ⟨h1, h2⟩
    rw [cnt_at μ σ hσ hmono k h1] at h2
    exact ⟨(mu_iff μ σ hσ hmono k).mp h1, h2⟩
  · rintro ⟨h1, h2⟩
    have hk := (mu_iff μ σ hσ hmono k).mpr h1
    rw [cnt_at μ σ hσ hmono k hk]
    exact ⟨hk, h2⟩

/-- Selecting by the mask and "running count at most `m`", read through the sorted order. -/
theorem sel_le_iff (m : ℕ) (k : Fin n) :
    (μ (σ k) ∧ cntA μ (σ k) ≤ m) ↔ (k.val < m ∧ k.val < total μ) := by
  constructor
  · rintro ⟨h1, h2⟩
    rw [cnt_at μ σ hσ hmono k h1] at h2
    exact ⟨by omega, (mu_iff μ σ hσ hmono k).mp h1⟩
  · rintro ⟨h1, h2⟩
    have hk := (mu_iff μ σ hσ hmono k).mpr h2
    rw [cnt_at μ σ hσ hmono k hk]
    exact ⟨hk, by omega⟩

/-- Selecting by the mask and "running count one", read through the sorted order. -/
theorem sel_one_iff (k : Fin n) :
    (μ (σ k) ∧ cntA μ (σ k) = 1) ↔ (k.val = 0 ∧ 0 < total μ) := by
  constructor
  · rintro ⟨h1, h2⟩
    rw [cnt_at μ σ hσ hmono k h1] at h2
    have := (mu_iff μ σ hσ hmono k).mp h1
    exact ⟨by omega, by omega⟩
  · rintro ⟨h1, h2⟩
    have hk := (mu_iff μ σ hσ hmono k).mpr (by omega)
    rw [cnt_at μ σ hσ hmono k hk]
    exact ⟨hk, by omega⟩

end Abstract

/-! ## The sum of the sixteen values read, through an abstract sorted order -/

theorem select_sum_core (μ : Fin 4096 → Prop) (σ : Fin 4096 → Fin 4096) (hσ : Function.Bijective σ)
    (hmono : ∀ i j : Fin 4096, i ≤ j → nkey μ (σ i) ≤ nkey μ (σ j)) (x : Fin 4096 → ℝ) (r : Fin 16 → ℝ)
    (hr : ∀ k : Fin 16, r k = if k.val < total μ then x (σ ⟨k.val, by omega⟩)
      else if 0 < total μ then x (σ ⟨0, by omega⟩) else x ⟨4095, by omega⟩) :
    ∑ k : Fin 16, r k
      = (∑ j : Fin 4096, if μ j ∧ cntA μ j ≤ 16 then x j else 0)
        + (16 - ∑ j : Fin 4096, if μ j ∧ cntA μ j ≤ 16 then (1 : ℝ) else 0)
            * (∑ j : Fin 4096, if μ j ∧ cntA μ j = 1 then x j else 0)
        + (1 - ∑ j : Fin 4096, if μ j ∧ cntA μ j = 1 then (1 : ℝ) else 0) * 16 * x ⟨4095, by omega⟩ := by
  have e1 : ∀ g : Fin 4096 → ℝ, (∑ j : Fin 4096, if μ j ∧ cntA μ j ≤ 16 then g j else 0)
      = ∑ k : Fin 16, if k.val < total μ then g (σ ⟨k.val, by omega⟩) else 0 := by
    intro g
    rw [sum_reindex σ hσ (fun j => μ j ∧ cntA μ j ≤ 16) (fun k => k.val < 16 ∧ k.val < total μ)
      (fun k => sel_le_iff μ σ hσ hmono 16 k) g]
    refine Eq.trans ?_ (sum_fin_lt (by omega : 16 ≤ 4096) (fun k => if k.val < total μ then g (σ k) else 0))
    refine Finset.sum_congr rfl fun k _ => ?_
    exact ite_and _ _ _ _
  have e2 : ∀ g : Fin 4096 → ℝ, (∑ j : Fin 4096, if μ j ∧ cntA μ j = 1 then g j else 0)
      = if 0 < total μ then g (σ ⟨0, by omega⟩) else 0 := by
    intro g
    rw [sum_reindex σ hσ (fun j => μ j ∧ cntA μ j = 1) (fun k => k.val = 0 ∧ 0 < total μ)
      (fun k => sel_one_iff μ σ hσ hmono k) g]
    by_cases hT : 0 < total μ
    · rw [if_pos hT, Finset.sum_eq_single (⟨0, by omega⟩ : Fin 4096)]
      · rw [if_pos ⟨rfl, hT⟩]
      · intro b _ hb
        rw [if_neg]
        rintro ⟨h1, _⟩
        exact hb (Fin.ext h1)
      · intro h
        exact absurd (Finset.mem_univ _) h
    · rw [if_neg hT]
      refine Finset.sum_eq_zero fun k _ => ?_
      rw [if_neg]
      rintro ⟨_, h2⟩
      exact hT h2
  rw [e1 x, e1 (fun _ => 1), e2 x, e2 (fun _ => 1), Finset.sum_congr rfl (fun k _ => hr k)]
  by_cases hT : 0 < total μ
  · simp only [hT, if_true]
    have hpt : ∀ k : Fin 16, (if k.val < total μ then x (σ ⟨k.val, by omega⟩) else x (σ ⟨0, by omega⟩))
        = (if k.val < total μ then x (σ ⟨k.val, by omega⟩) else 0)
          + (1 - if k.val < total μ then (1 : ℝ) else 0) * x (σ ⟨0, by omega⟩) := by
      intro k
      split_ifs <;> ring
    rw [Finset.sum_congr rfl (fun k _ => hpt k), Finset.sum_add_distrib, ← Finset.sum_mul,
      Finset.sum_sub_distrib]
    simp only [Finset.sum_const, Finset.card_univ, Fintype.card_fin, nsmul_eq_mul, Nat.cast_ofNat, mul_one]
    ring
  · have hT0 : total μ = 0 := by omega
    simp only [hT0, Nat.not_lt_zero, lt_self_iff_false, if_false, Finset.sum_const, Finset.card_univ,
      Fintype.card_fin, nsmul_eq_mul, Nat.cast_ofNat, Finset.sum_const_zero]
    ring

/-! ## The reference's keys and its sorted order -/

section Concrete

variable (μ : Fin 4096 → Prop)

theorem cnt_eq (j : Fin 4096) : Sel.cnt μ j = cntA μ j := rfl

/-- The key as a natural number. -/
theorem key_toNat (j : Fin 4096) : (Sel.key μ j).toNat = nkey μ j := by
  unfold Sel.key nkey
  have hj := j.isLt
  by_cases h : μ j
  · rw [if_pos h, if_pos h, BitVec.toNat_ofNat]
    exact Nat.mod_eq_of_lt (by omega)
  · rw [if_neg h, if_neg h]
    rfl

/-- The key is `4096` exactly outside the ball. -/
theorem key_eq_iff (j : Fin 4096) : Sel.key μ j = 4096#32 ↔ ¬ μ j := by
  constructor
  · intro h hj
    have h1 := congrArg BitVec.toNat h
    rw [key_toNat] at h1
    unfold nkey at h1
    rw [if_pos hj] at h1
    have h2 : (4096#32 : BitVec 32).toNat = 4096 := rfl
    have := j.isLt
    omega
  · intro h
    unfold Sel.key
    rw [if_neg h]

/-- The keys are small, so the signed reading of a key is its natural value. -/
theorem key_toInt (j : Fin 4096) : (Sel.key μ j).toInt = (nkey μ j : ℤ) := by
  have h := nkey_le μ j
  rw [BitVec.toInt_eq_toNat_of_lt (by rw [key_toNat]; omega), key_toNat]

/-- The signed comparison of two keys is the comparison of their natural values. -/
theorem before_iff (a b : Fin 4096) : Sel.before μ a b = true ↔ nkey μ a < nkey μ b := by
  unfold Sel.before IntOp.cmpi
  simp only [BitVec.slt, key_toInt]
  by_cases h : nkey μ a < nkey μ b
  · simp [h]
  · simp [h]

theorem before_eq_false_iff (a b : Fin 4096) : Sel.before μ a b = false ↔ nkey μ b ≤ nkey μ a := by
  rw [← Bool.not_eq_true, before_iff, not_lt]

/-- Along the sorted order the keys are nondecreasing. -/
theorem sorted_mono (i j : Fin 4096) (hij : i ≤ j) :
    nkey μ (sortedFrom (Sel.before μ) i) ≤ nkey μ (sortedFrom (Sel.before μ) j) := by
  rcases eq_or_lt_of_le hij with rfl | hlt
  · exact le_refl _
  · exact (before_eq_false_iff μ _ _).mp
      (sortedFrom_noInversion (Sel.before μ) (Sel.before μ)
        (fun a b h => (before_eq_false_iff μ b a).mpr (le_of_lt ((before_iff μ a b).mp h)))
        (fun _ _ h => h)
        (fun a b c h1 h2 => (before_eq_false_iff μ a c).mpr
          (le_trans ((before_eq_false_iff μ b c).mp h2) ((before_eq_false_iff μ a b).mp h1)))
        i j hlt)

theorem sorted_bijective : Function.Bijective (sortedFrom (Sel.before μ)) :=
  ⟨sortedFrom_injective _, sortedFrom_surjective _⟩

/-- The selected key at two arbitrary positions `a` (the `k`-th sorted) and `b` (the first sorted). -/
theorem pick_aux (a b : Fin 4096) :
    (if Sel.key μ a = 4096#32 then Sel.key μ b else Sel.key μ a).toNat = if μ a then a.val else nkey μ b := by
  by_cases h : μ a
  · rw [if_neg (fun h' => (key_eq_iff μ a).mp h' h), if_pos h, key_toNat]
    unfold nkey
    rw [if_pos h]
  · rw [if_pos ((key_eq_iff μ a).mpr h), if_neg h, key_toNat]

theorem pick_eq (k : Fin 16) :
    Sel.pick μ k = if μ (sortedFrom (Sel.before μ) ⟨k.val, by omega⟩)
      then (sortedFrom (Sel.before μ) ⟨k.val, by omega⟩).val
      else nkey μ (sortedFrom (Sel.before μ) ⟨0, by omega⟩) := by
  unfold Sel.pick Sel.srt
  exact pick_aux μ _ _

theorem pick_le (μ : Fin 4096 → Prop) (k : Fin 16) : Sel.pick μ k ≤ 4096 := by
  rw [pick_eq]
  have h1 := (sortedFrom (Sel.before μ) ⟨k.val, by omega⟩).isLt
  have h2 := nkey_le μ (sortedFrom (Sel.before μ) ⟨0, by omega⟩)
  split <;> omega

/-- The value read for the `k`-th selected index. -/
theorem read_eq (x : Fin 4096 → ℝ) (k : Fin 16) (h : min (Sel.pick μ k) 4095 < 4096) :
    x ⟨min (Sel.pick μ k) 4095, h⟩
      = if k.val < total μ then x (sortedFrom (Sel.before μ) ⟨k.val, by omega⟩)
        else if 0 < total μ then x (sortedFrom (Sel.before μ) ⟨0, by omega⟩) else x ⟨4095, by omega⟩ := by
  have hk : μ (sortedFrom (Sel.before μ) ⟨k.val, by omega⟩) ↔ k.val < total μ :=
    mu_iff μ _ (sorted_bijective μ) (sorted_mono μ) (⟨k.val, by omega⟩ : Fin 4096)
  have h0 : μ (sortedFrom (Sel.before μ) ⟨0, by omega⟩) ↔ 0 < total μ :=
    mu_iff μ _ (sorted_bijective μ) (sorted_mono μ) (⟨0, by omega⟩ : Fin 4096)
  have hp := pick_eq μ k
  have hlt := (sortedFrom (Sel.before μ) ⟨k.val, by omega⟩).isLt
  have hlt0 := (sortedFrom (Sel.before μ) ⟨0, by omega⟩).isLt
  by_cases c1 : k.val < total μ
  · rw [if_pos c1]
    refine congrArg x (Fin.ext ?_)
    change min (Sel.pick μ k) 4095 = _
    rw [hp, if_pos (hk.mpr c1)]
    omega
  · rw [if_neg c1]
    by_cases c0 : 0 < total μ
    · rw [if_pos c0]
      refine congrArg x (Fin.ext ?_)
      change min (Sel.pick μ k) 4095 = _
      rw [hp, if_neg (mt hk.mp c1)]
      unfold nkey
      rw [if_pos (h0.mpr c0)]
      omega
    · rw [if_neg c0]
      refine congrArg x (Fin.ext ?_)
      change min (Sel.pick μ k) 4095 = 4095
      rw [hp, if_neg (mt hk.mp c1)]
      unfold nkey
      rw [if_neg (mt h0.mp c0)]
      rfl

open Classical in
theorem select_sum (μ : Fin 4096 → Prop) (x : Fin 4096 → ℝ) :
    ∑ k : Fin 16, x ⟨min (Sel.pick μ k) 4095, by omega⟩
      = (∑ j : Fin 4096, if μ j ∧ Sel.cnt μ j ≤ 16 then x j else 0)
        + (16 - ∑ j : Fin 4096, if μ j ∧ Sel.cnt μ j ≤ 16 then (1 : ℝ) else 0)
            * (∑ j : Fin 4096, if μ j ∧ Sel.cnt μ j = 1 then x j else 0)
        + (1 - ∑ j : Fin 4096, if μ j ∧ Sel.cnt μ j = 1 then (1 : ℝ) else 0) * 16 * x ⟨4095, by omega⟩ := by
  simp only [cnt_eq]
  exact select_sum_core μ (sortedFrom (Sel.before μ)) (sorted_bijective μ) (sorted_mono μ) x
    (fun k => x ⟨min (Sel.pick μ k) 4095, by omega⟩) (fun k => read_eq μ x k _)

end Concrete

end Cert.SelectMath

end
-- ==== Proof.RowCore.lean ====
import proofs.«123924_g12506944766668_retrytranche2_29_15_alg».proof.Proof.Shared
import proofs.«123924_g12506944766668_retrytranche2_29_15_alg».proof.Proof.Basics
import proofs.«123924_g12506944766668_retrytranche2_29_15_alg».proof.Proof.SelectMath

/-!
# One coordinate of one query row

Fix a query point, its ball `μ` over the 4096 candidates, one coordinate `q j` of every candidate and the
same coordinate `p` of the query point, all real.  The kernel weighs candidate `j` by `1` when it is in the
ball and its running count is at most sixteen (resp. exactly one) and contracts the weights with the
candidates' coordinates and with a column of ones; the reference sums, over its sixteen picks, the picked
candidate's coordinate minus the query's.  The two agree: this is the selection identity, transported into
the extended reals, where all the quantities are real.
-/

noncomputable section

namespace Cert.RowCore

open Cert.Shared Cert.Basics

/-- The kernel's weight of candidate `j` for "among the first sixteen of the ball". -/
def wK (μ : Fin 4096 → Prop) [DecidablePred μ] (j : Fin 4096) : EReal :=
  if ((Sel.cnt μ j : ℕ) : EReal) ≤ (16 : EReal) then (if μ j then (1 : EReal) else 0) else 0

/-- The kernel's weight of candidate `j` for "the first of the ball". -/
def fK (μ : Fin 4096 → Prop) [DecidablePred μ] (j : Fin 4096) : EReal :=
  if ((Sel.cnt μ j : ℕ) : EReal) = (1 : EReal) then (if μ j then (1 : EReal) else 0) else 0

theorem wK_mul (μ : Fin 4096 → Prop) [DecidablePred μ] (j : Fin 4096) (x : ℝ) :
    wK μ j * (x : EReal) = ((if μ j ∧ Sel.cnt μ j ≤ 16 then x else 0 : ℝ) : EReal) := by
  unfold wK
  by_cases h1 : Sel.cnt μ j ≤ 16 <;> by_cases h2 : μ j <;> simp [natCast_le_sixteen, h1, h2]

theorem fK_mul (μ : Fin 4096 → Prop) [DecidablePred μ] (j : Fin 4096) (x : ℝ) :
    fK μ j * (x : EReal) = ((if μ j ∧ Sel.cnt μ j = 1 then x else 0 : ℝ) : EReal) := by
  unfold fK
  by_cases h1 : Sel.cnt μ j = 1 <;> by_cases h2 : μ j <;> simp [natCast_eq_one, h1, h2]

/-- The kernel's summed difference vector, one coordinate, equals the reference's. -/
theorem row_core (μ : Fin 4096 → Prop) [DecidablePred μ] (q : Fin 4096 → ℝ) (p : ℝ) :
    (((∑ j : Fin 4096, wK μ j * (q j : EReal))
        + ((16 : EReal) - ∑ j : Fin 4096, wK μ j * (1 : EReal)) * (∑ j : Fin 4096, fK μ j * (q j : EReal)))
      + (((1 : EReal) - ∑ j : Fin 4096, fK μ j * (1 : EReal)) * 16) * (q ⟨4095, by omega⟩ : EReal))
      - 16 * (p : EReal)
    = 0 + ∑ k : Fin 16, ((q ⟨min (Sel.pick μ k) 4095, by omega⟩ : EReal) - (p : EReal)) := by
  have h1 : ∀ j, wK μ j * (1 : EReal) = ((if μ j ∧ Sel.cnt μ j ≤ 16 then (1 : ℝ) else 0 : ℝ) : EReal) := fun j => by
    have := wK_mul μ j 1; simpa using this
  have h2 : ∀ j, fK μ j * (1 : EReal) = ((if μ j ∧ Sel.cnt μ j = 1 then (1 : ℝ) else 0 : ℝ) : EReal) := fun j => by
    have := fK_mul μ j 1; simpa using this
  simp only [wK_mul, fK_mul, h1, h2, ← coe_sum]
  rw [zero_add, show (16 : EReal) = ((16 : ℝ) : EReal) by norm_cast, show (1 : EReal) = ((1 : ℝ) : EReal) by norm_cast]
  simp only [← EReal.coe_sub, ← EReal.coe_mul, ← EReal.coe_add, ← coe_sum]
  refine congrArg _ ?_
  have hs := Cert.SelectMath.select_sum μ q
  rw [Finset.sum_sub_distrib, Finset.sum_const, Finset.card_univ, Fintype.card_fin, nsmul_eq_mul, hs]
  push_cast
  congr!

end Cert.RowCore

end
-- ==== Proof.Spec.lean ====
import proofs.«123924_g12506944766668_retrytranche2_29_15_alg».proof.Proof.Shared

/-!
# The common value of the two programs

For query point `(b, s)`: the squared distance to candidate `j`, the ball (not farther than the radius),
the sixteen picked candidates (`Sel.pick`, clamped to the last index), the summed difference vector, its
length; and what both programs do to the total of all lengths at the end.
-/

noncomputable section

namespace Cert.Spec

open Cert.Shared Idealize.ShloMosaic Idealize.ShloMosaic.ValueIdx

/-- A `[16, 4096, 3]` array of extended reals. -/
abbrev Arr := (⟨3, ![16, 4096, 3]⟩ : Shape).Idx → EReal

/-- The squared distance from query point `(b, s)` of `x0` to candidate `j` of `x1`, as the reference forms it. -/
def dR (x0 x1 : Arr) (b : Fin 16) (s j : Fin 4096) : EReal :=
  ((Ideal.ofBits .f32 0xC0000000#32 * ∑ k : Fin 3, x0 (ix3 b s k) * x1 (ix3 b j k))
    + (0 + ∑ k : Fin 3, x0 (ix3 b s k) * x0 (ix3 b s k))) + (0 + ∑ k : Fin 3, x1 (ix3 b j k) * x1 (ix3 b j k))

/-- Candidate `j` is in the ball of query point `(b, s)`. -/
def inBall (x0 x1 : Arr) (b : Fin 16) (s j : Fin 4096) : Prop := ¬ (r2 < dR x0 x1 b s j)

/-- The `k`-th picked candidate of query point `(b, s)`. -/
def gidx (x0 x1 : Arr) (b : Fin 16) (s : Fin 4096) (k : Fin 16) : Fin 4096 :=
  ⟨min (Sel.pick (inBall x0 x1 b s) k) 4095, by omega⟩

/-- The summed difference vector of query point `(b, s)`, coordinate `c`. -/
def svR (x0 x1 : Arr) (b : Fin 16) (s : Fin 4096) (c : Fin 3) : EReal :=
  0 + ∑ k : Fin 16, (x1 (ix3 b (gidx x0 x1 b s k) c) - x0 (ix3 b s c))

/-- Its length. -/
def rowR (x0 x1 : Arr) (b : Fin 16) (s : Fin 4096) : EReal :=
  Ideal.sqrt (0 + ∑ c : Fin 3, svR x0 x1 b s c * svR x0 x1 b s c)

/-- The mean over all query points, divided by the number of points per batch, times twenty-four. -/
def tail (t : EReal) : EReal :=
  Ideal.div (Ideal.div t (Ideal.ofBits .f32 0x47800000#32)) (Ideal.ofBits .f32 0x45800000#32)
    * Ideal.ofBits .f32 0x41C00000#32

end Cert.Spec

end
-- ==== Proof.PointRow.lean ====
import proofs.«123924_g12506944766668_retrytranche2_29_15_alg».proof.Proof.KRow
import proofs.«123924_g12506944766668_retrytranche2_29_15_alg».proof.Proof.KCount
import proofs.«123924_g12506944766668_retrytranche2_29_15_alg».proof.Proof.KInputs
import proofs.«123924_g12506944766668_retrytranche2_29_15_alg».proof.Proof.KChunk
import proofs.«123924_g12506944766668_retrytranche2_29_15_alg».proof.Proof.KMask
import proofs.«123924_g12506944766668_retrytranche2_29_15_alg».proof.Proof.RowCore
import proofs.«123924_g12506944766668_retrytranche2_29_15_alg».proof.Proof.Spec

/-!
# One grid point of the kernel

Grid point `t` serves batch `b = t / 8` and the 512 query points `s = 512 · (t % 8) + r`.  With real
argument arrays, the mask the body forms is the indicator of the reference's ball (the two spellings of the
squared distance differ by moving the factor `-2` across a three-term sum, which is harmless on reals), its
running count is the ball's running count, and so the length the body computes for row `r` is the length the
reference computes for query point `(b, s)`: the point adds the sum of those 512 lengths to the total.
-/

noncomputable section

namespace Cert.PointRow

open Cert.KernelIdeal Cert.KernelIdeal.Gen Cert.KernelIdeal.Body Idealize.ShloMosaic Idealize.ShloMosaic.ValueIdx
open Idealize.ShloMosaic.TcCoe Idealize.SL.Sem
open Cert.Shared Cert.Basics
open Classical

/-- The pattern of `-2`. -/
theorem neg2_real : Ideal.ofBits .f32 0xC0000000#32 = ((-2 : ℝ) : EReal) := by
  simp [Ideal.ofBits, Ideal.ieee, -EReal.coe_mul]
  norm_num

/-- On real arrays the kernel's spelling of the squared distance is the reference's. -/
theorem dist_eq (x0 x1 : Spec.Arr) (p q : (⟨3, ![16, 4096, 3]⟩ : Shape).Idx → ℝ)
    (h0 : ∀ i, x0 i = (p i : EReal)) (h1 : ∀ i, x1 i = (q i : EReal)) (b : Fin 16) (s j : Fin 4096) :
    ((∑ k : Fin 3, x0 (ix3 b s k) * (Ideal.ofBits .f32 0xC0000000#32 * x1 (ix3 b j k)))
        + (0 + ∑ k : Fin 3, x0 (ix3 b s k) * x0 (ix3 b s k))) + (0 + ∑ k : Fin 3, x1 (ix3 b j k) * x1 (ix3 b j k))
      = Spec.dR x0 x1 b s j := by
  unfold Spec.dR
  congr 2
  simp only [h0, h1, neg2_real, Fin.sum_univ_three, ← EReal.coe_mul, ← EReal.coe_add]
  congr 1
  ring

variable (m : (ℓ : Loc nD τ sig) → Buf (Elt Ideal) ℓ) (c : Dev nD)

/-- The query points. -/
abbrev X0 : Spec.Arr := m ((c : Thread nD τ).loc main_arg0)
/-- The candidates. -/
abbrev X1 : Spec.Arr := m ((c : Thread nD τ).loc main_arg1)

/-- The query point that row `r` of a grid point with second coordinate `sb` serves. -/
abbrev qpt (sb : Fin 8) (r : Fin 512) : Fin 4096 := ⟨512 * sb.val + r.val, by omega⟩

section Point

variable (p q : (⟨3, ![16, 4096, 3]⟩ : Shape).Idx → ℝ)
  (h0 : ∀ i, X0 m c i = (p i : EReal)) (h1 : ∀ i, X1 m c i = (q i : EReal))
  (t : Fin cfg0.N) (b : Fin 16) (sb : Fin 8) (hb : b.val = t.val / 8) (hs : sb.val = t.val % 8)

include h0 h1 hb hs in
/-- The body's mask is the indicator of the reference's ball. -/
theorem mask_eq (r : Fin 512) (j : Fin 4096) :
    maskOf (F := Ideal) (iblk m c 0 t) (iblk m c 1 t) (iblk m c 2 t) (ix2 r j)
      = if Spec.inBall (X0 m c) (X1 m c) b (qpt sb r) j then (1 : EReal) else 0 := by
  rw [KMask.mask_apply]
  have e0 : ∀ k : Fin 3, (iblk m c 0 t : S1x512x4.Idx → EReal) (ix3 (0 : Fin 1) r (⟨k.val, by omega⟩ : Fin 4))
      = X0 m c (ix3 b (qpt sb r) k) := fun k => KInputs.iblk0_coord m c t b sb hb hs r k
  have e1 : ∀ k : Fin 3, (iblk m c 1 t : S1x3x4096.Idx → EReal) (ix3 (0 : Fin 1) k j)
      = Ideal.ofBits .f32 0xC0000000#32 * X1 m c (ix3 b j k) := fun k => KInputs.iblk1_apply m c t b sb hb hs k j
  have e2 : (iblk m c 0 t : S1x512x4.Idx → EReal) (ix3 (0 : Fin 1) r (3 : Fin 4))
      = 0 + ∑ k : Fin 3, X0 m c (ix3 b (qpt sb r) k) * X0 m c (ix3 b (qpt sb r) k) := KInputs.iblk0_norm m c t b sb hb hs r
  have e3 : (iblk m c 2 t : S1x1x4096.Idx → EReal) (ix3 (0 : Fin 1) (0 : Fin 1) j)
      = 0 + ∑ k : Fin 3, X1 m c (ix3 b j k) * X1 m c (ix3 b j k) := KInputs.iblk2_apply m c t b sb hb hs j
  have hd := dist_eq (X0 m c) (X1 m c) p q h0 h1 b (qpt sb r) j
  have fin : ∀ E : EReal, E = Spec.dR (X0 m c) (X1 m c) b (qpt sb r) j →
      (if E ≤ r2 then (1 : EReal) else 0)
        = if Spec.inBall (X0 m c) (X1 m c) b (qpt sb r) j then (1 : EReal) else 0 := by
    intro E hE
    subst hE
    unfold Spec.inBall
    by_cases h : r2 < Spec.dR (X0 m c) (X1 m c) b (qpt sb r) j
    · rw [if_neg (not_le.mpr h), if_neg (not_not.mpr h)]
    · rw [if_pos (not_lt.mp h), if_pos h]
  refine fin _ ?_
  simp only [e0, e1, e2, e3]
  exact hd

include h0 h1 hb hs in
/-- The body's running count is the ball's running count. -/
theorem count_eq (r : Fin 512) (j : Fin 4096) :
    countOf (F := Ideal) (k0_pay6 (iblk m c 5 t)) (k0_pay7 (iblk m c 6 t))
        (maskOf (iblk m c 0 t) (iblk m c 1 t) (iblk m c 2 t)) (ix2 r j)
      = ((Sel.cnt (Spec.inBall (X0 m c) (X1 m c) b (qpt sb r)) j : ℕ) : EReal) := by
  refine (KCount.countOf_apply _ _ _ (fun r j => Spec.inBall (X0 m c) (X1 m c) b (qpt sb r) j)
    (fun r j => mask_eq m c p q h0 h1 t b sb hb hs r j)
    (fun j ch => (KChunk.pay6_apply _ _).trans (KChunk.iblk5_apply m c t j ch))
    (fun ch j => (KChunk.pay7_apply _ _).trans (KChunk.iblk6_apply m c t ch j)) r j).trans ?_
  unfold Sel.cnt
  congr!

include h0 h1 hb hs in
/-- The length the body computes for row `r` is the reference's for the query point the row serves. -/
theorem row_eq (r : Fin 512) :
    KRow.rowLen (k0_pay4 (F := Ideal) (iblk m c 3 t)) (k0_pay8 (F := Ideal) (iblk m c 0 t))
        (k0_pay5 (F := Ideal) (iblk m c 4 t)) (maskOf (F := Ideal) (iblk m c 0 t) (iblk m c 1 t) (iblk m c 2 t))
        (countOf (F := Ideal) (k0_pay6 (iblk m c 5 t)) (k0_pay7 (iblk m c 6 t))
          (maskOf (iblk m c 0 t) (iblk m c 1 t) (iblk m c 2 t))) r
      = Spec.rowR (X0 m c) (X1 m c) b (qpt sb r) := by
  unfold KRow.rowLen Spec.rowR
  refine congrArg Ideal.sqrt (congrArg (0 + ·) (Finset.sum_congr rfl fun cc _ => ?_))
  have hsv : KRow.sumVec (k0_pay4 (F := Ideal) (iblk m c 3 t)) (k0_pay8 (F := Ideal) (iblk m c 0 t))
        (k0_pay5 (F := Ideal) (iblk m c 4 t)) (maskOf (F := Ideal) (iblk m c 0 t) (iblk m c 1 t) (iblk m c 2 t))
        (countOf (F := Ideal) (k0_pay6 (iblk m c 5 t)) (k0_pay7 (iblk m c 6 t))
          (maskOf (iblk m c 0 t) (iblk m c 1 t) (iblk m c 2 t))) r cc
      = Spec.svR (X0 m c) (X1 m c) b (qpt sb r) cc := by
    have v9c : ∀ j : Fin 4096, k0_pay5 (F := Ideal) (iblk m c 4 t) (ix2 j (⟨cc.val, by omega⟩ : Fin 4))
        = (q (ix3 b j cc) : EReal) := fun j =>
      (KMask.pay5_apply _ j _).trans ((KInputs.iblk4_coord m c t b sb hb hs j cc).trans (h1 _))
    have v91 : ∀ j : Fin 4096, k0_pay5 (F := Ideal) (iblk m c 4 t) (ix2 j (3 : Fin 4)) = (1 : EReal) := fun j =>
      (KMask.pay5_apply _ j 3).trans (KInputs.iblk4_one m c t b sb hb hs j)
    have v7c : k0_pay4 (F := Ideal) (iblk m c 3 t) (ix2 (0 : Fin 1) cc) = (q (ix3 b (4095 : Fin 4096) cc) : EReal) :=
      (KMask.pay4_apply _ cc).trans ((KInputs.iblk3_apply m c t b sb hb hs cc).trans (h1 _))
    have v14c : k0_pay8 (F := Ideal) (iblk m c 0 t) (ix2 r cc) = (p (ix3 b (qpt sb r) cc) : EReal) :=
      (KMask.pay8_apply _ r cc).trans ((KInputs.iblk0_coord m c t b sb hb hs r cc).trans (h0 _))
    have core := RowCore.row_core (Spec.inBall (X0 m c) (X1 m c) b (qpt sb r)) (fun j => q (ix3 b j cc))
      (p (ix3 b (qpt sb r) cc))
    unfold RowCore.wK RowCore.fK at core
    unfold KRow.sumVec KRow.wSel KRow.fSel Spec.svR Spec.gidx
    simp only [count_eq m c p q h0 h1 t b sb hb hs r, mask_eq m c p q h0 h1 t b sb hb hs r, v9c, v91, v7c, v14c, h1, h0]
    exact core
  rw [hsv]

include h0 h1 hb hs in
/-- The running total after grid point `t`: the total before it plus the lengths of its 512 query points. -/
theorem step_eq (acc : Vec Ideal S1x1 .f32) :
    step (F := Ideal) (iblk m c 0 t) (iblk m c 1 t) (iblk m c 2 t) (iblk m c 3 t) (iblk m c 4 t) (iblk m c 5 t)
        (iblk m c 6 t) acc (ix2 (0 : Fin 1) (0 : Fin 1))
      = acc (ix2 (0 : Fin 1) (0 : Fin 1)) + (0 + ∑ r : Fin 512, Spec.rowR (X0 m c) (X1 m c) b (qpt sb r)) := by
  unfold step
  rw [KRow.step_apply]
  exact congrArg (acc (ix2 (0 : Fin 1) (0 : Fin 1)) + ·) (congrArg (0 + ·)
    (Finset.sum_congr rfl fun r _ => row_eq m c p q h0 h1 t b sb hb hs r))

end Point

end Cert.PointRow

end
-- ==== Proof.Total.lean ====
import proofs.«123924_g12506944766668_retrytranche2_29_15_alg».proof.Proof.PointRow
import proofs.«123924_g12506944766668_retrytranche2_29_15_alg».proof.Proof.KRun

/-!
# The total over all grid points

The 128 grid points, in order, serve the query rows `512 · t + r` of the flattened `16 · 4096` query points
(batch `(512 · t + r) / 4096 = t / 8`, point `(512 · t + r) % 4096 = 512 · (t % 8) + r`).  Each point adds the
sum of its 512 lengths to the running total, which starts at zero; so after the last point the total is the sum
of the lengths of all query points, taken batch by batch.
-/

noncomputable section

namespace Cert.Total

open Cert.KernelIdeal Cert.KernelIdeal.Gen Cert.KernelIdeal.Body Idealize.ShloMosaic Idealize.ShloMosaic.ValueIdx
open Idealize.ShloMosaic.TcCoe Idealize.SL.Sem
open Cert.Shared Cert.Basics Cert.PointRow

/-- A sum over `a · b` indices, taken as `a` blocks of `b`, over a range. -/
theorem sum_blocks_range {M : Type*} [AddCommMonoid M] (a b : ℕ) (f : ℕ → M) :
    ∑ i : Fin a, ∑ j : Fin b, f (b * i.val + j.val) = ∑ k ∈ Finset.range (a * b), f k := by
  rw [Finset.sum_range]
  exact sum_blocks a b f

variable (m : (ℓ : Loc nD τ sig) → Buf (Elt Ideal) ℓ) (c : Dev nD)

/-- The length of the query point with flattened number `R`. -/
def H (R : ℕ) : EReal :=
  if hR : R < 65536 then Spec.rowR (X0 m c) (X1 m c) ⟨R / 4096, by omega⟩ ⟨R % 4096, by omega⟩ else 0

/-- Row `r` of grid point `t` is the query point with flattened number `512 · t + r`. -/
theorem H_point (t : ℕ) (ht : t < 128) (b : Fin 16) (sb : Fin 8) (hb : b.val = t / 8) (hs : sb.val = t % 8) (r : Fin 512) :
    Spec.rowR (X0 m c) (X1 m c) b (qpt sb r) = H m c (512 * t + r.val) := by
  have hr := r.isLt
  unfold H
  rw [dif_pos (by omega)]
  congr 1 <;> exact Fin.ext (by simp only [qpt]; omega)

/-- Query point `(b, s)` has flattened number `4096 · b + s`. -/
theorem H_flat (b : Fin 16) (s : Fin 4096) : H m c (4096 * b.val + s.val) = Spec.rowR (X0 m c) (X1 m c) b s := by
  have hb := b.isLt
  have hs := s.isLt
  unfold H
  rw [dif_pos (by omega)]
  congr 1 <;> exact Fin.ext (by simp only; omega)

section Real

variable (p q : (⟨3, ![16, 4096, 3]⟩ : Shape).Idx → ℝ)
  (h0 : ∀ i, X0 m c i = (p i : EReal)) (h1 : ∀ i, X1 m c i = (q i : EReal))

include h0 h1 in
/-- The running total after grid point `n`: the lengths of all rows of the points up to `n`. -/
theorem acc_eq : ∀ (n : ℕ) (h : n < cfg0.N),
    outsAt0 m c n h (ix2 (0 : Fin 1) (0 : Fin 1))
      = ∑ k ∈ Finset.range (n + 1), (0 + ∑ r : Fin 512, H m c (512 * k + r.val))
  | 0, h => by
    rw [KRun.outsAt0_zero m c h,
      step_eq m c p q h0 h1 ⟨0, h⟩ (0 : Fin 16) (0 : Fin 8) (by simp) (by simp), KRow.pay1_apply, Finset.sum_range_one, zero_add]
    exact congrArg (0 + ·) (Finset.sum_congr rfl fun r _ => H_point m c 0 (by omega) 0 0 (by simp) (by simp) r)
  | n + 1, h => by
    have hN : n + 1 < 128 := lt_of_lt_of_eq h N_0
    rw [KRun.outsAt0_succ m c n h,
      step_eq m c p q h0 h1 ⟨n + 1, h⟩ (⟨(n + 1) / 8, by omega⟩ : Fin 16) (⟨(n + 1) % 8, by omega⟩ : Fin 8) rfl rfl,
      acc_eq n (Nat.lt_of_succ_lt h), Finset.sum_range_succ _ (n + 1)]
    exact congrArg (_ + ·) (congrArg (0 + ·) (Finset.sum_congr rfl fun r _ =>
      H_point m c (n + 1) hN ⟨(n + 1) / 8, by omega⟩ ⟨(n + 1) % 8, by omega⟩ rfl rfl r))

include h0 h1 in
/-- After the last grid point the total is the sum of the lengths of all query points. -/
theorem total_eq :
    outsAt0 m c 127 KRun.tLast.isLt (ix2 (0 : Fin 1) (0 : Fin 1))
      = 0 + ∑ b : Fin 16, ∑ s : Fin 4096, Spec.rowR (X0 m c) (X1 m c) b s := by
  rw [acc_eq m c p q h0 h1 127 KRun.tLast.isLt, zero_add]
  simp only [zero_add]
  have e1 : ∑ k ∈ Finset.range (127 + 1), ∑ r : Fin 512, H m c (512 * k + r.val)
      = ∑ K ∈ Finset.range (128 * 512), H m c K := by
    rw [← sum_blocks_range 128 512 (H m c), Finset.sum_range]
  have e2 : ∑ b : Fin 16, ∑ s : Fin 4096, Spec.rowR (X0 m c) (X1 m c) b s
      = ∑ K ∈ Finset.range (16 * 4096), H m c K := by
    rw [← sum_blocks_range 16 4096 (H m c)]
    exact Finset.sum_congr rfl fun b _ => Finset.sum_congr rfl fun s _ => (H_flat m c b s).symm
  rw [e1, e2]

end Real

end Cert.Total

end
-- ==== Proof.Finite.lean ====
import proofs.«123924_g12506944766668_retrytranche2_29_15_alg».proof.Pre_finite_inputs
import Idealize.ShloMosaic.Lib.ReduceAll
import Idealize.ShloMosaic.Lib.ValueIdx
import Idealize.ShloMosaic.PureOps.Ideal.Laws

/-!
# Finite inputs are real

The precondition says of each argument array that every entry's absolute value is below `+∞`.  On the
extended reals this says exactly that every entry is a real number.
-/

noncomputable section

namespace Cert.Finite

open Idealize.ShloMosaic Cert.Pre_finite_inputs

variable [Facts]

instance : Subsingleton S_.Idx := ⟨fun a b => funext fun d => d.elim0⟩

/-- An extended real whose absolute value is below the pattern of `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition every entry of both argument arrays is a real number. -/
theorem real_of_pre (x0 x1 : FVec Ideal S16x4096x3 .f32) (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => ?_, fun i => ?_⟩
  · exact real_of_abs_lt (x0 i) (Host.reduce_andi_all _ _ _ _ _ ha i)
  · exact real_of_abs_lt (x1 i) (Host.reduce_andi_all _ _ _ _ _ hb i)

end Cert.Finite

end
-- ==== Proof.lean ====
/-
  The certificate of the ball-query end-distance kernel against its reference.

  Both programs compute, for every query point, the sum over its sixteen selected neighbours of the
  difference vectors, take the length of that sum, and return the mean of the lengths over all query
  points, divided by the number of points in a batch and multiplied by twenty-four.  The reference selects
  by sorting candidate keys; the kernel selects by the running count of in-radius candidates along each
  row (`SelectMath`, `RowCore`).  On real inputs the two masks agree (`PointRow.mask_eq`), hence the
  counts, the selected sums and the lengths (`PointRow.row_eq`); the kernel's grid accumulates the lengths
  block by block, which is the reference's one sum taken in another order (`Total.total_eq`); the final
  scalings are the same three operations on both sides.  The three frames are the generated ones (the
  reference's is its run with the result dropped); nothing was rewritten by the idealization, so
  `preserves` is trivial.
-/
import proofs.«123924_g12506944766668_retrytranche2_29_15_alg».proof.Defs
import proofs.«123924_g12506944766668_retrytranche2_29_15_alg».proof.Proof.Gen.Kernel
import proofs.«123924_g12506944766668_retrytranche2_29_15_alg».proof.Proof.Gen.Kernel.Skeleton
import proofs.«123924_g12506944766668_retrytranche2_29_15_alg».proof.Proof.Gen.Kernel.Launch
import proofs.«123924_g12506944766668_retrytranche2_29_15_alg».proof.Proof.Gen.Kernel.Points
import proofs.«123924_g12506944766668_retrytranche2_29_15_alg».proof.Proof.Gen.Kernel.Frame
import proofs.«123924_g12506944766668_retrytranche2_29_15_alg».proof.Proof.Gen.KernelIdeal
import proofs.«123924_g12506944766668_retrytranche2_29_15_alg».proof.Proof.Gen.KernelIdeal.Skeleton
import proofs.«123924_g12506944766668_retrytranche2_29_15_alg».proof.Proof.Gen.KernelIdeal.Launch
import proofs.«123924_g12506944766668_retrytranche2_29_15_alg».proof.Proof.Gen.KernelIdeal.Points
import proofs.«123924_g12506944766668_retrytranche2_29_15_alg».proof.Proof.Gen.KernelIdeal.Frame
import proofs.«123924_g12506944766668_retrytranche2_29_15_alg».proof.Proof.Gen.ReferenceIdeal
import proofs.«123924_g12506944766668_retrytranche2_29_15_alg».proof.Proof.Gen.Pre_finite_inputs
import proofs.«123924_g12506944766668_retrytranche2_29_15_alg».proof.Proof.RefRun
import proofs.«123924_g12506944766668_retrytranche2_29_15_alg».proof.Proof.RefValue
import proofs.«123924_g12506944766668_retrytranche2_29_15_alg».proof.Proof.KRun
import proofs.«123924_g12506944766668_retrytranche2_29_15_alg».proof.Proof.Total
import proofs.«123924_g12506944766668_retrytranche2_29_15_alg».proof.Proof.Finite
import Idealize.ShloMosaic.Adequacy
import Idealize.ShloMosaic.Init

noncomputable section

namespace Cert.Proof

open Idealize.ShloMosaic Idealize.SL.Sem Idealize.ShloMosaic.ValueIdx

/-- The reference's row definitions are the common ones. -/
theorem rowR_eq (x0 x1 : Cert.Spec.Arr) (b : Fin 16) (s : Fin 4096) :
    Cert.ReferenceIdeal.RefValue.rowR x0 x1 b s = Cert.Spec.rowR x0 x1 b s := by
  have hd : ∀ j, Cert.ReferenceIdeal.RefValue.dR x0 x1 b s j = Cert.Spec.dR x0 x1 b s j := fun _ => rfl
  have hb : Cert.ReferenceIdeal.RefValue.inBall x0 x1 b s = Cert.Spec.inBall x0 x1 b s :=
    funext fun j => by unfold Cert.ReferenceIdeal.RefValue.inBall Cert.Spec.inBall; rw [hd]
  have hg : ∀ k, Cert.ReferenceIdeal.RefValue.gidx x0 x1 b s k = Cert.Spec.gidx x0 x1 b s k := fun k => by
    unfold Cert.ReferenceIdeal.RefValue.gidx Cert.Spec.gidx; simp only [hb]
  have hv : ∀ c, Cert.ReferenceIdeal.RefValue.svR x0 x1 b s c = Cert.Spec.svR x0 x1 b s c := fun c => by
    unfold Cert.ReferenceIdeal.RefValue.svR Cert.Spec.svR; simp only [hg]
  unfold Cert.ReferenceIdeal.RefValue.rowR Cert.Spec.rowR
  simp only [hv]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same scalar: the scaled sum of the lengths of all query points. -/
theorem algebraic : Cert.algebraic_KernelIdeal_ReferenceIdeal := by
  intro m ρ m' ρ' hpre hagree
  refine ⟨fun c => fun _ => Cert.KernelIdeal.KRun.tailK
      (Cert.KernelIdeal.Gen.outsAt0 m c 127 Cert.KernelIdeal.KRun.tLast.isLt (ix2 (0 : Fin 1) (0 : Fin 1))),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1⟩ := Cert.Finite.real_of_pre _ _ (hpre c)
  choose p hp using f0
  choose q hq using f1
  rw [Cert.ReferenceIdeal.Value.val_main_v54_eq, (hagree c).1, (hagree c).2]
  funext i
  rw [ValueIdx.eq_ix0 i, Cert.ReferenceIdeal.RefValue.ref_value]
  show _ = Cert.KernelIdeal.KRun.tailK
    (Cert.KernelIdeal.Gen.outsAt0 m c 127 Cert.KernelIdeal.KRun.tLast.isLt (ix2 (0 : Fin 1) (0 : Fin 1)))
  rw [Cert.Total.total_eq m c p q hp hq]
  simp only [rowR_eq]
  rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
